-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  reducesTo_S8192x128_S8192_d1 : S8192x128.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := mulf main_arg0 main_arg0
  let main_cst_0 : FVec F S_ .f32 := constant S_ .f32 0x00000000#32
  let main_v5 : FVec F S8192 .f32 := (fun x v => Host.reduceAdd x v reducesTo_S8192x128_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S256x128 : Shape := ⟨2, ![256, 128]⟩
abbrev S1024x1 : Shape := ⟨2, ![1024, 1]⟩
abbrev S1x256 : Shape := ⟨2, ![1, 256]⟩
abbrev S1024 : Shape := ⟨1, ![1024]⟩
abbrev S256 : Shape := ⟨1, ![256]⟩
abbrev S256x1 : Shape := ⟨2, ![256, 1]⟩
abbrev S128x256 : Shape := ⟨2, ![128, 256]⟩
abbrev S1024x256 : Shape := ⟨2, ![1024, 256]⟩
abbrev S_ : Shape := ⟨0, ![]⟩

abbrev nBuf : Space → Nat
  | .hbm => 12
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S1024x1, .i32⟩
  | .local _ .vmem, ⟨5, _⟩ => ⟨S1024x1, .i32⟩
  | .local _ .vmem, ⟨6, _⟩ => ⟨S1x256, .i32⟩
  | .local _ .vmem, ⟨7, _⟩ => ⟨S1x256, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v70 : BitVec 1 := Scalar.cmpi .eq arg1 c31_i32
  let v71 : BitVec 32 := Scalar.extui v70
  let c0_i32_27 : BitVec 32 := 0#32
  let v72 : BitVec 1 := Scalar.cmpi .ne v71 c0_i32_27
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S256x128_S256x128_0_0 : ∀ a, (![0, 0] : Fin 2 → Nat) a + S256x128.size a ≤ S256x128.size a
  h_S256x128 : 0 < S256x128.numel
  reduces_S1024x128_S1024 : S1024x128.Reduces [1] S1024
  shapeCasts_S1024_S1024x1 : S1024.ShapeCasts S1024x1
  broadcasts_S1024x1_S1024x128 : S1024x1.Broadcasts S1024x128
  reduces_S256x128_S256 : S256x128.Reduces [1] S256
  shapeCasts_S256_S256x1 : S256.ShapeCasts S256x1
  broadcasts_S256x1_S256x128 : S256x1.Broadcasts S256x128
  bitsLt_bf16_f32 : FTy.bits .bf16 < FTy.bits .f32
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1024x1_S1024x256 : S1024x1.Broadcasts S1024x256
  broadcasts_S1x256_S1024x256 : S1x256.Broadcasts S1024x256
  natLt_1_32 : 1 < 32
  iota_S1024x256_d0_w32 : S1024x256.Iotas .tc 32 [0]
  iota_S1024x256_d1_w32 : S1024x256.Iotas .tc 32 [1]
  reduces_S1024x256_S1024 : S1024x256.Reduces [1] S1024
  reducesTo_S8192x1_S_d0_1 : S8192x1.ReducesTo [0, 1] S_
  h_S_ : 0 < S_.numel
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x128.size a
  hwx0_1 : ∀ i : grid0.Coords, EltTy.bits .f32 = 32 ∨ (Rect.block (s := S8192x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .i32 = 32 ∨ (Rect.block (s := S1x8192) S1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x128, .f32⟩
  | .hbm, ⟨8, _⟩ => ⟨S8192x128, .f32⟩
  | .hbm, ⟨9, _⟩ => ⟨S128x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .f32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .i1⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_call2_v0 : Ref sig .tc := ⟨.hbm, 56, rfl⟩
abbrev main_call2_v1 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.Spec.lean ====
/-
  The loss both programs compute, written once as a function of the two argument arrays, entry by entry.

  x is the 8192 x 128 matrix of embeddings, lab the 8192 labels. Row a of x is scaled to unit length
  (each entry times the reciprocal square root of the row's sum of squares); logit a b is the inner product
  of the scaled rows a and b times the inverse temperature; same a b is 1 when the two labels agree; offd a b is 0 on
  the diagonal and 1 off it. For each row a: Z a is the sum over b ≠ a of exp (logit a b), S a the sum of the logits
  over the other rows with a's label, cnt a the number of such rows; the row's term is S a / cnt a - log (Z a) when
  cnt a > 0 and 0 otherwise, and the loss is minus the sum of the rows' terms divided by the number of rows with cnt a > 0.
-/
import Idealize.ShloMosaic.PureOps.Ideal
import Idealize.ShloMosaic.Lib.ValueIdx

noncomputable section

open scoped BigOperators

namespace Cert.Spec

open Idealize.ShloMosaic Idealize.ShloMosaic.ValueIdx

/-- The embeddings: an extended real at each index of the 8192 x 128 array. -/
abbrev XArr := (⟨2, ![8192, 128]⟩ : Shape).Idx → EReal
/-- The labels: a 32-bit word at each index of the length-8192 array. -/
abbrev LArr := (⟨1, ![8192]⟩ : Shape).Idx → BitVec 32

/-- The inverse temperature: the reciprocal of the single-precision number nearest to one tenth. -/
def invT : EReal := ((134217728 / 13421773 : ℝ) : EReal)

/-- Row a's sum of squares. -/
def ss (x : XArr) (a : Fin 8192) : EReal := ∑ d : Fin 128, x (ix2 a d) * x (ix2 a d)
/-- Row a scaled to unit length, at column d. -/
def xn (x : XArr) (a : Fin 8192) (d : Fin 128) : EReal := x (ix2 a d) * Ideal.rsqrt (ss x a)
/-- The similarity of rows a and b over the temperature. -/
def logit (x : XArr) (a b : Fin 8192) : EReal := (∑ d : Fin 128, xn x a d * xn x b d) * invT
/-- 1 when rows a and b carry the same label, else 0. -/
def same (lab : LArr) (a b : Fin 8192) : EReal := if lab (ix1 a) = lab (ix1 b) then 1 else 0
/-- 0 on the diagonal, 1 off it. -/
def offd (a b : Fin 8192) : EReal := if a = b then 0 else 1
/-- 1 when b is another row with a's label. -/
def nm (lab : LArr) (a b : Fin 8192) : EReal := same lab a b * offd a b
/-- The normaliser of row a: the sum of exp (logit a b) over the other rows b. -/
def Z (x : XArr) (a : Fin 8192) : EReal := ∑ b : Fin 8192, Ideal.exp (logit x a b) * offd a b
/-- The sum of row a's logits against the other rows with its label. -/
def S (x : XArr) (lab : LArr) (a : Fin 8192) : EReal := ∑ b : Fin 8192, logit x a b * nm lab a b
/-- How many other rows carry row a's label. -/
def cnt (lab : LArr) (a : Fin 8192) : EReal := ∑ b : Fin 8192, nm lab a b
/-- Row a's term of the loss. -/
def perRow (x : XArr) (lab : LArr) (a : Fin 8192) : EReal :=
  if 0 < cnt lab a then Ideal.div (S x lab a) (cnt lab a) - Ideal.log (Z x a) else 0
/-- 1 when some other row carries row a's label. -/
def valid (lab : LArr) (a : Fin 8192) : EReal := if 0 < cnt lab a then 1 else 0
/-- The loss. -/
def loss (x : XArr) (lab : LArr) : EReal :=
  Ideal.div (-(∑ a : Fin 8192, perRow x lab a)) (∑ a : Fin 8192, valid lab a)

/-- Every embedding is a real number. -/
def Finite (x : XArr) : Prop := ∀ i, ∃ r : ℝ, x i = (r : EReal)
/-- No row of the embeddings is zero: every row's sum of squares is positive. -/
def RowsNonzero (x : XArr) : Prop := ∀ a : Fin 8192, 0 < ss x a

end Cert.Spec

end
-- ==== Proof.LibSelectorSum.lean ====
/-
  A sum against a one-hot selector, and the identity matrix's entry as a host program builds it.

  Multiplying a row by a block-diagonal (or any one-hot weighted) matrix leaves a sum in which every term but one is a
  product with zero. On the extended reals `0 · a = 0`, `a · 0 = 0` and `1 · a = a` hold for every `a`, the infinities
  included, so the sum collapses to its one term with no finiteness hypothesis.

  `jnp.eye` prints as: the row number (plus a zero offset) compared for equality with the column number, both as 32-bit
  words, and the one-bit answer converted to a float. For numbers below 2³² the words are equal exactly when the numbers
  are, so at the ideal values the entry is one on the diagonal and zero off it.
-/
import Idealize.ShloMosaic.Lib.ValueIdx
import Idealize.ShloMosaic.Lib.Affine
import Idealize.ShloMosaic.PureOps.Ideal.Laws

noncomputable section

namespace Cert.Lib.SelectorSum

open Idealize.ShloMosaic Idealize.ShloMosaic.ValueIdx
open scoped BigOperators

/-- A sum against a selector: if `e` is one at `f` and zero elsewhere, `∑ c, xr c · (e c · w) = xr f · w` on the
    extended reals, whatever the values (finite or not) of `xr` and `w`. -/
theorem sum_select {n : ℕ} (f : Fin n) (xr e : Fin n → EReal) (w : EReal)
    (h1 : e f = 1) (h0 : ∀ c, c ≠ f → e c = 0) :
    ∑ c, xr c * (e c * w) = xr f * w := by
  rw [Finset.sum_eq_single f]
  · rw [h1, one_mul]
  · intro c _ hc
    rw [h0 c hc, zero_mul, mul_zero]
  · intro h
    exact absurd (Finset.mem_univ f) h

/-- The identity matrix's entry (k, f) as the host builds it — `uitofp (cmpi eq (k + 0) f)` on 32-bit words — is, at the
    ideal values, one when `k = f` and zero otherwise, for any extent that fits a 32-bit word. -/
theorem eye_entry {n : ℕ} (hn : n ≤ 2 ^ 32) (k f : Fin n) :
    (FloatOps.uitofp (F := Ideal) .f32
      (IntOp.cmpi .eq (IntOp.addi (BitVec.ofNat 32 k.val) 0#32) (BitVec.ofNat 32 f.val)) : EReal)
      = if k = f then 1 else 0 := by
  have hadd : IntOp.addi (BitVec.ofNat 32 k.val) 0#32 = BitVec.ofNat 32 k.val := by
    unfold IntOp.addi; exact BitVec.add_zero _
  rw [hadd]
  by_cases h : k = f
  · subst h
    rw [if_pos rfl, IntOp.cmpi_eq.mpr rfl]
    show (((1#1 : BitVec 1).toNat : ℝ) : EReal) = 1
    norm_num
  · rw [if_neg h]
    have hne : ¬ IntOp.cmpi .eq (BitVec.ofNat 32 k.val) (BitVec.ofNat 32 f.val) = 1#1 := fun e => h (Fin.ext (by
      have e2 := congrArg BitVec.toNat (IntOp.cmpi_eq.mp e)
      simp only [BitVec.toNat_ofNat] at e2
      have hk := k.isLt
      have hf := f.isLt
      omega))
    rw [eq_zero_of_ne_one hne]
    show (((0#1 : BitVec 1).toNat : ℝ) : EReal) = 0
    norm_num

end Cert.Lib.SelectorSum

end
-- ==== Proof.RefValueA.lean ====
/-
  The entries of the reference's arrays, one operation at a time, as the quantities of the specification.

  Everything here is about single extended reals and single words: a sum over the one-coordinate index set as a sum over
  the coordinate, the "same label" entry (a comparison of two words converted to a float), the off-diagonal entry
  (one minus the identity matrix's entry), the comparison "count > 0" as a bit, and the two selects of the row term.
-/
import proofs.«114130_j9689446219883_1_alg».proof.Proof.Spec
import proofs.«114130_j9689446219883_1_alg».proof.Proof.LibSelectorSum
import Idealize.ShloMosaic.Lib.IdealHost

noncomputable section

open scoped BigOperators

namespace Cert.RefValue

open Idealize.ShloMosaic Idealize.ShloMosaic.ValueIdx Cert.Spec

/-- The one-coordinate index set is its coordinate's range. -/
def idxEquiv1 {n : Nat} : (⟨1, ![n]⟩ : Shape).Idx ≃ Fin n where
  toFun i := i 0
  invFun a := ix1 a
  left_inv i := (eq_ix1 i).symm
  right_inv _ := rfl

/-- A sum over the one-coordinate index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A bit converted to a float: one for the set bit, zero for the clear one. -/
theorem uitofp_one : (FloatOps.uitofp (F := Ideal) .f32 (1#1 : BitVec 1) : EReal) = 1 := by
  show (((1#1 : BitVec 1).toNat : ℝ) : EReal) = 1
  norm_num

theorem uitofp_zero : (FloatOps.uitofp (F := Ideal) .f32 (0#1 : BitVec 1) : EReal) = 0 := by
  show (((0#1 : BitVec 1).toNat : ℝ) : EReal) = 0
  norm_num

/-- The "same label" entry: the comparison of the two labels' words, converted to a float. -/
theorem same_entry (lab : LArr) (a b : Fin 8192) :
    (FloatOps.uitofp (F := Ideal) .f32 (IntOp.cmpi .eq (lab (ix1 a)) (lab (ix1 b))) : EReal) = same lab a b := by
  unfold same
  by_cases h : lab (ix1 a) = lab (ix1 b)
  · rw [if_pos h, IntOp.cmpi_eq.mpr h]; exact uitofp_one
  · rw [if_neg h, eq_zero_of_ne_one (fun e => h (IntOp.cmpi_eq.mp e))]; exact uitofp_zero

/-- The off-diagonal entry: one minus the identity matrix's entry. -/
theorem offd_entry (a b : Fin 8192) :
    (Ideal.ofBits .f32 0x3F800000#32 -
      (FloatOps.uitofp (F := Ideal) .f32
        (IntOp.cmpi .eq (IntOp.addi (BitVec.ofNat 32 a.val) 0#32) (BitVec.ofNat 32 b.val)) : EReal)) = offd a b := by
  rw [Cert.Lib.SelectorSum.eye_entry (by norm_num) a b, Ideal.ofBits_one_f32]
  unfold offd
  by_cases h : a = b
  · rw [if_pos h, if_pos h, ← EReal.coe_one, ← EReal.coe_sub, sub_self, EReal.coe_zero]
  · rw [if_neg h, if_neg h, sub_zero]

/-- The comparison "c > 0" as a bit. -/
theorem gt_zero_bit (c : EReal) :
    FloatOps.cmpf (F := Ideal) (φ := .f32) .ogt c (Ideal.ofBits .f32 0x00000000#32) = if 0 < c then 1#1 else 0#1 := by
  rw [Ideal.cmpf_def, Ideal.ofBits_zero_f32]
  unfold Ideal.cmp
  by_cases h : (0 : EReal) < c
  · rw [if_pos h]; simp [h]
  · rw [if_neg h]; simp [h]

/-- That bit converted to a float is the specification's indicator. -/
theorem valid_entry (c : EReal) :
    (FloatOps.uitofp (F := Ideal) .f32 (if 0 < c then 1#1 else 0#1 : BitVec 1) : EReal) = if 0 < c then 1 else 0 := by
  by_cases h : (0 : EReal) < c
  · rw [if_pos h, if_pos h]; exact uitofp_one
  · rw [if_neg h, if_neg h]; exact uitofp_zero

/-- The row term's two selects: the quotient by the count where the count is positive, zero elsewhere. -/
theorem row_entry (c T one zero : EReal) :
    Scalar.select (if 0 < c then 1#1 else 0#1 : BitVec 1)
        (Ideal.div T (Scalar.select (if 0 < c then 1#1 else 0#1 : BitVec 1) c one)) zero
      = if 0 < c then Ideal.div T c else zero := by
  by_cases h : (0 : EReal) < c
  · rw [if_pos h, if_pos h, select_one, select_one]
  · rw [if_neg h, if_neg h, select_zero]

end Cert.RefValue

end
-- ==== Proof.RefValueB.lean ====
/-
  The reference program's arrays read at an index, first part: everything that needs no hypothesis on the embeddings.

  Each stage of the reference is read at an index built from its coordinates. The row sums of squares are the
  specification's; a normalised entry is the embedding over the square root of its row's sum of squares; the product
  matrix's entry over the temperature word is a quotient of an inner product of normalised rows; the two label
  broadcasts compare to the "same label" entry; one minus the identity is the off-diagonal entry; their product is the
  positive-pair mask, whose row sums are the counts; "count > 0" is a bit, and that bit as a float is the indicator.
-/
import proofs.«114130_j9689446219883_1_alg».proof.Proof.RefRead
import proofs.«114130_j9689446219883_1_alg».proof.Proof.RefValueA

noncomputable section

open scoped BigOperators

namespace Cert.RefValue

open Idealize.ShloMosaic Idealize.ShloMosaic.ValueIdx Cert.Spec Cert.ReferenceIdeal Cert.ReferenceIdeal.ReadP

/-! ## The layout operations' source indices, by coordinates -/

theorem ix_call0_v1 (a : Fin 8192) (k : Fin 128) : idx_main_call0_v1 (ix1 a) k = ix2 a k :=
  funext fun d => Fin.ext (by match d with | ⟨0, _⟩ => rfl | ⟨1, _⟩ => rfl)
theorem ix_call0_v2 (a : Fin 8192) (z : Fin 1) : idx_main_call0_v2 (ix2 a z) = ix1 a :=
  funext fun d => Fin.ext (by match d with | ⟨0, _⟩ => rfl)
theorem ix_v1 (a : Fin 8192) (k : Fin 128) : idx_main_v1 (ix2 a k) = ix2 a (0 : Fin 1) :=
  funext fun d => Fin.ext (by match d with | ⟨0, _⟩ => rfl | ⟨1, _⟩ => rfl)
theorem ix_v3 (k : Fin 128) (b : Fin 8192) : idx_main_v3 (ix2 k b) = ix2 b k :=
  funext fun d => Fin.ext (by match d with | ⟨0, _⟩ => rfl | ⟨1, _⟩ => rfl)
theorem ix_lv4 (a b : Fin 8192) (k : Fin 128) : lidx_main_v4 (ix2 a b) k = ix2 a k :=
  funext fun d => Fin.ext (by match d with | ⟨0, _⟩ => rfl | ⟨1, _⟩ => rfl)
theorem ix_rv4 (a b : Fin 8192) (k : Fin 128) : ridx_main_v4 (ix2 a b) k = ix2 k b :=
  funext fun d => Fin.ext (by match d with | ⟨0, _⟩ => rfl | ⟨1, _⟩ => rfl)
theorem ix_v7 (a : Fin 8192) (z : Fin 1) : idx_main_v7 (ix2 a z) = ix1 a :=
  funext fun d => Fin.ext (by match d with | ⟨0, _⟩ => rfl)
theorem ix_v8 (z : Fin 1) (b : Fin 8192) : idx_main_v8 (ix2 z b) = ix1 b :=
  funext fun d => Fin.ext (by match d with | ⟨0, _⟩ => rfl)
theorem ix_v9 (a b : Fin 8192) : idx_main_v9 (ix2 a b) = ix2 a (0 : Fin 1) :=
  funext fun d => Fin.ext (by match d with | ⟨0, _⟩ => rfl | ⟨1, _⟩ => rfl)
theorem ix_v10 (a b : Fin 8192) : idx_main_v10 (ix2 a b) = ix2 (0 : Fin 1) b :=
  funext fun d => Fin.ext (by match d with | ⟨0, _⟩ => rfl | ⟨1, _⟩ => rfl)
theorem ix_v26 (a k : Fin 8192) : idx_main_v26 (ix1 a) k = ix2 a k :=
  funext fun d => Fin.ext (by match d with | ⟨0, _⟩ => rfl | ⟨1, _⟩ => rfl)
theorem ix_v28 (a : Fin 8192) (z : Fin 1) : idx_main_v28 (ix2 a z) = ix1 a :=
  funext fun d => Fin.ext (by match d with | ⟨0, _⟩ => rfl)
theorem ix_v29 (a b : Fin 8192) : idx_main_v29 (ix2 a b) = ix2 a (0 : Fin 1) :=
  funext fun d => Fin.ext (by match d with | ⟨0, _⟩ => rfl | ⟨1, _⟩ => rfl)
theorem ix_v31 (a k : Fin 8192) : idx_main_v31 (ix1 a) k = ix2 a k :=
  funext fun d => Fin.ext (by match d with | ⟨0, _⟩ => rfl | ⟨1, _⟩ => rfl)
theorem ix_v35 (a k : Fin 8192) : idx_main_v35 (ix1 a) k = ix2 a k :=
  funext fun d => Fin.ext (by match d with | ⟨0, _⟩ => rfl | ⟨1, _⟩ => rfl)

/-! ## The normalised rows and the product matrix -/

/-- Row a's sum of squares. -/
theorem ss_stage (x : XArr) (a : Fin 8192) : val_main_call0_v1 (F := Ideal) x (ix1 a) = ss x a := by
  rw [val_main_call0_v1_apply]
  simp only [val_main_call0_cst_apply, val_main_call0_v0_apply, ix_call0_v1, Ideal.ofBits_def, Ideal.ofBits_zero_f32,
    Ideal.mulf_def, zero_add]
  rfl

/-- The column of row norms. -/
theorem sqrt_stage (x : XArr) (a : Fin 8192) (z : Fin 1) :
    val_main_v0 (F := Ideal) x (ix2 a z) = Ideal.sqrt (ss x a) := by
  rw [val_main_v0_apply, val_main_call0_v2_apply, ix_call0_v2, ss_stage, Ideal.hostUnary_sqrt_def]

/-- A normalised entry: the embedding over its row's norm. -/
theorem v2_stage (x : XArr) (a : Fin 8192) (d : Fin 128) :
    val_main_v2 (F := Ideal) x (ix2 a d) = Ideal.div (x (ix2 a d)) (Ideal.sqrt (ss x a)) := by
  rw [val_main_v2_apply, val_main_v1_apply, ix_v1, sqrt_stage, Ideal.hostDivf_def]

/-- The transposed normalised rows. -/
theorem v3_stage (x : XArr) (k : Fin 128) (b : Fin 8192) :
    val_main_v3 (F := Ideal) x (ix2 k b) = val_main_v2 (F := Ideal) x (ix2 b k) := by
  rw [val_main_v3_apply, ix_v3]

/-- The product matrix: inner products of normalised rows. -/
theorem v4_stage (x : XArr) (a b : Fin 8192) :
    val_main_v4 (F := Ideal) x (ix2 a b)
      = ∑ k : Fin 128, val_main_v2 (F := Ideal) x (ix2 a k) * val_main_v2 (F := Ideal) x (ix2 b k) := by
  rw [val_main_v4_apply]
  simp only [ix_lv4, ix_rv4, v3_stage]

/-- The logits: the product matrix over the temperature word. -/
theorem v6_stage (x : XArr) (a b : Fin 8192) :
    val_main_v6 (F := Ideal) x (ix2 a b)
      = Ideal.div (∑ k : Fin 128, val_main_v2 (F := Ideal) x (ix2 a k) * val_main_v2 (F := Ideal) x (ix2 b k))
          (Ideal.ofBits .f32 0x3DCCCCCD#32) := by
  rw [val_main_v6_apply, val_main_v5_apply, val_main_cst_apply, v4_stage, Ideal.hostDivf_def, Ideal.ofBits_def]

/-! ## The masks -/

/-- The "same label" matrix. -/
theorem same_stage (lab : LArr) (a b : Fin 8192) : val_main_v12 (F := Ideal) lab (ix2 a b) = same lab a b := by
  rw [val_main_v12_apply, val_main_v11_apply, val_main_v9_apply, val_main_v10_apply, ix_v9, ix_v10, val_main_v7_apply,
    val_main_v8_apply, ix_v7, ix_v8]
  exact same_entry lab a b

/-- One minus the identity matrix (its first copy). -/
theorem v20_stage (a b : Fin 8192) : val_main_v20 (F := Ideal) (ix2 a b) = offd a b := by
  rw [val_main_v20_apply, val_main_v19_apply, val_main_cst_0_apply, val_main_v18_apply, val_main_v17_apply,
    val_main_v16_apply, val_main_v13_apply, val_main_v15_apply, val_main_c_apply, val_main_v14_apply, Ideal.subf_def,
    Ideal.ofBits_def]
  exact offd_entry a b

/-- One minus the identity matrix (its second copy). -/
theorem v23_stage (a b : Fin 8192) : val_main_v23 (F := Ideal) (ix2 a b) = offd a b := by
  rw [val_main_v23_apply, val_main_v22_apply, val_main_cst_1_apply, val_main_v18_apply, val_main_v17_apply,
    val_main_v16_apply, val_main_v13_apply, val_main_v15_apply, val_main_c_apply, val_main_v14_apply, Ideal.subf_def,
    Ideal.ofBits_def]
  exact offd_entry a b

/-- The positive-pair mask. -/
theorem nm_stage (lab : LArr) (a b : Fin 8192) : val_main_v21 (F := Ideal) lab (ix2 a b) = nm lab a b := by
  rw [val_main_v21_apply, same_stage, v20_stage, Ideal.mulf_def]
  rfl

/-- The counts of positive pairs. -/
theorem cnt_stage (lab : LArr) (a : Fin 8192) : val_main_v31 (F := Ideal) lab (ix1 a) = cnt lab a := by
  rw [val_main_v31_apply]
  simp only [val_main_cst_3_apply, ix_v31, nm_stage, Ideal.ofBits_def, Ideal.ofBits_zero_f32, zero_add]
  rfl

/-- "count > 0" as a bit. -/
theorem bit_stage (lab : LArr) (a : Fin 8192) :
    val_main_v33 (F := Ideal) lab (ix1 a) = if 0 < cnt lab a then 1#1 else 0#1 := by
  rw [val_main_v33_apply, cnt_stage, val_main_v32_apply, val_main_cst_4_apply, Ideal.ofBits_def]
  exact gt_zero_bit _

/-- The indicator of "count > 0". -/
theorem valid_stage (lab : LArr) (a : Fin 8192) : val_main_v39 (F := Ideal) lab (ix1 a) = valid lab a := by
  rw [val_main_v39_apply, bit_stage]
  exact valid_entry _

/-- The number of rows with a positive pair. -/
theorem v40_stage (lab : LArr) (i : S_.Idx) : val_main_v40 (F := Ideal) lab i = ∑ a : Fin 8192, valid lab a := by
  rw [val_main_v40_apply, val_main_cst_8_apply, sum_idx1]
  simp only [valid_stage, Ideal.ofBits_def, Ideal.ofBits_zero_f32, zero_add]

end Cert.RefValue

end
-- ==== Proof.LibRsqrtSqrt.lean ====
/-
  Normalising by a standard deviation on the extended reals, with no finiteness hypothesis.

  A square is never negative there (`(±∞)² = +∞`), so a sum of squares, and its quotient by a positive real — a variance —
  is never negative, and a variance plus a positive `ε` is positive. And for a positive `v`, `+∞` included, multiplying
  by the reciprocal square root of `v` IS dividing by the square root of `v` (at `+∞` both are multiplication by `0`; at a
  positive real the extended inverse of `√v` is the real one). So `d · rsqrt (σ² + ε)` and `d / sqrt (σ² + ε)` agree for
  every `d`, whatever the row the variance was taken of holds. (At `v = 0` and at negative `v` the two differ: the
  positivity is needed.)
-/
import Idealize.ShloMosaic.PureOps.Ideal

namespace Cert.Lib.RsqrtSqrt

open Idealize.ShloMosaic

/-- A square is never negative on the extended reals: `(±∞)² = +∞`. -/
theorem mul_self_nonneg (d : EReal) : 0 ≤ d * d := by
  induction d using EReal.rec with
  | bot => rw [EReal.bot_mul_bot]; exact le_top
  | top => rw [EReal.top_mul_top]; exact le_top
  | coe r => rw [← EReal.coe_mul]; exact_mod_cast _root_.mul_self_nonneg r

/-- A finite sum of squares is never negative. -/
theorem sum_mul_self_nonneg {ι : Type*} (s : Finset ι) (f : ι → EReal) : 0 ≤ ∑ i ∈ s, f i * f i :=
  Finset.sum_nonneg fun i _ => mul_self_nonneg (f i)

/-- The quotient of a nonnegative extended real by a positive real is nonnegative. -/
theorem div_coe_nonneg {x : EReal} (hx : 0 ≤ x) {y : ℝ} (hy : 0 < y) : 0 ≤ Ideal.div x (y : EReal) := by
  rw [Ideal.div_coe hy.ne']
  exact EReal.mul_nonneg hx (by exact_mod_cast (one_div_pos.2 hy).le)

/-- A nonnegative extended real plus a positive one is positive. -/
theorem add_pos_of_nonneg_of_pos {v e : EReal} (hv : 0 ≤ v) (he : 0 < e) : 0 < v + e :=
  lt_of_lt_of_le he (le_add_of_nonneg_left hv)

/-- For a positive extended real `v` (`+∞` included) multiplying by `rsqrt v` is dividing by `sqrt v`. -/
theorem mul_rsqrt_eq_div_sqrt (d v : EReal) (hv : 0 < v) : d * Ideal.rsqrt v = Ideal.div d (Ideal.sqrt v) := by
  induction v using EReal.rec with
  | bot => exact absurd hv (by simp)
  | top => simp [Ideal.div]
  | coe r =>
    have hr : 0 < r := by exact_mod_cast hv
    have hs : (Real.sqrt r : EReal) ≠ 0 := by exact_mod_cast (Real.sqrt_pos.2 hr).ne'
    rw [Ideal.rsqrt_coe, if_neg (not_lt.2 hr.le), if_neg hr.ne', Ideal.sqrt_coe, if_neg (not_lt.2 hr.le), Ideal.div,
      if_neg hs, ← EReal.coe_inv]

/-- The single-precision pattern nearest `1e-5` (a layer normalisation's usual `ε`) denotes a positive real,
    `10995116 · 2⁻⁴⁰`. -/
theorem eps_1em5_pos : (0 : EReal) < Ideal.ofBits .f32 0x3727C5AC#32 := by
  have h : Ideal.ofBits .f32 0x3727C5AC#32 = ((10995116 * (2 : ℝ) ^ (-40 : ℤ) : ℝ) : EReal) := by
    simp [Ideal.ofBits, Ideal.ieee, -EReal.coe_mul]
  rw [h]
  exact_mod_cast (by positivity : (0 : ℝ) < 10995116 * (2 : ℝ) ^ (-40 : ℤ))

end Cert.Lib.RsqrtSqrt
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.SpecReal.lean ====
/-
  The pieces of the loss as real numbers.

  When every embedding is a real number and no row is zero, every piece of the loss is the cast of a real: a row's sum of
  squares is a positive real, so its reciprocal square root is the real 1/sqrt, the scaled rows and the logits are real,
  the exponentials are positive reals, and the normaliser Z a, a sum of 8191 positive reals (there is a row other than a),
  is a positive real whose logarithm is real. The masks are 0 or 1 and the count of a row is a natural number.

  Three laws join the two ways of writing the loss. Scaling by the reciprocal square root of a positive number is dividing
  by its square root. The inverse temperature is the reciprocal of the real that the single-precision pattern 0x3DCCCCCD
  denotes, 13421773/134217728, so multiplying by it is dividing by that number. And for a row with a positive count c,
  (sum over b of (logit a b - log Z a) * nm a b) / c = (S a) / c - log Z a, since the nm a b sum to c: between reals the
  subtraction distributes over the sum.
-/
import proofs.«114130_j9689446219883_1_alg».proof.Proof.Spec
import proofs.«114130_j9689446219883_1_alg».proof.Proof.LibRsqrtSqrt
import proofs.«114130_j9689446219883_1_alg».proof.Proof.LibRealSums

noncomputable section

open scoped BigOperators

namespace Cert.SpecReal

open Idealize.ShloMosaic Idealize.ShloMosaic.ValueIdx Cert.Spec

/-- The sum of the casts of reals is the cast of their sum. -/
theorem sum_coe {ι : Type*} (s : Finset ι) (f : ι → ℝ) :
    ∑ i ∈ s, ((f i : ℝ) : EReal) = ((∑ i ∈ s, f i : ℝ) : EReal) :=
  (Cert.RealSums.coe_sum s f).symm

/-- The reciprocal square root of a positive real is the real 1/sqrt. -/
theorem rsqrt_pos_real {r : ℝ} (hr : 0 < r) : Ideal.rsqrt (r : EReal) = (((Real.sqrt r)⁻¹ : ℝ) : EReal) := by
  rw [Ideal.rsqrt_coe, if_neg (not_lt.2 hr.le), if_neg hr.ne']

variable (x : XArr) (lab : LArr)

/-- A row's sum of squares is a positive real. -/
theorem ss_real (hfin : Finite x) (hpos : RowsNonzero x) (a : Fin 8192) :
    ∃ r : ℝ, 0 < r ∧ ss x a = (r : EReal) := by
  choose xr hxr using hfin
  have h : ss x a = ((∑ d : Fin 128, xr (ix2 a d) * xr (ix2 a d) : ℝ) : EReal) := by
    unfold ss
    rw [← sum_coe]
    exact Finset.sum_congr rfl fun d _ => by rw [hxr, EReal.coe_mul]
  refine ⟨_, ?_, h⟩
  have hp := hpos a
  rw [h] at hp
  exact_mod_cast hp

/-- A scaled entry is real. -/
theorem xn_real (hfin : Finite x) (hpos : RowsNonzero x) (a : Fin 8192) (d : Fin 128) :
    ∃ r : ℝ, xn x a d = (r : EReal) := by
  obtain ⟨s, hs, hss⟩ := ss_real x hfin hpos a
  obtain ⟨v, hv⟩ := hfin (ix2 a d)
  exact ⟨v * (Real.sqrt s)⁻¹, by unfold xn; rw [hss, rsqrt_pos_real hs, hv, EReal.coe_mul]⟩

/-- A logit is real. -/
theorem logit_real (hfin : Finite x) (hpos : RowsNonzero x) (a b : Fin 8192) :
    ∃ r : ℝ, logit x a b = (r : EReal) := by
  choose u hu using fun d => xn_real x hfin hpos a d
  choose w hw using fun d => xn_real x hfin hpos b d
  refine ⟨(∑ d : Fin 128, u d * w d) * (134217728 / 13421773), ?_⟩
  unfold logit invT
  rw [EReal.coe_mul, ← sum_coe]
  congr 1
  exact Finset.sum_congr rfl fun d _ => by rw [hu, hw, EReal.coe_mul]

/-- The exponential of a logit is a positive real. -/
theorem exp_logit_real (hfin : Finite x) (hpos : RowsNonzero x) (a b : Fin 8192) :
    ∃ r : ℝ, 0 < r ∧ Ideal.exp (logit x a b) = (r : EReal) := by
  obtain ⟨r, hr⟩ := logit_real x hfin hpos a b
  exact ⟨Real.exp r, Real.exp_pos r, by rw [hr, Ideal.exp_coe]⟩

/-- The off-diagonal mask is 0 or 1. -/
theorem offd_cases (a b : Fin 8192) : offd a b = 0 ∨ offd a b = 1 := by
  unfold offd; split_ifs <;> simp

/-- The same-label mask is 0 or 1. -/
theorem same_cases (a b : Fin 8192) : same lab a b = 0 ∨ same lab a b = 1 := by
  unfold same; split_ifs <;> simp

/-- The mask of the other rows with a's label is 0 or 1. -/
theorem nm_cases (a b : Fin 8192) : nm lab a b = 0 ∨ nm lab a b = 1 := by
  unfold nm
  rcases same_cases lab a b with h | h <;> rcases offd_cases a b with h' | h' <;> rw [h, h'] <;> simp

/-- The off-diagonal mask as a real. -/
def offdR (a b : Fin 8192) : ℝ := if a = b then 0 else 1

theorem offd_eq (a b : Fin 8192) : offd a b = ((offdR a b : ℝ) : EReal) := by
  unfold offd offdR; split_ifs <;> simp

/-- The mask of the other rows with a's label as a natural number. -/
def nmN (a b : Fin 8192) : ℕ := if lab (ix1 a) = lab (ix1 b) ∧ a ≠ b then 1 else 0

theorem nm_eq (a b : Fin 8192) : nm lab a b = (((nmN lab a b : ℕ) : ℝ) : EReal) := by
  unfold nm same offd nmN
  by_cases h1 : lab (ix1 a) = lab (ix1 b) <;> by_cases h2 : a = b <;> simp [h1, h2]

/-- The count of a row is a natural number. -/
theorem cnt_eq (a : Fin 8192) : cnt lab a = (((∑ b : Fin 8192, nmN lab a b : ℕ) : ℝ) : EReal) := by
  unfold cnt
  rw [Nat.cast_sum, ← sum_coe]
  exact Finset.sum_congr rfl fun b _ => nm_eq lab a b

theorem cnt_real (a : Fin 8192) : ∃ n : ℕ, cnt lab a = ((n : ℝ) : EReal) := ⟨_, cnt_eq lab a⟩

/-- The normaliser of a row is a positive real: a sum of 8191 positive reals. -/
theorem Z_real (hfin : Finite x) (hpos : RowsNonzero x) (a : Fin 8192) :
    ∃ r : ℝ, 0 < r ∧ Z x a = (r : EReal) := by
  choose e he0 he using fun b => exp_logit_real x hfin hpos a b
  refine ⟨∑ b : Fin 8192, e b * offdR a b, ?_, ?_⟩
  · obtain ⟨c, hc⟩ : ∃ c : Fin 8192, a ≠ c := by
      by_cases h : a = 0
      · exact ⟨1, by rw [h]; decide⟩
      · exact ⟨0, h⟩
    refine Finset.sum_pos' (fun b _ => ?_) ⟨c, Finset.mem_univ c, ?_⟩
    · unfold offdR; split_ifs
      · simp
      · simpa using (he0 b).le
    · unfold offdR; rw [if_neg hc]; simpa using he0 c
  · unfold Z
    rw [← sum_coe]
    exact Finset.sum_congr rfl fun b _ => by rw [he, offd_eq, EReal.coe_mul]

/-- The sum of a row's logits against the other rows with its label is real. -/
theorem S_real (hfin : Finite x) (hpos : RowsNonzero x) (a : Fin 8192) :
    ∃ r : ℝ, S x lab a = (r : EReal) := by
  choose L hL using fun b => logit_real x hfin hpos a b
  refine ⟨∑ b : Fin 8192, L b * (nmN lab a b : ℝ), ?_⟩
  unfold S
  rw [← sum_coe]
  exact Finset.sum_congr rfl fun b _ => by rw [hL, nm_eq, EReal.coe_mul]

/-- Scaling by the reciprocal square root of the row's sum of squares is dividing by its square root. -/
theorem xn_eq_div (hpos : RowsNonzero x) (a : Fin 8192) (d : Fin 128) :
    xn x a d = Ideal.div (x (ix2 a d)) (Ideal.sqrt (ss x a)) := by
  unfold xn
  exact Cert.Lib.RsqrtSqrt.mul_rsqrt_eq_div_sqrt _ _ (hpos a)

/-- The single-precision pattern nearest one tenth denotes the real 13421773/134217728. -/
theorem tenth_word : Ideal.ofBits .f32 0x3DCCCCCD#32 = ((13421773 / 134217728 : ℝ) : EReal) := by
  simp [Ideal.ofBits, Ideal.ieee, -EReal.coe_mul]; norm_num

/-- Multiplying by the inverse temperature is dividing by the temperature. -/
theorem logit_eq_div (a b : Fin 8192) :
    logit x a b = Ideal.div (∑ d : Fin 128, xn x a d * xn x b d) (Ideal.ofBits .f32 0x3DCCCCCD#32) := by
  unfold logit invT
  rw [tenth_word, Ideal.div_coe (by norm_num)]
  congr 2
  norm_num

/-- A row's term as the reference writes it: with a positive count, subtracting log Z inside the masked mean is
    subtracting it outside. -/
theorem perRow_ref (hfin : Finite x) (hpos : RowsNonzero x) (a : Fin 8192) (hc : 0 < cnt lab a) :
    Ideal.div (∑ b : Fin 8192, (logit x a b - Ideal.log (Z x a)) * nm lab a b) (cnt lab a)
      = Ideal.div (S x lab a) (cnt lab a) - Ideal.log (Z x a) := by
  choose L hL using fun b => logit_real x hfin hpos a b
  obtain ⟨z, hz, hZ⟩ := Z_real x hfin hpos a
  have hlog : Ideal.log (Z x a) = ((Real.log z : ℝ) : EReal) := by
    rw [hZ, Ideal.log_coe, if_neg (not_le.2 hz)]
  have hcnt : cnt lab a = ((∑ b : Fin 8192, (nmN lab a b : ℝ) : ℝ) : EReal) := by
    rw [cnt_eq, Nat.cast_sum]
  have hS : S x lab a = ((∑ b : Fin 8192, L b * (nmN lab a b : ℝ) : ℝ) : EReal) := by
    unfold S
    rw [← sum_coe]
    exact Finset.sum_congr rfl fun b _ => by rw [hL, nm_eq, EReal.coe_mul]
  have hlhs : (∑ b : Fin 8192, (logit x a b - Ideal.log (Z x a)) * nm lab a b)
      = ((∑ b : Fin 8192, (L b - Real.log z) * (nmN lab a b : ℝ) : ℝ) : EReal) := by
    rw [← sum_coe]
    exact Finset.sum_congr rfl fun b _ => by rw [hL, hlog, nm_eq, EReal.coe_mul, EReal.coe_sub]
  have hc' : (∑ b : Fin 8192, (nmN lab a b : ℝ)) ≠ 0 := by
    rw [hcnt] at hc
    have : (0 : ℝ) < ∑ b : Fin 8192, (nmN lab a b : ℝ) := by exact_mod_cast hc
    exact this.ne'
  rw [hlhs, hS, hcnt, hlog, Ideal.div_coe hc', Ideal.div_coe hc', ← EReal.coe_mul, ← EReal.coe_mul, ← EReal.coe_sub]
  congr 1
  have hsplit : (∑ b : Fin 8192, (L b - Real.log z) * (nmN lab a b : ℝ))
      = (∑ b : Fin 8192, L b * (nmN lab a b : ℝ)) - Real.log z * ∑ b : Fin 8192, (nmN lab a b : ℝ) := by
    simp only [sub_mul, Finset.sum_sub_distrib, Finset.mul_sum]
  rw [hsplit]
  field_simp

end Cert.SpecReal

end
-- ==== Proof.RefValueC.lean ====
/-
  The reference program's arrays read at an index, second part, and the reference's value: the specification's loss.

  With every row's sum of squares positive, the embedding over the row's norm is the embedding times the reciprocal
  square root, and the quotient by the temperature word is the product with the inverse temperature: the reference's
  logits are the specification's. Their exponentials against the off-diagonal mask sum to the normaliser; the logits
  minus its logarithm, against the positive-pair mask, sum to a numerator whose quotient by a positive count is the
  specification's row term (for finite embeddings); the two selects give zero where the count is not positive. The
  result is minus the sum of the row terms over the number of rows with a positive count.
-/
import proofs.«114130_j9689446219883_1_alg».proof.Proof.RefValueB
import proofs.«114130_j9689446219883_1_alg».proof.Proof.SpecReal

noncomputable section

open scoped BigOperators

namespace Cert.RefValue

open Idealize.ShloMosaic Idealize.ShloMosaic.ValueIdx Cert.Spec Cert.ReferenceIdeal Cert.ReferenceIdeal.ReadP

open Cert.SpecReal

/-- The reference's logits are the specification's. -/
theorem logit_stage (x : XArr) (hpos : RowsNonzero x) (a b : Fin 8192) :
    val_main_v6 (F := Ideal) x (ix2 a b) = logit x a b := by
  rw [v6_stage, logit_eq_div]
  simp only [v2_stage, ← xn_eq_div x hpos]

/-- The normaliser. -/
theorem Z_stage (x : XArr) (hpos : RowsNonzero x) (a : Fin 8192) : val_main_v26 (F := Ideal) x (ix1 a) = Z x a := by
  rw [val_main_v26_apply]
  simp only [val_main_cst_2_apply, ix_v26, val_main_v25_apply, val_main_v24_apply, logit_stage x hpos, v23_stage,
    Ideal.ofBits_def, Ideal.ofBits_zero_f32, Ideal.mulf_def, Ideal.hostUnary_exp_def, zero_add]
  rfl

/-- The log-probabilities. -/
theorem v30_stage (x : XArr) (hpos : RowsNonzero x) (a b : Fin 8192) :
    val_main_v30 (F := Ideal) x (ix2 a b) = logit x a b - Ideal.log (Z x a) := by
  rw [val_main_v30_apply, logit_stage x hpos, val_main_v29_apply, ix_v29, val_main_v28_apply, ix_v28, val_main_v27_apply,
    Z_stage x hpos, Ideal.subf_def, Ideal.hostUnary_log_def]

/-- The numerators: the log-probabilities against the positive-pair mask, summed along each row. -/
theorem v35_stage (x : XArr) (lab : LArr) (hpos : RowsNonzero x) (a : Fin 8192) :
    val_main_v35 (F := Ideal) x lab (ix1 a) = ∑ b : Fin 8192, (logit x a b - Ideal.log (Z x a)) * nm lab a b := by
  rw [val_main_v35_apply]
  simp only [val_main_cst_5_apply, ix_v35, val_main_v34_apply, v30_stage x hpos, nm_stage, Ideal.ofBits_def,
    Ideal.ofBits_zero_f32, Ideal.mulf_def, zero_add]

/-- The row terms. -/
theorem v38_stage (x : XArr) (lab : LArr) (hfin : Finite x) (hpos : RowsNonzero x) (a : Fin 8192) :
    val_main_v38 (F := Ideal) x lab (ix1 a) = perRow x lab a := by
  rw [val_main_v38_apply, val_main_v37_apply, val_main_v36_apply, bit_stage, cnt_stage, v35_stage x lab hpos,
    Ideal.hostDivf_def, row_entry]
  unfold perRow
  by_cases h : 0 < cnt lab a
  · rw [if_pos h, if_pos h, perRow_ref x lab hfin hpos a h]
  · rw [if_neg h, if_neg h, val_main_call2_v1_apply, val_main_call2_v0_apply, val_main_cst_7_apply, Ideal.ofBits_def,
      Ideal.ofBits_zero_f32]

/-- The sum of the row terms. -/
theorem v41_stage (x : XArr) (lab : LArr) (hfin : Finite x) (hpos : RowsNonzero x) (i : S_.Idx) :
    val_main_v41 (F := Ideal) x lab i = ∑ a : Fin 8192, perRow x lab a := by
  rw [val_main_v41_apply, val_main_cst_9_apply, sum_idx1]
  simp only [v38_stage x lab hfin hpos, Ideal.ofBits_def, Ideal.ofBits_zero_f32, zero_add]

/-- The reference's result is the loss. -/
theorem v43_stage (x : XArr) (lab : LArr) (hfin : Finite x) (hpos : RowsNonzero x) (i : S_.Idx) :
    val_main_v43 (F := Ideal) x lab i = loss x lab := by
  rw [val_main_v43_apply, val_main_v42_apply, v41_stage x lab hfin hpos, v40_stage, Ideal.hostDivf_def,
    Ideal.hostNegf_def, Ideal.negf_def]
  rfl

open Idealize.SL.Sem Idealize.ShloMosaic.TcCoe in
/-- THE REFERENCE'S VALUE: for finite embeddings with no zero row, the composed term of the reference's run is the
    specification's loss of the two argument arrays. -/
theorem ref_eq_loss (m : (ℓ : Loc Cert.ReferenceIdeal.nD Cert.ReferenceIdeal.τ Cert.ReferenceIdeal.sig) → Buf (Elt Ideal) ℓ)
    (c : Dev Cert.ReferenceIdeal.nD)
    (hfin : Cert.Spec.Finite (m ((c.tc : Thread Cert.ReferenceIdeal.nD Cert.ReferenceIdeal.τ).loc Cert.ReferenceIdeal.main_arg0)))
    (hpos : Cert.Spec.RowsNonzero (m ((c.tc : Thread Cert.ReferenceIdeal.nD Cert.ReferenceIdeal.τ).loc Cert.ReferenceIdeal.main_arg0))) :
    Cert.ReferenceIdeal.ValueP.res_main_v43 (F := Ideal) m c
      = fun _ => Cert.Spec.loss (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := by
  funext i
  rw [val_main_v43_eq]
  exact v43_stage _ _ hfin hpos i

end Cert.RefValue

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«114130_j9689446219883_1_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.PreDecode.lean ====
/-
  What the precondition says, entry by entry.

  The precondition is one bit: the "and" of two tests. The first compares every entry's absolute value against +inf and
  folds the comparisons with "and": when it is 1 every entry is below +inf in absolute value, so it is the cast of a real
  number. The second sums each row's squares (from 0, over the 128 columns), compares each row's sum against 0 with
  "greater than", and folds with "and": when it is 1 every row's sum of squares is positive.
-/
import proofs.«114130_j9689446219883_1_alg».proof.Pre_finite_inputs
import proofs.«114130_j9689446219883_1_alg».proof.Proof.Spec
import proofs.«114130_j9689446219883_1_alg».proof.Proof.LibAllFinite
import Idealize.ShloMosaic.Lib.ReduceAll
import Idealize.ShloMosaic.Lib.IdealHost
import Idealize.ShloMosaic.Lib.Affine
import Idealize.ShloMosaic.PureOps.Ideal.Laws

noncomputable section

open scoped BigOperators

namespace Cert.PreDecode

open Idealize.ShloMosaic Idealize.ShloMosaic.ValueIdx Cert.Pre_finite_inputs

variable [Cert.Pre_finite_inputs.Facts]
open Cert.Pre_finite_inputs.Facts

/-- The shape of a single bit has one index. -/
instance : Subsingleton S_.Idx := ⟨fun a b => funext fun d => d.elim0⟩

/-- A row's sum of squares as the precondition computes it: from 0, over the 128 columns. -/
theorem rowsum_eq (x : FVec Ideal Cert.Pre_finite_inputs.S8192x128 .f32) (a : Fin 8192) :
    Host.reduceAdd (mulf x x) (constant (F := Ideal) S_ .f32 0x00000000#32) reducesTo_S8192x128_S8192_d1 h_S_ (ix1 a)
      = Cert.Spec.ss x a := by
  rw [hostReduceAdd_apply, Ideal.hostReduceAdd_single reducesTo_S8192x128_S8192_d1 (by decide), constant_apply,
    Ideal.ofBits_zero_f32, zero_add]
  unfold Cert.Spec.ss
  refine Finset.sum_congr rfl fun k _ => ?_
  rw [mulf_apply]
  congr 1 <;>
    exact congrArg x (funext fun d => Fin.ext (by match d with | ⟨0, _⟩ => rfl | ⟨1, _⟩ => rfl))

theorem of_pre (x : FVec Ideal Cert.Pre_finite_inputs.S8192x128 .f32) (lab : IVec Cert.Pre_finite_inputs.S8192 32)
    (h : Cert.Pre_finite_inputs.fn (F := Ideal) x lab = fun _ => 1#1) :
    Cert.Spec.Finite x ∧ Cert.Spec.RowsNonzero x := by
  have h0 := congrFun h ValueIdx.ix0
  dsimp only [Cert.Pre_finite_inputs.fn] at h0
  obtain ⟨h1, h2⟩ := IntOp.andi_eq_one.1 h0
  refine ⟨fun i => ?_, fun a => ?_⟩
  · exact Cert.Lib.AllFinite.entry_of_all x bcast_S_S8192x128 reducesTo_S8192x128_S_d0_1 h_S_ ValueIdx.ix0 h1 i
  · have e := Host.reduce_andi_all _ _ reducesTo_S8192_S_d0 h_S_ ValueIdx.ix0 h2 (ix1 a)
    rw [cmpf_apply, Ideal.cmpf_def, broadcastInDim_scalar_apply, constant_apply, Ideal.ofBits_zero_f32,
      rowsum_eq] at e
    have e' : BitVec.ofBool (decide (0 < Cert.Spec.ss x a)) = 1#1 := e
    by_cases hp : 0 < Cert.Spec.ss x a
    · exact hp
    · rw [decide_eq_false hp] at e'
      exact absurd e' (by decide)

end Cert.PreDecode

end
-- ==== Proof.KAccDef.lean ====
/-
  The three running totals the kernel keeps for a tile of 1024 rows while it walks the 32 column tiles:
  the normaliser (sum of exp of the logits off the diagonal), the sum of the logits against the rows with
  the same label, and the count of such rows. At the first column tile of a row tile they start from zero;
  at every column tile each takes that tile's 256 terms.
-/
import proofs.«114130_j9689446219883_1_alg».proof.Proof.Gen.KernelIdeal.Skeleton
import proofs.«114130_j9689446219883_1_alg».proof.Proof.Gen.KernelIdeal.Launch

noncomputable section

namespace Cert.KernelIdeal.Acc

open Cert.KernelIdeal Cert.KernelIdeal.Gen Idealize.ShloMosaic

variable {F : FTy → Type} [FloatOps F] [Named F]

/-- The three totals of one row tile: normaliser, logit sum, count. -/
structure Tot (F : FTy → Type) where
  z : Vec F S1024x1 .f32
  s : Vec F S1024x1 .f32
  p : Vec F S1024x1 .f32

/-- All three at zero. -/
def init : Tot F := ⟨k0_pay9 (F := F), k0_pay10 (F := F), k0_pay11 (F := F)⟩

/-- One column tile's contribution added to each total: at grid point g, from the row tile's embeddings v3, the
    column tile's embeddings v4 and the two label blocks. -/
def step (g : grid0.Coords) (v3 : Vec F S1024x128 .f32) (v4 : Vec F S256x128 .f32) (v23 : Vec F S1024x1 .i32) (v25 : Vec F S1x256 .i32)
    (a : Tot F) : Tot F :=
  ⟨k0_pay3 (k0_pay12 v3 v4) (k0_pay14 g) a.z, k0_pay4 (k0_pay12 v3 v4) (k0_pay13 v23 v25) (k0_pay14 g) a.s,
    k0_pay5 (k0_pay13 v23 v25) (k0_pay14 g) a.p⟩

/-- The totals after grid point n, the points taken in order: a point whose number is a multiple of 32 (the first
    column tile of a row tile) starts from zero, every other from what the point before left. -/
def run (G : Fin cfg0.N → grid0.Coords) (B0 : Fin cfg0.N → Vec F S1024x128 .f32) (B1 : Fin cfg0.N → Vec F S256x128 .f32)
    (B2 : Fin cfg0.N → Vec F S1024x1 .i32) (B3 : Fin cfg0.N → Vec F S1x256 .i32) : (n : ℕ) → n < cfg0.N → Tot F
  | 0, hn => step (G ⟨0, hn⟩) (B0 ⟨0, hn⟩) (B1 ⟨0, hn⟩) (B2 ⟨0, hn⟩) (B3 ⟨0, hn⟩) init
  | n + 1, hn => step (G ⟨n + 1, hn⟩) (B0 ⟨n + 1, hn⟩) (B1 ⟨n + 1, hn⟩) (B2 ⟨n + 1, hn⟩) (B3 ⟨n + 1, hn⟩)
      (if (n + 1) % 32 = 0 then init else run G B0 B1 B2 B3 n (Nat.lt_of_succ_lt hn))

/-- At a point that starts a row tile the totals are one step from zero. -/
theorem run_first (G : Fin cfg0.N → grid0.Coords) (B0 : Fin cfg0.N → Vec F S1024x128 .f32) (B1 : Fin cfg0.N → Vec F S256x128 .f32)
    (B2 : Fin cfg0.N → Vec F S1024x1 .i32) (B3 : Fin cfg0.N → Vec F S1x256 .i32) (t : Fin cfg0.N) (h : t.val % 32 = 0) :
    run G B0 B1 B2 B3 t.val t.isLt = step (G t) (B0 t) (B1 t) (B2 t) (B3 t) init := by
  obtain ⟨n, hn⟩ := t
  cases n with
  | zero => rfl
  | succ n => show step _ _ _ _ _ (if (n + 1) % 32 = 0 then init else _) = _; rw [if_pos h]

/-- At any other point they are one step from what the point before left. -/
theorem run_next (G : Fin cfg0.N → grid0.Coords) (B0 : Fin cfg0.N → Vec F S1024x128 .f32) (B1 : Fin cfg0.N → Vec F S256x128 .f32)
    (B2 : Fin cfg0.N → Vec F S1024x1 .i32) (B3 : Fin cfg0.N → Vec F S1x256 .i32) (t : Fin cfg0.N) (h : ¬t.val % 32 = 0) :
    run G B0 B1 B2 B3 t.val t.isLt = step (G t) (B0 t) (B1 t) (B2 t) (B3 t)
      (run G B0 B1 B2 B3 (t.val - 1) (Nat.lt_of_le_of_lt (Nat.sub_le _ _) t.isLt)) := by
  obtain ⟨n, hn⟩ := t
  cases n with
  | zero => exact absurd (Nat.zero_mod _) h
  | succ n => show step _ _ _ _ _ (if (n + 1) % 32 = 0 then init else _) = _; rw [if_neg h]; rfl

end Cert.KernelIdeal.Acc

end
-- ==== Proof.KData.lean ====
import proofs.«114130_j9689446219883_1_alg».proof.Proof.Gen.KernelIdeal.Launch
import proofs.«114130_j9689446219883_1_alg».proof.Proof.Gen.KernelIdeal.Skeleton
import proofs.«114130_j9689446219883_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Tactic
import proofs.«114130_j9689446219883_1_alg».proof.Proof.KAccDef
set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Acc

variable (m : (ℓ : Loc nD τ sig) → Buf (Elt F) ℓ) (ρ : Dev nD → PrngReg)

/-! ## What the region finds -/

/-- Core c's buffers at launch, as a valuation; -/
abbrev V₀ (c : Dev nD) : Valuation τ sig (Elt F) := fun b => m (c, b)
/-- and when the region is entered: the two reshapes of the labels have run. -/
abbrev V (c : Dev nD) (b : Ref sig .tc) : Buf (Elt F) ((c : Thread nD τ).loc b) := StableHlo.after hostOps0 (V₀ m c) (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three running totals after each grid point: the steps taken over the points' own blocks. -/
def tot (c : Dev nD) (n : ℕ) (hn : n < cfg0.N) : Tot F :=
  Acc.run (fun t => grid0.coords t) (fun t => iblk m c 0 t) (fun t => iblk m c 1 t) (fun t => iblk m c 2 t) (fun t => iblk m c 3 t) n hn

/-- What the first output's staging buffer holds after a point: the row terms computed from the totals. -/
def out4 (c : Dev nD) (t : Fin cfg0.N) : Vec F S1024x1 .f32 :=
  k0_pay7 (tot m c t.val t.isLt).p (tot m c t.val t.isLt).z (tot m c t.val t.isLt).s
/-- What the second output's staging buffer holds after a point: the rows' validity flags. -/
def out5 (c : Dev nD) (t : Fin cfg0.N) : Vec F S1024x1 .f32 := k0_pay8 (tot m c t.val t.isLt).p

/-- The three scratch operands as memrefs. -/
abbrev scZ : Memref sig .tc .vmem S1024x1 .f32 := Memref.whole cc0_scratch0
abbrev scS : Memref sig .tc .vmem S1024x1 .f32 := Memref.whole cc0_scratch1
abbrev scP : Memref sig .tc .vmem S1024x1 .f32 := Memref.whole cc0_scratch2

/-- The region's invariant before position n: before the first point the three scratch buffers at anything;
    afterwards each at its total after the point before. -/
def PhiS (c : Dev nD) : (n : ℕ) → n ≤ cfg0.N → sProp 𝕄
  | 0, _ => iprop((∃ d, owns (c : Thread nD τ) scZ fullShare d) ∗ (∃ d, owns (c : Thread nD τ) scS fullShare d) ∗ (∃ d, owns (c : Thread nD τ) scP fullShare d))
  | n + 1, hn => iprop(owns (c : Thread nD τ) scZ fullShare (tot m c n hn).z ∗ owns (c : Thread nD τ) scS fullShare (tot m c n hn).s
      ∗ owns (c : Thread nD τ) scP fullShare (tot m c n hn).p)

theorem PhiS_pos (c : Dev nD) (n : ℕ) (h : n ≤ cfg0.N) (hz : n ≠ 0) :
    PhiS m c n h = iprop(owns (c : Thread nD τ) scZ fullShare (tot m c (n - 1) (by omega)).z ∗ owns (c : Thread nD τ) scS fullShare (tot m c (n - 1) (by omega)).s
      ∗ owns (c : Thread nD τ) scP fullShare (tot m c (n - 1) (by omega)).p) := by
  cases n with
  | zero => exact absurd rfl hz
  | succ n => rfl

/-- The proof data of the pipeline on core c: the arrays as the region finds them; after the body each input's buffer
    at its block, the two outputs' at the row terms and flags of the totals; the invariant the scratch totals;
    the embeddings' array shared in halves between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]

theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]

end Cert.KernelIdeal.Data

end
-- ==== Proof.KShares.lean ====
/-
  How the core's buffers are dealt to the pipeline's windows when two input windows read one array.

  The pallas_call has six windows over five buffers: windows 0 and 1 are both input windows on `main_arg0`, windows
  2 and 3 are input windows on `main_v0` and `main_v1`, windows 4 and 5 are output windows on `main_v2_0` and
  `main_v2_1`.  The pipeline's proof data holds one points-to per WINDOW, so the full share of `main_arg0` has to be
  divided between windows 0 and 1.  A points-to splits along any decomposition of its share, and a share is the
  composition of its left and right halves; so the proof data takes `main_arg0` at the left half for window 0 and at
  the right half for window 1, both at the same contents, and the two join again to the full share at exit.  Reading
  needs no full share: a points-to at any share agrees with the memory on all of its buffer.
-/
import proofs.«114130_j9689446219883_1_alg».proof.Proof.Gen.KernelIdeal.Launch
import Idealize.ShloMosaic.Lib.Pipeline.Regions

noncomputable section

namespace Cert.KernelIdeal.Shares

open Idealize.ShloMosaic Idealize.ShloMosaic.TcCoe
open Idealize.SL Idealize.SL.RA Idealize.SL.BI
open scoped Idealize.SL.BI
open Idealize.SL.BI.BIBase Idealize.SL.Sem
open Cert.KernelIdeal.Gen

variable {F : FTy → Type} [FloatOps F] [Named F]

local notation "𝕄" => MT nD τ sig Unit (Elt F) ℕ (UR sig nD τ) ℕ

variable {c : Dev nD} (dat : Pipeline.Dat τ (Elt F) Unit ℕ (UR sig nD τ) ℕ cfg0 c)

/-- An input window's array is held at the proof data's own share. -/
theorem share_in (w : Fin cfg0.W) (h : (cfg0.win w).isOut = false) : dat.share w = dat.q w := by
  unfold Pipeline.Dat.share
  rw [h]; rfl

/-- An output window's array is held at the full share. -/
theorem share_out (w : Fin cfg0.W) (h : (cfg0.win w).isOut = true) : dat.share w = fullShare := by
  unfold Pipeline.Dat.share
  rw [h]; rfl

/-- The buffers behind the six windows are five: `main_arg0` (windows 0 and 1), `main_v0`, `main_v1`, `main_v2_0`,
    `main_v2_1`. Each whole at the full share, one by one. -/
theorem arrBufs_chain (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v0) ↦{fullShare} W main_v0)
          ∗ (((c.tc : Thread nD τ).loc main_v1) ↦{fullShare} W main_v1) ∗ (((c.tc : Thread nD τ).loc main_v2_0) ↦{fullShare} W main_v2_0)
          ∗ (((c.tc : Thread nD τ).loc main_v2_1) ↦{fullShare} W main_v2_1)) := by
  unfold Pipeline.arrBufs
  exact bigSep_eq_bigSepL_of_eq [main_arg0, main_v0, main_v1, main_v2_0, main_v2_1] (by decide) (by decide) _

/-- Every window's array is a whole buffer: the windowed arrays are points-tos of the buffers behind them, each at
    its window's share. -/
theorem arrays_eq' (Fn : (w : Fin cfg0.W) → Buf (Elt F) ((cfg0.win w).arr.view.loc (c.tc : Thread nD τ))) :
    (dat.arrays Fn : sProp 𝕄)
      = bigSep Finset.univ fun w : Fin 6 => (((c.tc : Thread nD τ).loc (Pipeline.arrRef spec0 w)) ↦{dat.share w} Fn w : sProp 𝕄) := by
  unfold Pipeline.Dat.arrays
  exact bigSep_congr fun w _ => by rw [(arr_whole0 w).set_eq_univ]

/-- The same one by one: windows 0 to 3 are inputs (held at `dat.q`), windows 4 and 5 outputs (held at the full share). -/
theorem arrays_chain (Fn : (w : Fin cfg0.W) → Buf (Elt F) ((cfg0.win w).arr.view.loc (c.tc : Thread nD τ))) :
    (dat.arrays Fn : sProp 𝕄)
      = iprop((((c.tc : Thread nD τ).loc main_arg0) ↦{dat.q 0} Fn 0) ∗ (((c.tc : Thread nD τ).loc main_arg0) ↦{dat.q 1} Fn 1)
          ∗ (((c.tc : Thread nD τ).loc main_v0) ↦{dat.q 2} Fn 2) ∗ (((c.tc : Thread nD τ).loc main_v1) ↦{dat.q 3} Fn 3)
          ∗ (((c.tc : Thread nD τ).loc main_v2_0) ↦{fullShare} Fn 4) ∗ (((c.tc : Thread nD τ).loc main_v2_1) ↦{fullShare} Fn 5)) := by
  rw [arrays_eq', bigSep_W0, share_in dat 0 rfl, share_in dat 1 rfl, share_in dat 2 rfl, share_in dat 3 rfl, share_out dat 4 rfl, share_out dat 5 rfl]

/-- ENTRY. The five buffers behind the windows' arrays, each whole at the full share at contents `W`, make the proof
    data's arrays at the same contents: the full share of `main_arg0` is dealt in halves to the two input windows on
    it (the left half to window 0, the right half to window 1); every other array has one window, which holds it whole. -/
theorem arrays_of_arrBufs (hq0 : dat.q 0 = fullShare.left) (hq1 : dat.q 1 = fullShare.right) (hq2 : dat.q 2 = fullShare)
    (hq3 : dat.q 3 = fullShare) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    (Pipeline.arrBufs spec0 c W : sProp 𝕄) ⊢ dat.arrays Fn := by
  have hFn : Fn = fun w => W (Pipeline.arrRef spec0 w) := funext hF
  subst hFn
  rw [arrBufs_chain, arrays_chain, hq0, hq1, hq2, hq3]
  iintro ⟨H0, H2, H3, H4, H5⟩
  ihave H01 := (pointsTo_share (PosShare.mem_left_op_right fullShare)).1 $$ H0
  icases H01 with ⟨H0l, H0r⟩
  isplitl [H0l]; · iexact H0l
  isplitl [H0r]; · iexact H0r
  isplitl [H2]; · iexact H2
  isplitl [H3]; · iexact H3
  isplitl [H4]; · iexact H4
  iexact H5

/-- EXIT. The proof data's arrays at contents `W` give back the five buffers whole at the full share: the two halves of
    `main_arg0`'s share, at the same contents, join. -/
theorem arrBufs_of_arrays (hq0 : dat.q 0 = fullShare.left) (hq1 : dat.q 1 = fullShare.right) (hq2 : dat.q 2 = fullShare)
    (hq3 : dat.q 3 = fullShare) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    dat.arrays Fn ⊢ (Pipeline.arrBufs spec0 c W : sProp 𝕄) := by
  have hFn : Fn = fun w => W (Pipeline.arrRef spec0 w) := funext hF
  subst hFn
  rw [arrBufs_chain, arrays_chain, hq0, hq1, hq2, hq3]
  iintro ⟨H0l, H0r, H2, H3, H4, H5⟩
  isplitl [H0l H0r]
  · iapply (pointsTo_share (PosShare.mem_left_op_right fullShare)).2
    isplitl [H0l]; · iexact H0l
    iexact H0r
  isplitl [H2]; · iexact H2
  isplitl [H3]; · iexact H3
  isplitl [H4]; · iexact H4
  iexact H5

/-- The proof data's arrays, each at whatever share, held beside the state interpretation of a state, say what the
    state's memory holds at each array: a points-to at any share agrees with the memory on all of the buffer. -/
theorem arrays_read (Fn : (w : Fin cfg0.W) → Buf (Elt F) ((cfg0.win w).arr.view.loc (c.tc : Thread nD τ)))
    (s' : Phys nD τ sig (Elt F)) :
    iprop(dat.arrays Fn ∗ SI s')
      ⊢ (iprop(⌜∀ w, s'.mem.mem ((cfg0.win w).arr.view.loc (c.tc : Thread nD τ)) = Fn w⌝ ∗ SI s') : sProp 𝕄) := by
  rw [arrays_eq']
  iintro ⟨Ha, HSI⟩
  ihave Hr := (pointsTo_read_all' Finset.univ (fun w : Fin 6 => (c.tc : Thread nD τ).loc (Pipeline.arrRef spec0 w)) Fn s'
      (fun w => dat.share w)) $$ [Ha HSI]
  · isplitl [Ha] <;> iassumption
  icases Hr with ⟨%ha, HSI⟩
  isplitr; · ipureintro; exact fun w => ha w (Finset.mem_univ w)
  iexact HSI

end Cert.KernelIdeal.Shares

end
-- ==== Proof.KLaunch.lean ====
import proofs.«114130_j9689446219883_1_alg».proof.Proof.Gen.KernelIdeal.Launch
import proofs.«114130_j9689446219883_1_alg».proof.Proof.Gen.KernelIdeal.Skeleton
import proofs.«114130_j9689446219883_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Tactic
import proofs.«114130_j9689446219883_1_alg».proof.Proof.KData
import proofs.«114130_j9689446219883_1_alg».proof.Proof.KShares
set_option maxRecDepth 16384

noncomputable section

namespace Cert.KernelIdeal.LaunchRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Data

variable (m : (ℓ : Loc nD τ sig) → Buf (Elt F) ℓ) (ρ : Dev nD → PrngReg)

/-! ## The buffers' contents at @main's three boundaries -/

/-- When the region is entered: the two reshapes have run. -/
abbrev W0 (c : Dev nD) : Valuation τ sig (Elt F) := StableHlo.after hostOps0 (V₀ m c)

/-- When the region is left: the two result arrays at what the pipeline's write-backs leave, every other buffer as entered. -/
def W1 (c : Dev nD) : Valuation τ sig (Elt F) := fun b =>
  if h4 : Proc.devRef .tc main_v2_0 = b then
    cast (congrArg (fun b' : DevRef τ sig => b'.ty.Contents (Elt F)) h4) ((dats m 0 c).arrAt 4 cfg0.N)
  else if h5 : Proc.devRef .tc main_v2_1 = b then
    cast (congrArg (fun b' : DevRef τ sig => b'.ty.Contents (Elt F)) h5) ((dats m 0 c).arrAt 5 cfg0.N)
  else W0 m c b

theorem W1_out4 (c : Dev nD) : W1 m c (Proc.devRef .tc main_v2_0) = (dats m 0 c).arrAt 4 cfg0.N := by
  unfold W1; rw [dif_pos rfl]; rfl
theorem W1_out5 (c : Dev nD) : W1 m c (Proc.devRef .tc main_v2_1) = (dats m 0 c).arrAt 5 cfg0.N := by
  unfold W1; rw [dif_neg (by decide), dif_pos rfl]; rfl
theorem W1_of_ne (c : Dev nD) (b : Ref sig .tc) (h4 : main_v2_0 ≠ b) (h5 : main_v2_1 ≠ b) :
    W1 m c (Proc.devRef .tc b) = W0 m c (Proc.devRef .tc b) := by
  unfold W1
  rw [dif_neg (fun e => h4 (Proc.devRef_injective _ e)), dif_neg (fun e => h5 (Proc.devRef_injective _ e))]

/-- The same read at the TensorCore's references. -/
abbrev V1 (c : Dev nD) (b : Ref sig .tc) : Buf (Elt F) ((c : Thread nD τ).loc b) := W1 m c (Proc.devRef .tc b)

/-- At the end: the six operations after the region have run. -/
abbrev W2 (c : Dev nD) : Valuation τ sig (Elt F) := StableHlo.after hostOps1 (W1 m c)

/-- At the region's exit each array of the pipeline holds what the pipeline leaves. -/
theorem hF1 (c : Dev nD) (w : Fin cfg0.W) : (dats m 0 c).arrAt w cfg0.N = V1 m c (Pipeline.arrRef spec0 w) := by
  match w with
  | ⟨0, _⟩ => exact ((dats m 0 c).arrAt_in 0 rfl _).trans ((A_eq m c 0).trans (W1_of_ne m c main_arg0 (by decide) (by decide)).symm)
  | ⟨1, _⟩ => exact ((dats m 0 c).arrAt_in 1 rfl _).trans ((A_eq m c 1).trans (W1_of_ne m c main_arg0 (by decide) (by decide)).symm)
  | ⟨2, _⟩ => exact ((dats m 0 c).arrAt_in 2 rfl _).trans ((A_eq m c 2).trans (W1_of_ne m c main_v0 (by decide) (by decide)).symm)
  | ⟨3, _⟩ => exact ((dats m 0 c).arrAt_in 3 rfl _).trans ((A_eq m c 3).trans (W1_of_ne m c main_v1 (by decide) (by decide)).symm)
  | ⟨4, _⟩ => exact (W1_out4 m c).symm
  | ⟨5, _⟩ => exact (W1_out5 m c).symm

/-- Off the pipeline's arrays nothing changed. -/
theorem hrest1 (c : Dev nD) : ∀ b, b ∉ Finset.univ.image (Pipeline.arrRef spec0) → V1 m c b = V m c b := fun b hb =>
  W1_of_ne m c b (fun e => hb (Finset.mem_image.mpr ⟨4, Finset.mem_univ _, e⟩)) (fun e => hb (Finset.mem_image.mpr ⟨5, Finset.mem_univ _, e⟩))

/-! ## The thread state -/

abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's owes, at nothing. -/
abbrev R (c : Dev nD) : sProp 𝕄 := iprop(∃ W, owes (c : Thread nD τ) (0 : CellTallies nD τ sig Unit) W)

/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := StableHlo.held (c : Thread nD τ) (Pipeline.ucRefs τ sig) (W2 m c)

/-! ## The region as a segment -/

set_option backward.isDefEq.respectTransparency.types false in
/-- The region over the thread state: entered from every unscoped buffer as the reshapes left it, the embeddings'
    array dealt in halves to its two windows; left with the two result arrays at what the write-backs leave. -/
def reg0 (hb : ∀ c, BodyObligation (dats m 0 c) (defs₀ (F := F)) 𝒱₀ () Set.univ) :
    Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V m c)
  hentry c := by
    rw [Pipeline.ownSems0_none]
    have hsplit : (unscopedBufs (Ix := Unit) (Name := ℕ) (U := UR sig nD τ) (Lvl := ℕ) c (V m c) : sProp 𝕄)
        = iprop(Pipeline.arrBufs spec0 c (V m c) ∗ Pipeline.unscopedRest spec0 c (V m c)) :=
      Pipeline.unscopedBufs_split₀ cfgs 0 winFacts₀0.arr_unscoped c (V m c)
    rw [show (unscopedBufs (Ix := Unit) (Name := ℕ) (U := UR sig nD τ) (Lvl := ℕ) c (V m c) : sProp 𝕄) = StableHlo.held (c : Thread nD τ) (Pipeline.ucRefs τ sig) (W0 m c)
      from Pipeline.unscopedBufs_held c (W0 m c)] at hsplit
    have harr := Cert.KernelIdeal.Shares.arrays_of_arrBufs (dats m 0 c) (q0 m c) (q1 m c) (q2 m c) (q3 m c) (V m c)
      ((dats m 0 c).arrAt · 0) (fun w => A_eq m c w)
    iintro ⟨⟨Hub, HO⟩, -, -⟩
    ihave H := (Entails.of_eq hsplit) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiS m c 0 (Nat.zero_le _) from rfl]
    unfold PhiS; rw [scopedRest0_eq]; simp only [scZ, scS, scP, owns_whole]
    iintro ⟨-, -, Hr⟩
    iexact Hr
  hout c := by
    rw [Pipeline.ownSems0_none, show (dats m 0 c).Φ (Fin.last _) = PhiS m c cfg0.N (Nat.le_refl _) from rfl,
      PhiS_pos m c _ _ (by rw [show cfg0.N = 256 from N_0]; decide), scopedRest0_eq]
    simp only [scZ, scS, scP, owns_whole]
    iintro ⟨Hz, Hs, Hp⟩
    isplitr; · iempintro
    isplitr; · iempintro
    isplitl [Hz]; · iexists _; iexact Hz
    isplitl [Hs]; · iexists _; iexact Hs
    iexists _; iexact Hp
  hexit c := by
    have hsplit : (unscopedBufs (Ix := Unit) (Name := ℕ) (U := UR sig nD τ) (Lvl := ℕ) c (V1 m c) : sProp 𝕄)
        = iprop(Pipeline.arrBufs spec0 c (V1 m c) ∗ Pipeline.unscopedRest spec0 c (V1 m c)) :=
      Pipeline.unscopedBufs_split₀ cfgs 0 winFacts₀0.arr_unscoped c (V1 m c)
    rw [show (unscopedBufs (Ix := Unit) (Name := ℕ) (U := UR sig nD τ) (Lvl := ℕ) c (V1 m c) : sProp 𝕄) = StableHlo.held (c : Thread nD τ) (Pipeline.ucRefs τ sig) (W1 m c)
      from Pipeline.unscopedBufs_held c (W1 m c)] at hsplit
    have harr := Cert.KernelIdeal.Shares.arrBufs_of_arrays (dats m 0 c) (q0 m c) (q1 m c) (q2 m c) (q3 m c) (V1 m c)
      ((dats m 0 c).arrAt · cfg0.N) (hF1 m c)
    have hrest : (Pipeline.unscopedRest (Ix := Unit) (Name := ℕ) (U := UR sig nD τ) (Lvl := ℕ) spec0 c (V m c) : sProp 𝕄)
        = Pipeline.unscopedRest spec0 c (V1 m c) := by
      unfold Pipeline.unscopedRest
      exact bigSep_congr fun b hb => by rw [hrest1 m c b (Finset.mem_sdiff.mp hb).2]
    iintro ⟨Ha, HO, -, Hrest⟩
    ihave Hb := harr $$ Ha
    ihave Hrest := (Entails.of_eq hrest) $$ Hrest
    imodintro
    isplitl [Hb Hrest]
    · iapply (Entails.of_eq hsplit.symm); isplitl [Hb] <;> iassumption
    unfold Pipeline.Dat.owesAt Pipeline.owesWithin
    icases HO with ⟨%W, -, HO⟩; iexists W; iexact HO

/-! ## @main as segments, and the launch -/

abbrev segs (hb : ∀ c, BodyObligation (dats m 0 c) (defs₀ (F := F)) 𝒱₀ () Set.univ) :
    List (Pipeline.Seg (pcfgs (F := F)) adm (dats m) () defs₀ 𝒱₀ L lv) :=
  [ .host (hseg hostOps0 hostOps0_sub hostOps0_fresh (V₀ m)),
    .region (reg0 m hb),
    .host (hseg hostOps1 hostOps1_sub hostOps1_fresh (W1 m)) ]

set_option backward.isDefEq.respectTransparency.types false in
/-- From any memory with zero counters every weakly fair execution of @main terminates, nothing faulting, and every
    unscoped buffer ends at the last boundary's contents. -/
theorem run_main (hb : ∀ c, BodyObligation (dats m 0 c) (defs₀ (F := F)) 𝒱₀ () Set.univ) :
    θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (dats m) () cellOf_inj emb₁ defs₀ 𝒱₀ L lv m ρ main (segs m hb)
    (fun c Q => by rw [main_segs adm (dats m) () 𝒱₀ L lv (hseg hostOps0 hostOps0_sub hostOps0_fresh (V₀ m)) (hseg hostOps1 hostOps1_sub hostOps1_fresh (W1 m)) (reg0 m hb) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W2 m c b)
    (hfin := fun c s' => by
      rw [show Tₙ m c = bigSep (Pipeline.ucRefs τ sig) (fun b => (((c : Thread nD τ)).1, b) ↦{fullShare} W2 m c b) from rfl]
      iintro ⟨Hh, HSI⟩
      imodintro
      iapply (pointsTo_read_all (Pipeline.ucRefs τ sig) (fun b => (((c : Thread nD τ)).1, b)) (W2 m c) s')
      isplitl [Hh] <;> iassumption)
    (hQ := fun s h c => h c)

end Cert.KernelIdeal.LaunchRun

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«114130_j9689446219883_1_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.PointLaws.lean ====
/-
  The kernel's arithmetic at one grid point, read entry by entry at the ideal values.

  At the grid point g = (i, k) the body holds the rows i·1024 … of the embeddings (a 1024 x 128 block), the rows
  k·256 … (a 256 x 128 block), the labels of the first as a column and of the second as a row. Entry (r, q) of the
  1024 x 256 tile it builds speaks of the rows row g r = i·1024 + r and col g q = k·256 + q of the whole arrays:
  the tile of logits holds logit (row g r) (col g q) — each block's rows scaled by the reciprocal square root of
  their sums of squares, the product of the first with the transpose of the second, times the inverse temperature —,
  the label tile holds 1 where the two labels agree, the diagonal mask 1 where row g r = col g q (the two tile offsets
  plus the lane and sublane counters, as 32-bit words that cannot wrap below 8192), and from these the off-diagonal
  mask 1 - eye and the positives' mask same · (1 - eye).

  Then the three accumulator updates (each the previous column plus the lane sums, from the zero word, of exp(logit)
  · offd, of logit · nm and of nm), the last point's two outputs (the row's term S / cnt - log Z where cnt > 0 and 0
  elsewhere; the bit cnt > 0 as a float) and the first point's zero columns.
-/
import proofs.«114130_j9689446219883_1_alg».proof.Proof.Gen.KernelIdeal.Skeleton
import proofs.«114130_j9689446219883_1_alg».proof.Proof.Spec
import proofs.«114130_j9689446219883_1_alg».proof.Proof.LibRowSum
import proofs.«114130_j9689446219883_1_alg».proof.Proof.LibPlainDot
import proofs.«114130_j9689446219883_1_alg».proof.Proof.LibVecIx2

noncomputable section

open scoped BigOperators

namespace Cert.PointLaws

open Idealize.ShloMosaic Idealize.ShloMosaic.ValueIdx Cert.KernelIdeal Cert.KernelIdeal.Gen

/-- The row of the whole array that row r of the first block is, at the grid point g. -/
def row (g : grid0.Coords) (r : Fin 1024) : Fin 8192 :=
  ⟨(g 0).val * 1024 + r.val, by
    have h : (g 0).val < 8 := (g 0).isLt
    have := r.isLt
    omega⟩

/-- The row of the whole array that row q of the second block is, at the grid point g. -/
def col (g : grid0.Coords) (q : Fin 256) : Fin 8192 :=
  ⟨(g 1).val * 256 + q.val, by
    have h : (g 1).val < 32 := (g 1).isLt
    have := q.isLt
    omega⟩

/-! ## Words and bits -/

/-- A one-bit word is 0 or 1. -/
theorem bit_cases (b : BitVec 1) : b = 0#1 ∨ b = 1#1 := by revert b; decide

/-- A one-bit word widened to 32 bits and converted to a float is 1 or 0. -/
theorem sitofp_bit (b : BitVec 1) :
    (FloatOps.sitofp (F := Ideal) .f32 (b.setWidth 32) : EReal) = if b = 1#1 then 1 else 0 := by
  rcases bit_cases b with rfl | rfl
  · have e : (BitVec.setWidth 32 (0#1 : BitVec 1)).toInt = 0 := by decide
    show (((BitVec.setWidth 32 (0#1 : BitVec 1)).toInt : ℝ) : EReal) = _
    rw [e]; simp
  · have e : (BitVec.setWidth 32 (1#1 : BitVec 1)).toInt = 1 := by decide
    show (((BitVec.setWidth 32 (1#1 : BitVec 1)).toInt : ℝ) : EReal) = _
    rw [e]; simp

/-- The comparison of two words for equality is the bit 1 exactly when they are equal. -/
theorem cmpi_eq_one {w : ℕ} (a b : BitVec w) : IntOp.cmpi .eq a b = 1#1 ↔ a = b := by
  show BitVec.ofBool (a == b) = 1#1 ↔ a = b
  by_cases h : a = b
  · subst h; simp
  · have e : (a == b) = false := by simpa using h
    rw [e]; exact ⟨fun h' => absurd h' (by decide), fun h' => absurd h' h⟩

/-- offset · size + counter, computed on 32-bit words, is the word of the natural number. -/
theorem ofNat_affine (a k b : ℕ) :
    BitVec.ofNat 32 a * BitVec.ofNat 32 k + BitVec.ofNat 32 b = BitVec.ofNat 32 (a * k + b) := by
  apply BitVec.eq_of_toNat_eq
  simp [Nat.add_mod, Nat.mul_mod]

/-- Two naturals below 2^32 have the same 32-bit word only when equal. -/
theorem ofNat_inj {A B : ℕ} (hA : A < 2 ^ 32) (hB : B < 2 ^ 32) (e : BitVec.ofNat 32 A = BitVec.ofNat 32 B) : A = B := by
  have := congrArg BitVec.toNat e
  rw [BitVec.toNat_ofNat, BitVec.toNat_ofNat, Nat.mod_eq_of_lt hA, Nat.mod_eq_of_lt hB] at this
  exact this

/-- The single-precision pattern 0x3F800000 denotes 1. -/
theorem ofBits_one_f32 : Ideal.ofBits .f32 0x3F800000#32 = 1 := by
  simp [Ideal.ofBits, Ideal.ieee, -EReal.coe_mul]; norm_num

/-- The kernel's named constant is the inverse temperature. -/
theorem inv_temperature_eq :
    Named.named (F := Ideal) Cert.KernelIdeal.κ "inv_temperature" (φ := .f32) 0x41200000#32 = Cert.Spec.invT :=
  IdealRules.named_const.ideal_named_scalar _ _ _ _ rfl

/-! ## The tiles -/

/-- A word compared with itself-or-another, widened and converted: 1 where equal. -/
theorem eqbit_real {w : ℕ} (a b : BitVec w) :
    (FloatOps.sitofp (F := Ideal) .f32 ((IntOp.cmpi .eq a b).setWidth 32) : EReal) = if a = b then 1 else 0 := by
  rw [sitofp_bit]
  by_cases h : a = b
  · rw [if_pos ((cmpi_eq_one a b).2 h), if_pos h]
  · rw [if_neg (fun e => h ((cmpi_eq_one a b).1 e)), if_neg h]

/-- The off-diagonal mask from a diagonal mask: 1 minus the bit. -/
theorem pay1_at (m : IVec S1024x256 1) (j : S1024x256.Idx) :
    k0_pay1 (F := Ideal) m j = if m j = 1#1 then 0 else 1 := by
  unfold k0_pay1
  show Ideal.ofBits .f32 0x3F800000#32 - (FloatOps.sitofp (F := Ideal) .f32 ((m j).setWidth 32) : EReal) = _
  rw [ofBits_one_f32, sitofp_bit]
  by_cases h : m j = 1#1
  · rw [if_pos h, if_pos h]
    show ((1 : ℝ) : EReal) - ((1 : ℝ) : EReal) = 0
    rw [← EReal.coe_sub]; simp
  · rw [if_neg h, if_neg h]; simp

section
variable (x : Cert.Spec.XArr) (lab : Cert.Spec.LArr) (g : grid0.Coords)
  (v3 : Vec Ideal S1024x128 .f32) (v4 : Vec Ideal S256x128 .f32)
  (v23 : Vec Ideal S1024x1 .i32) (v25 : Vec Ideal S1x256 .i32)

theorem same_at (h23 : ∀ r, v23 (ix2 r (0 : Fin 1)) = lab (ix1 (row g r)))
    (h25 : ∀ q, v25 (ix2 (0 : Fin 1) q) = lab (ix1 (col g q))) (r : Fin 1024) (q : Fin 256) :
    k0_pay13 (F := Ideal) v23 v25 (ix2 r q) = Cert.Spec.same lab (row g r) (col g q) := by
  unfold k0_pay13
  show (FloatOps.sitofp (F := Ideal) .f32 ((IntOp.cmpi .eq
      (broadcastTo S1024x256 (shapeCast S1024x1 v23 shapeCasts_S1024x1_S1024x1) broadcasts_S1024x1_S1024x256 (ix2 r q))
      (broadcastTo S1024x256 (shapeCast S1x256 v25 shapeCasts_S1x256_S1x256) broadcasts_S1x256_S1024x256 (ix2 r q))).setWidth 32) : EReal) = _
  rw [eqbit_real, shapeCast_self, shapeCast_self, Cert.Lib.VecIx2.bcast_col, broadcastTo_1b_ab_apply, h23, h25]
  rfl

theorem eye_at (r : Fin 1024) (q : Fin 256) :
    k0_pay14 g (ix2 r q) = if row g r = col g q then 1#1 else 0#1 := by
  unfold k0_pay14
  show IntOp.cmpi .eq
      (BitVec.ofNat 32 (g 0).val * BitVec.ofNat 32 1024 + iota .tc S1024x256 32 [0] iota_S1024x256_d0_w32 (ix2 r q))
      (BitVec.ofNat 32 (g 1).val * BitVec.ofNat 32 256 + iota .tc S1024x256 32 [1] iota_S1024x256_d1_w32 (ix2 r q)) = _
  rw [iota_single_apply, iota_single_apply]
  show IntOp.cmpi .eq (BitVec.ofNat 32 (g 0).val * BitVec.ofNat 32 1024 + BitVec.ofNat 32 r.val)
      (BitVec.ofNat 32 (g 1).val * BitVec.ofNat 32 256 + BitVec.ofNat 32 q.val) = _
  rw [ofNat_affine, ofNat_affine]
  have hr : (row g r).val < 2 ^ 32 := lt_trans (row g r).isLt (by norm_num)
  have hq : (col g q).val < 2 ^ 32 := lt_trans (col g q).isLt (by norm_num)
  by_cases h : row g r = col g q
  · rw [if_pos h]
    exact (cmpi_eq_one _ _).2 (congrArg (fun a : Fin 8192 => BitVec.ofNat 32 a.val) h)
  · rw [if_neg h]
    rcases bit_cases (IntOp.cmpi .eq (BitVec.ofNat 32 ((g 0).val * 1024 + r.val)) (BitVec.ofNat 32 ((g 1).val * 256 + q.val))) with e | e
    · exact e
    · exact absurd (Fin.ext (ofNat_inj hr hq ((cmpi_eq_one _ _).1 e))) h

theorem offd_at (r : Fin 1024) (q : Fin 256) :
    k0_pay1 (F := Ideal) (k0_pay14 g) (ix2 r q) = Cert.Spec.offd (row g r) (col g q) := by
  rw [pay1_at, eye_at]
  unfold Cert.Spec.offd
  by_cases h : row g r = col g q
  · rw [if_pos h, if_pos rfl, if_pos h]
  · rw [if_neg h, if_neg (by decide), if_neg h]

theorem nm_at (h23 : ∀ r, v23 (ix2 r (0 : Fin 1)) = lab (ix1 (row g r)))
    (h25 : ∀ q, v25 (ix2 (0 : Fin 1) q) = lab (ix1 (col g q))) (r : Fin 1024) (q : Fin 256) :
    k0_pay2 (F := Ideal) (k0_pay13 (F := Ideal) v23 v25) (k0_pay14 g) (ix2 r q) = Cert.Spec.nm lab (row g r) (col g q) := by
  unfold k0_pay2
  show k0_pay13 (F := Ideal) v23 v25 (ix2 r q) * k0_pay1 (F := Ideal) (k0_pay14 g) (ix2 r q) = _
  rw [same_at lab g v23 v25 h23 h25, offd_at]
  rfl

end

/-! ## The logits -/

/-- A block's rows scaled by the reciprocal square root of their sums of squares (the lane sum from the zero word,
    stood up as a column, its reciprocal square root broadcast back over the lanes), at an entry. -/
theorem norm_rows {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (d : Fin b) :
    mulf v (broadcastTo ⟨2, ![a, b]⟩ (rsqrt (shapeCast ⟨2, ![a, 1]⟩
      (multiReduction .add [1] ⟨1, ![a]⟩ (mulf v v) 0x00000000#32 h hφ hacc) hc)) hb) (ix2 p d)
      = v (ix2 p d) * Ideal.rsqrt (∑ k : Fin b, v (ix2 p k) * v (ix2 p k)) := by
  show v (ix2 p d) * broadcastTo ⟨2, ![a, b]⟩ (rsqrt (shapeCast ⟨2, ![a, 1]⟩
      (multiReduction .add [1] ⟨1, ![a]⟩ (mulf v v) 0x00000000#32 h hφ hacc) hc)) hb (ix2 p d) = _
  rw [Cert.Lib.VecIx2.bcast_col]
  show v (ix2 p d) * Ideal.rsqrt (shapeCast ⟨2, ![a, 1]⟩
      (multiReduction .add [1] ⟨1, ![a]⟩ (mulf v v) 0x00000000#32 h hφ hacc) hc (ix2 p (0 : Fin 1))) = _
  rw [Cert.Lib.RowSum.rowsum_column]
  rfl

/-- The kernel's shape record for the product is the plain M x K by K x N one. -/
theorem dot_plain : dot_S1024x128_S128x256_S1024x256_1_0_0_1_n_n = DotDims.plain 1024 128 256 := rfl

section
variable (x : Cert.Spec.XArr) (g : grid0.Coords)
  (v3 : Vec Ideal S1024x128 .f32) (v4 : Vec Ideal S256x128 .f32)

theorem logit_at (h3 : ∀ r d, v3 (ix2 r d) = x (ix2 (row g r) d)) (h4 : ∀ q d, v4 (ix2 q d) = x (ix2 (col g q) d))
    (r : Fin 1024) (q : Fin 256) :
    k0_pay12 (F := Ideal) v3 v4 (ix2 r q) = Cert.Spec.logit x (row g r) (col g q) := by
  unfold k0_pay12
  show matmul dot_S1024x128_S128x256_S1024x256_1_0_0_1_n_n none
        (truncf .bf16 (mulf v3 (broadcastTo S1024x128 (rsqrt (shapeCast S1024x1
          (multiReduction .add [1] S1024 (mulf v3 v3) 0x00000000#32 reduces_S1024x128_S1024 (.inl rfl) rfl)
          shapeCasts_S1024_S1024x1)) broadcasts_S1024x1_S1024x128)) bitsLt_bf16_f32)
        (transpose S128x256 [1, 0] (truncf .bf16 (mulf v4 (broadcastTo S256x128 (rsqrt (shapeCast S256x1
          (multiReduction .add [1] S256 (mulf v4 v4) 0x00000000#32 reduces_S256x128_S256 (.inl rfl) rfl)
          shapeCasts_S256_S256x1)) broadcasts_S256x1_S256x128)) bitsLt_bf16_f32) transposes_S256x128_p1_0_S128x256)
        (constant (F := Ideal) S1024x256 .f32 0x00000000#32) (ix2 r q)
      * Named.named (F := Ideal) Cert.KernelIdeal.κ "inv_temperature" (φ := .f32) 0x41200000#32 = _
  rw [inv_temperature_eq, dot_plain]
  unfold Cert.Spec.logit
  refine congrArg (· * Cert.Spec.invT) ?_
  refine (Cert.PlainDot.matmul_zero_plain_apply none _ _ r q).trans ?_
  refine Finset.sum_congr rfl fun c _ => ?_
  rw [transpose_ix2_apply]
  rw [truncf_apply, truncf_apply]
  refine (congrArg₂ (· * ·) (norm_rows v3 _ _ _ _ _ r c) (norm_rows v4 _ _ _ _ _ q c)).trans ?_
  simp only [h3, h4]
  rfl

end

/-! ## The accumulator steps -/

/-- One accumulator's update: the previous column plus the lane sums of a tile (from the zero word), at (r, ·). -/
theorem acc_step (w : FVec Ideal S1024x256 .f32) (prev : Vec Ideal S1024x1 .f32) (r : Fin 1024) (u : Fin 1) :
    shapeCast S1024x1 (addf prev (shapeCast S1024x1
      (multiReduction .add [1] S1024 w 0x00000000#32 reduces_S1024x256_S1024 (.inl rfl) rfl)
      shapeCasts_S1024_S1024x1)) shapeCasts_S1024x1_S1024x1 (ix2 r u)
      = prev (ix2 r u) + ∑ q : Fin 256, w (ix2 r q) := by
  rw [shapeCast_self]
  show prev (ix2 r u) + shapeCast S1024x1
      (multiReduction .add [1] S1024 w 0x00000000#32 reduces_S1024x256_S1024 (.inl rfl) rfl)
      shapeCasts_S1024_S1024x1 (ix2 r u) = _
  exact congrArg (prev (ix2 r u) + ·) (Cert.Lib.RowSum.rowsum_column w _ _ _ _ r u)

section
variable (x : Cert.Spec.XArr) (lab : Cert.Spec.LArr) (g : grid0.Coords)
  (v3 : Vec Ideal S1024x128 .f32) (v4 : Vec Ideal S256x128 .f32)
  (v23 : Vec Ideal S1024x1 .i32) (v25 : Vec Ideal S1x256 .i32)

theorem zstep (h3 : ∀ r d, v3 (ix2 r d) = x (ix2 (row g r) d)) (h4 : ∀ q d, v4 (ix2 q d) = x (ix2 (col g q) d))
    (zp : Vec Ideal S1024x1 .f32) (r : Fin 1024) :
    k0_pay3 (F := Ideal) (k0_pay12 (F := Ideal) v3 v4) (k0_pay14 g) zp (ix2 r (0 : Fin 1))
      = zp (ix2 r (0 : Fin 1))
        + ∑ q : Fin 256, Ideal.exp (Cert.Spec.logit x (row g r) (col g q)) * Cert.Spec.offd (row g r) (col g q) := by
  unfold k0_pay3
  refine (acc_step _ zp r 0).trans ?_
  refine congrArg (zp (ix2 r (0 : Fin 1)) + ·) (Finset.sum_congr rfl fun q _ => ?_)
  show Ideal.exp (k0_pay12 (F := Ideal) v3 v4 (ix2 r q)) * k0_pay1 (F := Ideal) (k0_pay14 g) (ix2 r q) = _
  rw [logit_at x g v3 v4 h3 h4, offd_at]

theorem sstep (h3 : ∀ r d, v3 (ix2 r d) = x (ix2 (row g r) d)) (h4 : ∀ q d, v4 (ix2 q d) = x (ix2 (col g q) d))
    (h23 : ∀ r, v23 (ix2 r (0 : Fin 1)) = lab (ix1 (row g r)))
    (h25 : ∀ q, v25 (ix2 (0 : Fin 1) q) = lab (ix1 (col g q)))
    (sp : Vec Ideal S1024x1 .f32) (r : Fin 1024) :
    k0_pay4 (F := Ideal) (k0_pay12 (F := Ideal) v3 v4) (k0_pay13 (F := Ideal) v23 v25) (k0_pay14 g) sp (ix2 r (0 : Fin 1))
      = sp (ix2 r (0 : Fin 1))
        + ∑ q : Fin 256, Cert.Spec.logit x (row g r) (col g q) * Cert.Spec.nm lab (row g r) (col g q) := by
  unfold k0_pay4
  refine (acc_step _ sp r 0).trans ?_
  refine congrArg (sp (ix2 r (0 : Fin 1)) + ·) (Finset.sum_congr rfl fun q _ => ?_)
  show k0_pay12 (F := Ideal) v3 v4 (ix2 r q)
      * k0_pay2 (F := Ideal) (k0_pay13 (F := Ideal) v23 v25) (k0_pay14 g) (ix2 r q) = _
  rw [logit_at x g v3 v4 h3 h4, nm_at lab g v23 v25 h23 h25]

theorem pstep (h23 : ∀ r, v23 (ix2 r (0 : Fin 1)) = lab (ix1 (row g r)))
    (h25 : ∀ q, v25 (ix2 (0 : Fin 1) q) = lab (ix1 (col g q)))
    (pp : Vec Ideal S1024x1 .f32) (r : Fin 1024) :
    k0_pay5 (F := Ideal) (k0_pay13 (F := Ideal) v23 v25) (k0_pay14 g) pp (ix2 r (0 : Fin 1))
      = pp (ix2 r (0 : Fin 1)) + ∑ q : Fin 256, Cert.Spec.nm lab (row g r) (col g q) := by
  unfold k0_pay5
  refine (acc_step _ pp r 0).trans ?_
  refine congrArg (pp (ix2 r (0 : Fin 1)) + ·) (Finset.sum_congr rfl fun q _ => ?_)
  exact nm_at lab g v23 v25 h23 h25 r q

end

/-! ## The last point's outputs and the first point's zeros -/

/-- The test "count > 0" as a bit. -/
theorem pay6_at (p : Vec Ideal S1024x1 .f32) (j : S1024x1.Idx) :
    k0_pay6 (F := Ideal) p j = 1#1 ↔ 0 < p j := by
  unfold k0_pay6
  show Ideal.cmp .ogt (p j) (Ideal.ofBits .f32 0x00000000#32) = 1#1 ↔ _
  rw [Ideal.ofBits_zero_f32]
  show BitVec.ofBool (decide ((0 : EReal) < p j)) = 1#1 ↔ _
  by_cases h : (0 : EReal) < p j
  · simp [h]
  · simp [h]

theorem row_out (p z s : Vec Ideal S1024x1 .f32) (r : Fin 1024) :
    k0_pay7 (F := Ideal) p z s (ix2 r (0 : Fin 1))
      = if 0 < p (ix2 r (0 : Fin 1)) then
          Ideal.div (s (ix2 r (0 : Fin 1))) (p (ix2 r (0 : Fin 1))) - Ideal.log (z (ix2 r (0 : Fin 1)))
        else 0 := by
  unfold k0_pay7
  show Scalar.select (k0_pay6 (F := Ideal) p (ix2 r (0 : Fin 1)))
      (Ideal.div (s (ix2 r (0 : Fin 1)))
          (Scalar.select (k0_pay6 (F := Ideal) p (ix2 r (0 : Fin 1))) (p (ix2 r (0 : Fin 1))) (Ideal.ofBits .f32 0x3F800000#32))
        - Ideal.log (z (ix2 r (0 : Fin 1))))
      (Ideal.ofBits .f32 0x00000000#32) = _
  by_cases h : 0 < p (ix2 r (0 : Fin 1))
  · rw [if_pos h, (pay6_at p _).2 h, select_one, select_one]
  · have e : k0_pay6 (F := Ideal) p (ix2 r (0 : Fin 1)) = 0#1 := eq_zero_of_ne_one (fun e => h ((pay6_at p _).1 e))
    rw [if_neg h, e, select_zero, Ideal.ofBits_zero_f32]

theorem valid_out (p : Vec Ideal S1024x1 .f32) (r : Fin 1024) :
    k0_pay8 (F := Ideal) p (ix2 r (0 : Fin 1)) = if 0 < p (ix2 r (0 : Fin 1)) then 1 else 0 := by
  unfold k0_pay8
  show (FloatOps.sitofp (F := Ideal) .f32 ((k0_pay6 (F := Ideal) p (ix2 r (0 : Fin 1))).setWidth 32) : EReal) = _
  rw [sitofp_bit]
  by_cases h : 0 < p (ix2 r (0 : Fin 1))
  · rw [if_pos h, if_pos ((pay6_at p _).2 h)]
  · rw [if_neg h, if_neg (fun e => h ((pay6_at p _).1 e))]

theorem zero9 (r : Fin 1024) : k0_pay9 (F := Ideal) (ix2 r (0 : Fin 1)) = 0 := by
  unfold k0_pay9
  rw [shapeCast_self]
  exact Ideal.ofBits_zero_f32
theorem zero10 (r : Fin 1024) : k0_pay10 (F := Ideal) (ix2 r (0 : Fin 1)) = 0 := by
  unfold k0_pay10
  rw [shapeCast_self]
  exact Ideal.ofBits_zero_f32
theorem zero11 (r : Fin 1024) : k0_pay11 (F := Ideal) (ix2 r (0 : Fin 1)) = 0 := by
  unfold k0_pay11
  rw [shapeCast_self]
  exact Ideal.ofBits_zero_f32

end Cert.PointLaws

end
-- ==== Proof.KValueA.lean ====
/-
  What the grid's windows hold, entry by entry.

  Before the grid starts the labels (a vector of 8192 words) are reshaped twice, into a column [8192, 1] and into a row
  [1, 8192]; the embeddings and the labels themselves are not written. The grid has 8 x 32 points, numbered row by row:
  point t is (t / 32, t % 32). At the point (i, k) the first window holds rows i·1024 … i·1024 + 1023 of the
  embeddings, the second rows k·256 … k·256 + 255, the third the labels of the first's rows as a column, the fourth
  the labels of the second's rows as a row: entry r of a block at block index b with block height h is entry b·h + r
  of the array.
-/
import proofs.«114130_j9689446219883_1_alg».proof.Proof.KData
import proofs.«114130_j9689446219883_1_alg».proof.Proof.PointLaws
import proofs.«114130_j9689446219883_1_alg».proof.Proof.LibLayout
import Idealize.ShloMosaic.Lib.Pipeline.Value
import Idealize.ShloMosaic.Lib.ValueLayout
import Idealize.ShloMosaic.Lib.Tactic

set_option maxRecDepth 16384

noncomputable section

namespace Cert.KValue

open Cert.KernelIdeal Cert.KernelIdeal.Gen Cert.KernelIdeal.Data Cert.PointLaws
open Idealize.ShloMosaic Idealize.ShloMosaic.TcCoe Idealize.ShloMosaic.ValueIdx Idealize.SL.Sem
open Idealize.ShloMosaic.Pipeline (Dat)

variable {F : FTy → Type} [FloatOps F] [Named F]
variable (m : (ℓ : Loc nD τ sig) → Buf (Elt F) ℓ)

/-- Neither reshape writes a buffer other than its own result. -/
theorem not_written (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, Finset.mem_singleton] <;>
    exact StableHlo.devRef_ne_of_ne ‹_›

/-- The embeddings reach the grid as launched. -/
theorem V_arg0 (c : Dev nD) : V m c main_arg0 = m ((c : Thread nD τ).loc main_arg0) :=
  StableHlo.after_of_forall_not_mem (b := Proc.devRef .tc main_arg0) hostOps0 (V₀ m c) (not_written main_arg0 (by decide))

/-- The labels reach the grid as launched. -/
theorem V_arg1 (c : Dev nD) : V m c main_arg1 = m ((c : Thread nD τ).loc main_arg1) :=
  StableHlo.after_of_forall_not_mem (b := Proc.devRef .tc main_arg1) hostOps0 (V₀ m c) (not_written main_arg1 (by decide))

/-- The third window's array is the labels as a column. -/
theorem V_v0 (c : Dev nD) : (V m c main_v0 : S8192x1.Idx → Elt F .i32)
    = shapeCast S8192x1 (m ((c : Thread nD τ).loc main_arg1) : S8192.Idx → Elt F .i32) shapeCasts_S8192_S8192x1 := by
  dsimp only [V, hostOps0]
  after_results
  rfl

/-- The fourth window's array is the labels as a row. -/
theorem V_v1 (c : Dev nD) : (V m c main_v1 : S1x8192.Idx → Elt F .i32)
    = shapeCast S1x8192 (m ((c : Thread nD τ).loc main_arg1) : S8192.Idx → Elt F .i32) shapeCasts_S8192_S1x8192 := by
  dsimp only [V, hostOps0]
  after_results
  rfl

/-- The labels as a column, at an entry. -/
theorem V_v0_apply (c : Dev nD) (a : Fin 8192) :
    (V m c main_v0 : S8192x1.Idx → Elt F .i32) (ix2 a (0 : Fin 1))
      = (m ((c : Thread nD τ).loc main_arg1) : S8192.Idx → Elt F .i32) (ix1 a) := by
  rw [V_v0]
  exact Cert.LibLayout.shapeCast_a_a1_apply _ _ a (0 : Fin 1)

/-- The labels as a row, at an entry. -/
theorem V_v1_apply (c : Dev nD) (a : Fin 8192) :
    (V m c main_v1 : S1x8192.Idx → Elt F .i32) (ix2 (0 : Fin 1) a)
      = (m ((c : Thread nD τ).loc main_arg1) : S8192.Idx → Elt F .i32) (ix1 a) := by
  rw [V_v1]
  exact shapeCast_a_1a_apply _ _ (0 : Fin 1) a

/-! ## The grid's points -/

/-- Point t is (t / 32, t % 32). -/
theorem coords0 : ∀ t : Fin cfg0.N, ((grid0.coords t) 0).val = t.val / 32 :=
  (by decide +kernel : ∀ t : Fin grid0.N, ((grid0.coords t) 0).val = t.val / 32)
theorem coords1 : ∀ t : Fin cfg0.N, ((grid0.coords t) 1).val = t.val % 32 :=
  (by decide +kernel : ∀ t : Fin grid0.N, ((grid0.coords t) 1).val = t.val % 32)

/-! ## The windows' block indices at a grid point -/

theorem idx0 : ∀ t : Fin cfg0.N, win0_0.index t 0 = t.val / 32 ∧ win0_0.index t 1 = 0 :=
  (by decide +kernel : ∀ t : Fin grid0.N, win0_0.index t 0 = t.val / 32 ∧ win0_0.index t 1 = 0)
theorem idx1 : ∀ t : Fin cfg0.N, win0_1.index t 0 = t.val % 32 ∧ win0_1.index t 1 = 0 :=
  (by decide +kernel : ∀ t : Fin grid0.N, win0_1.index t 0 = t.val % 32 ∧ win0_1.index t 1 = 0)
theorem idx2 : ∀ t : Fin cfg0.N, win0_2.index t 0 = t.val / 32 ∧ win0_2.index t 1 = 0 :=
  (by decide +kernel : ∀ t : Fin grid0.N, win0_2.index t 0 = t.val / 32 ∧ win0_2.index t 1 = 0)
theorem idx3 : ∀ t : Fin cfg0.N, win0_3.index t 0 = 0 ∧ win0_3.index t 1 = t.val % 32 :=
  (by decide +kernel : ∀ t : Fin grid0.N, win0_3.index t 0 = 0 ∧ win0_3.index t 1 = t.val % 32)
theorem idx4 : ∀ t : Fin cfg0.N, win0_4.index t 0 = t.val / 32 ∧ win0_4.index t 1 = 0 :=
  (by decide +kernel : ∀ t : Fin grid0.N, win0_4.index t 0 = t.val / 32 ∧ win0_4.index t 1 = 0)
theorem idx5 : ∀ t : Fin cfg0.N, win0_5.index t 0 = t.val / 32 ∧ win0_5.index t 1 = 0 :=
  (by decide +kernel : ∀ t : Fin grid0.N, win0_5.index t 0 = t.val / 32 ∧ win0_5.index t 1 = 0)

/-- The first window's block at point t is rows (t/32)·1024 … of the embeddings. -/
theorem iblk0_apply (c : Dev nD) (t : Fin cfg0.N) (r : Fin 1024) (d : Fin 128) :
    (iblk m c 0 t : Vec F S1024x128 .f32) (ix2 r d)
      = (m ((c : Thread nD τ).loc main_arg0) : S8192x128.Idx → Elt F .f32) (ix2 (row (grid0.coords t) r) d) := by
  have hi := idx0 t
  unfold iblk
  rw [View.read_apply]
  show V m c main_arg0 _ = m (c.tc.loc main_arg0) _
  rw [V_arg0]
  congr 1
  funext a
  apply Fin.ext
  match a with
  | ⟨0, _⟩ =>
    show win0_0.index t 0 * 1024 + 1 * r.val = (grid0.coords t 0).val * 1024 + r.val
    rw [hi.1, coords0]; omega
  | ⟨1, _⟩ =>
    show win0_0.index t 1 * 128 + 1 * d.val = d.val
    rw [hi.2]; omega

/-- The second window's block at point t is rows (t%32)·256 … of the embeddings. -/
theorem iblk1_apply (c : Dev nD) (t : Fin cfg0.N) (q : Fin 256) (d : Fin 128) :
    (iblk m c 1 t : Vec F S256x128 .f32) (ix2 q d)
      = (m ((c : Thread nD τ).loc main_arg0) : S8192x128.Idx → Elt F .f32) (ix2 (col (grid0.coords t) q) d) := by
  have hi := idx1 t
  unfold iblk
  rw [View.read_apply]
  show V m c main_arg0 _ = m (c.tc.loc main_arg0) _
  rw [V_arg0]
  congr 1
  funext a
  apply Fin.ext
  match a with
  | ⟨0, _⟩ =>
    show win0_1.index t 0 * 256 + 1 * q.val = (grid0.coords t 1).val * 256 + q.val
    rw [hi.1, coords1]; omega
  | ⟨1, _⟩ =>
    show win0_1.index t 1 * 128 + 1 * d.val = d.val
    rw [hi.2]; omega

/-- The third window's block at point t is the labels of rows (t/32)·1024 …, as a column. -/
theorem iblk2_apply (c : Dev nD) (t : Fin cfg0.N) (r : Fin 1024) :
    (iblk m c 2 t : Vec F S1024x1 .i32) (ix2 r (0 : Fin 1))
      = (m ((c : Thread nD τ).loc main_arg1) : S8192.Idx → Elt F .i32) (ix1 (row (grid0.coords t) r)) := by
  have hi := idx2 t
  unfold iblk
  rw [View.read_apply]
  show (V m c main_v0 : S8192x1.Idx → Elt F .i32) _ = _
  rw [V_v0]
  refine Eq.trans (congrArg (shapeCast S8192x1 (m ((c : Thread nD τ).loc main_arg1) : S8192.Idx → Elt F .i32) shapeCasts_S8192_S8192x1) ?_)
    (Cert.LibLayout.shapeCast_a_a1_apply _ _ (row (grid0.coords t) r) (0 : Fin 1))
  funext a
  apply Fin.ext
  match a with
  | ⟨0, _⟩ =>
    show win0_2.index t 0 * 1024 + 1 * r.val = (grid0.coords t 0).val * 1024 + r.val
    rw [hi.1, coords0]; omega
  | ⟨1, _⟩ =>
    show win0_2.index t 1 * 1 + 1 * 0 = 0
    rw [hi.2]

/-- The fourth window's block at point t is the labels of rows (t%32)·256 …, as a row. -/
theorem iblk3_apply (c : Dev nD) (t : Fin cfg0.N) (q : Fin 256) :
    (iblk m c 3 t : Vec F S1x256 .i32) (ix2 (0 : Fin 1) q)
      = (m ((c : Thread nD τ).loc main_arg1) : S8192.Idx → Elt F .i32) (ix1 (col (grid0.coords t) q)) := by
  have hi := idx3 t
  unfold iblk
  rw [View.read_apply]
  show (V m c main_v1 : S1x8192.Idx → Elt F .i32) _ = _
  rw [V_v1]
  refine Eq.trans (congrArg (shapeCast S1x8192 (m ((c : Thread nD τ).loc main_arg1) : S8192.Idx → Elt F .i32) shapeCasts_S8192_S1x8192) ?_)
    (shapeCast_a_1a_apply _ _ (0 : Fin 1) (col (grid0.coords t) q))
  funext a
  apply Fin.ext
  match a with
  | ⟨0, _⟩ =>
    show win0_3.index t 0 * 1 + 1 * 0 = 0
    rw [hi.1]
  | ⟨1, _⟩ =>
    show win0_3.index t 1 * 256 + 1 * q.val = (grid0.coords t 1).val * 256 + q.val
    rw [hi.2, coords1]; omega

end Cert.KValue

end
-- ==== Proof.KFrame.lean ====
import proofs.«114130_j9689446219883_1_alg».proof.Proof.Gen.KernelIdeal.Launch
import proofs.«114130_j9689446219883_1_alg».proof.Proof.Gen.KernelIdeal.Skeleton
import proofs.«114130_j9689446219883_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Tactic
import proofs.«114130_j9689446219883_1_alg».proof.Proof.KLaunch
import proofs.«114130_j9689446219883_1_alg».proof.Proof.KValueA
set_option maxRecDepth 16384

noncomputable section

namespace Cert.KernelIdeal.FrameRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Data Cert.KernelIdeal.LaunchRun

variable (m : (ℓ : Loc nD τ sig) → Buf (Elt F) ℓ) (ρ : Dev nD → PrngReg)

/-- The six operations after the region write only their own results. -/
theorem not_written1 (b : Ref sig .tc)
    (hb : b ≠ main_cst ∧ b ≠ main_v3 ∧ b ≠ main_v4 ∧ b ≠ main_cst_0 ∧ b ≠ main_v5 ∧ b ≠ main_v6) :
    ∀ op ∈ (hostOps1 (F := F)), Proc.devRef .tc b ∉ op.writes := by
  obtain ⟨h0, h1, h2, h3, h4, h5⟩ := hb
  intro op hop
  simp only [List.mem_cons, List.mem_nil_iff, or_false] at hop
  rcases hop with rfl | rfl | rfl | rfl | rfl | rfl <;>
    simp only [StableHlo.unary_writes, StableHlo.binary_writes, StableHlo.nullary_writes, Finset.mem_singleton] <;>
    exact StableHlo.devRef_ne_of_ne ‹_›

/-- The embeddings end as launched: no host operation writes them and the region only reads them. -/
theorem W2_arg0 (c : Dev nD) : W2 m c (Proc.devRef .tc main_arg0) = m ((c : Thread nD τ).loc main_arg0) :=
  calc W2 m c (Proc.devRef .tc main_arg0)
    _ = W1 m c (Proc.devRef .tc main_arg0) :=
        StableHlo.after_of_forall_not_mem (b := Proc.devRef .tc main_arg0) hostOps1 (W1 m c) (not_written1 main_arg0 (by decide))
    _ = W0 m c (Proc.devRef .tc main_arg0) := W1_of_ne m c main_arg0 (by decide) (by decide)
    _ = m ((c : Thread nD τ).loc main_arg0) := Cert.KValue.V_arg0 m c

/-- The labels end as launched. -/
theorem W2_arg1 (c : Dev nD) : W2 m c (Proc.devRef .tc main_arg1) = m ((c : Thread nD τ).loc main_arg1) :=
  calc W2 m c (Proc.devRef .tc main_arg1)
    _ = W1 m c (Proc.devRef .tc main_arg1) :=
        StableHlo.after_of_forall_not_mem (b := Proc.devRef .tc main_arg1) hostOps1 (W1 m c) (not_written1 main_arg1 (by decide))
    _ = W0 m c (Proc.devRef .tc main_arg1) := W1_of_ne m c main_arg1 (by decide) (by decide)
    _ = m ((c : Thread nD τ).loc main_arg1) := Cert.KValue.V_arg1 m c

/-- The run read at the result and the two arguments. -/
theorem run_read (hb : ∀ c, BodyObligation (dats m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v6) = W2 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v6 (by decide)),
     (h c _ (mem_uc main_arg0 (by decide))).trans (W2_arg0 m c),
     (h c _ (mem_uc main_arg1 (by decide))).trans (W2_arg1 m c)⟩) (run_main m ρ hb)

/-- The program runs to the end, faults nowhere and leaves its two arguments as launched. -/
theorem frame (hb : ∀ c, BodyObligation (dats m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_read m ρ hb)

end Cert.KernelIdeal.FrameRun

end
-- ==== Proof.KRun0.lean ====
/-
  The kernel body's runs: what is common to the three cases. The body branches twice on the column tile's number k:
  at k = 0 it first zeroes the three running totals, at k = 31 it finally writes the two outputs from them. Here are
  the two conditions as the body computes them, and three facts about a buffer accessed through the rectangle that
  is the whole shape: a load of it reads the contents, a store through it leaves its payload whatever was stored
  before, and a load after such a store reads that payload.
-/
import proofs.«114130_j9689446219883_1_alg».proof.Proof.Gen.KernelIdeal.Launch
import proofs.«114130_j9689446219883_1_alg».proof.Proof.Gen.KernelIdeal.Skeleton
import proofs.«114130_j9689446219883_1_alg».proof.Proof.Gen.KernelIdeal.Points
import proofs.«114130_j9689446219883_1_alg».proof.Proof.KAccDef
import Idealize.ShloMosaic.Lib.Pipeline.FrameBody
import Idealize.ShloMosaic.Lib.Pipeline.FrameSuffix
import Idealize.ShloMosaic.Lib.Pipeline.Regions
import Idealize.ShloMosaic.Lib.Pipeline.Value
import Idealize.ShloMosaic.Lib.Tactic

noncomputable section

namespace Cert.KernelIdeal.Run

open Cert.KernelIdeal Cert.KernelIdeal.Gen
open Idealize.ShloMosaic

/-- The first branch's condition (the column tile is the first). -/
abbrev cond0 (i : grid0.Coords) : Prop := (Scalar.cmpi .ne (Scalar.extui (Scalar.cmpi .eq (BitVec.ofNat 32 (i 1).val) 0#32)) 0#32) = 1#1
/-- The second branch's condition (the column tile is the last). -/
abbrev cond1 (i : grid0.Coords) : Prop := k0_cond2 i = 1#1

/-- The zero offsets of a whole-block access. -/
theorem hz2 : (![0, 0] : Fin 2 → Nat) = fun _ => 0 := by funext a; fin_cases a <;> rfl

section
variable {Val : EltTy → Type} [∀ e, Nonempty (Val e)] {sg : RefSig} {κ : Kind} {sp : Space} {S : Shape} {e : EltTy}

/-- A store through the whole-shape rectangle, made last, leaves its payload, whatever the buffer held and whatever
    was stored before. -/
theorem read_store_head (v : View sg κ sp S e) (f : v.ty.Contents Val) {off : Fin S.rank → Nat} (h : off = fun _ => 0)
    {inb : ∀ a, off a + S.size a ≤ S.size a} {w : S.Idx → Val e} (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

/-- A load through the whole-shape rectangle of a whole buffer reads its contents. -/
theorem readAt_whole (m : Memref sg κ sp S e) (hm : m.IsWhole) (X : S.Idx → Val e) {off : Fin S.rank → Nat}
    (h : off = fun _ => 0) {inb : ∀ a, off a + S.size a ≤ S.size a} :
    m.view.readAt Val (Rect.unit off S.size inb).toLoadRect (hm.unread X) = X := by
  rw [View.readAt_eq_ld, hm.read_unread, View.ld_unit_zero h inb]

/-- The same for a rank-2 buffer at the literal offsets (0, 0), in the form a rewriting pass can use. -/
theorem readAt_whole2 {n0 n1 : ℕ} (m : Memref sg κ sp ⟨2, ![n0, n1]⟩ e) (hm : m.IsWhole)
    (X : (⟨2, ![n0, n1]⟩ : Shape).Idx → Val e)
    {inb : ∀ a, (![0, 0] : Fin 2 → ℕ) a + (⟨2, ![n0, n1]⟩ : Shape).size a ≤ (⟨2, ![n0, n1]⟩ : Shape).size a} :
    m.view.readAt Val (Rect.unit ![0, 0] (⟨2, ![n0, n1]⟩ : Shape).size inb).toLoadRect (hm.unread X) = X :=
  readAt_whole m hm X hz2

end

end Cert.KernelIdeal.Run

end
-- ==== Proof.KRunA.lean ====
/-
  The kernel body's run at a grid point whose column tile is the first (and not the last): the three running totals
  are zeroed and then take this tile's terms, so they end one step from zero whatever they held; the blocks read and
  the two outputs are left as they were.
-/
import proofs.«114130_j9689446219883_1_alg».proof.Proof.KRun0

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first column tile: from whole buffers holding the four blocks and anything in the two outputs and
    the three totals, it runs to the continuation with the totals one step from zero. -/
theorem kernelRun_A (c : Dev nD) (i : grid0.Coords) (arg2 : Memref sig .tc .vmem S1024x128 .f32) (harg2 : arg2.IsWhole) (arg3 : Memref sig .tc .vmem S256x128 .f32) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 : Vec F S1024x128 .f32) (x1 : Vec F S256x128 .f32) (x2 : Vec F S1024x1 .i32) (x3 : Vec F S1x256 .i32)
    (xo4 xo5 z s p : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo4 ∗ owns (c : Thread nD τ) arg7 fullShare xo5
        ∗ owns (c : Thread nD τ) arg8 fullShare z ∗ owns (c : Thread nD τ) arg9 fullShare s ∗ owns (c : Thread nD τ) arg10 fullShare p
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ owns (c : Thread nD τ) arg8 fullShare (Acc.step i x0 x1 x2 x3 Acc.init).z
            ∗ owns (c : Thread nD τ) arg9 fullShare (Acc.step i x0 x1 x2 x3 Acc.init).s
            ∗ owns (c : Thread nD τ) arg10 fullShare (Acc.step i x0 x1 x2 x3 Acc.init).p) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9; obtain rfl := harg10.eq_unread hf10
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact hf4
    iexact H4
  isplitl [H5]
  · iexists _; isplitr
    · ipureintro; exact hf5
    iexact H5
  isplitl [H8]
  · iexists _; isplitr
    swap; · iexact H8
    ipureintro
    rw [read_store_head _ _ hz2]
    sl_unfold_run_names
    repeat rw [View.readCov_cons_toLoadRect]
    repeat rw [readAt_whole2]
    rfl
  isplitl [H9]
  · iexists _; isplitr
    swap; · iexact H9
    ipureintro
    rw [read_store_head _ _ hz2]
    sl_unfold_run_names
    repeat rw [View.readCov_cons_toLoadRect]
    repeat rw [readAt_whole2]
    rfl
  · iexists _; isplitr
    swap; · iexact H10
    ipureintro
    rw [read_store_head _ _ hz2]
    sl_unfold_run_names
    repeat rw [View.readCov_cons_toLoadRect]
    repeat rw [readAt_whole2]
    rfl

end Cert.KernelIdeal.Run

end
-- ==== Proof.KRunB.lean ====
/-
  The kernel body's run at a grid point whose column tile is neither the first nor the last: the three running
  totals, whatever they held, each take this tile's terms; the blocks read and the two outputs are left as they were.
-/
import proofs.«114130_j9689446219883_1_alg».proof.Proof.KRun0

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a middle column tile: from whole buffers holding the four blocks, anything in the two outputs and the
    totals z s p, it runs to the continuation with the totals one step on. -/
theorem kernelRun_B (c : Dev nD) (i : grid0.Coords) (arg2 : Memref sig .tc .vmem S1024x128 .f32) (harg2 : arg2.IsWhole) (arg3 : Memref sig .tc .vmem S256x128 .f32) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 : Vec F S1024x128 .f32) (x1 : Vec F S256x128 .f32) (x2 : Vec F S1024x1 .i32) (x3 : Vec F S1x256 .i32)
    (xo4 xo5 z s p : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo4 ∗ owns (c : Thread nD τ) arg7 fullShare xo5
        ∗ owns (c : Thread nD τ) arg8 fullShare z ∗ owns (c : Thread nD τ) arg9 fullShare s ∗ owns (c : Thread nD τ) arg10 fullShare p
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ owns (c : Thread nD τ) arg8 fullShare (Acc.step i x0 x1 x2 x3 ⟨z, s, p⟩).z
            ∗ owns (c : Thread nD τ) arg9 fullShare (Acc.step i x0 x1 x2 x3 ⟨z, s, p⟩).s
            ∗ owns (c : Thread nD τ) arg10 fullShare (Acc.step i x0 x1 x2 x3 ⟨z, s, p⟩).p) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9; obtain rfl := harg10.eq_unread hf10
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact hf4
    iexact H4
  isplitl [H5]
  · iexists _; isplitr
    · ipureintro; exact hf5
    iexact H5
  isplitl [H8]
  · iexists _; isplitr
    swap; · iexact H8
    ipureintro
    rw [read_store_head _ _ hz2]
    sl_unfold_run_names
    repeat rw [View.readCov_cons_toLoadRect]
    repeat rw [readAt_whole2]
    rfl
  isplitl [H9]
  · iexists _; isplitr
    swap; · iexact H9
    ipureintro
    rw [read_store_head _ _ hz2]
    sl_unfold_run_names
    repeat rw [View.readCov_cons_toLoadRect]
    repeat rw [readAt_whole2]
    rfl
  · iexists _; isplitr
    swap; · iexact H10
    ipureintro
    rw [read_store_head _ _ hz2]
    sl_unfold_run_names
    repeat rw [View.readCov_cons_toLoadRect]
    repeat rw [readAt_whole2]
    rfl

end Cert.KernelIdeal.Run

end
-- ==== Proof.KRunC.lean ====
/-
  The kernel body's run at a grid point whose column tile is the last (and not the first): the three running totals
  each take this tile's terms, and the two outputs are then written from the totals so reached — each row's term of
  the loss and the bit "the row has a positive" — whatever the outputs held; the blocks read are left as they were.
-/
import proofs.«114130_j9689446219883_1_alg».proof.Proof.KRun0

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the last column tile: from whole buffers holding the four blocks, anything in the two outputs and the
    totals z s p, it runs to the continuation with the totals one step on and the two outputs written from them. -/
theorem kernelRun_C (c : Dev nD) (i : grid0.Coords) (arg2 : Memref sig .tc .vmem S1024x128 .f32) (harg2 : arg2.IsWhole) (arg3 : Memref sig .tc .vmem S256x128 .f32) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 : Vec F S1024x128 .f32) (x1 : Vec F S256x128 .f32) (x2 : Vec F S1024x1 .i32) (x3 : Vec F S1x256 .i32)
    (xo4 xo5 z s p : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo4 ∗ owns (c : Thread nD τ) arg7 fullShare xo5
        ∗ owns (c : Thread nD τ) arg8 fullShare z ∗ owns (c : Thread nD τ) arg9 fullShare s ∗ owns (c : Thread nD τ) arg10 fullShare p
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay7 (Acc.step i x0 x1 x2 x3 ⟨z, s, p⟩).p (Acc.step i x0 x1 x2 x3 ⟨z, s, p⟩).z (Acc.step i x0 x1 x2 x3 ⟨z, s, p⟩).s)
            ∗ owns (c : Thread nD τ) arg7 fullShare (k0_pay8 (Acc.step i x0 x1 x2 x3 ⟨z, s, p⟩).p)
            ∗ owns (c : Thread nD τ) arg8 fullShare (Acc.step i x0 x1 x2 x3 ⟨z, s, p⟩).z
            ∗ owns (c : Thread nD τ) arg9 fullShare (Acc.step i x0 x1 x2 x3 ⟨z, s, p⟩).s
            ∗ owns (c : Thread nD τ) arg10 fullShare (Acc.step i x0 x1 x2 x3 ⟨z, s, p⟩).p) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9; obtain rfl := harg10.eq_unread hf10
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    swap; · iexact H4
    ipureintro
    try sl_unfold_run_names
    rw [read_store_head _ _ hz2]
    try sl_unfold_run_names
    repeat rw [View.readCov_cons_toLoadRect]
    repeat rw [readAt_whole2]
    rfl
  isplitl [H5]
  · iexists _; isplitr
    swap; · iexact H5
    ipureintro
    try sl_unfold_run_names
    rw [read_store_head _ _ hz2]
    try sl_unfold_run_names
    repeat rw [View.readCov_cons_toLoadRect]
    repeat rw [readAt_whole2]
    rfl
  isplitl [H8]
  · iexists _; isplitr
    swap; · iexact H8
    ipureintro
    try sl_unfold_run_names
    rw [read_store_head _ _ hz2]
    try sl_unfold_run_names
    repeat rw [View.readCov_cons_toLoadRect]
    repeat rw [readAt_whole2]
    rfl
  isplitl [H9]
  · iexists _; isplitr
    swap; · iexact H9
    ipureintro
    try sl_unfold_run_names
    rw [read_store_head _ _ hz2]
    try sl_unfold_run_names
    repeat rw [View.readCov_cons_toLoadRect]
    repeat rw [readAt_whole2]
    rfl
  · iexists _; isplitr
    swap; · iexact H10
    ipureintro
    try sl_unfold_run_names
    rw [read_store_head _ _ hz2]
    try sl_unfold_run_names
    repeat rw [View.readCov_cons_toLoadRect]
    repeat rw [readAt_whole2]
    rfl

end Cert.KernelIdeal.Run

end
-- ==== Proof.KBody.lean ====
/-
  The kernel body's obligation to the pipeline: at every grid point, from what the pipeline hands the body to what it
  takes back.

  At a point t the body is handed the six windows' current staging buffers and, through the invariant, the three
  scratch buffers. The four input buffers hold their blocks at every point (fetched there or left from the point
  before, whose block is the same). The column tile's number decides the case: at the first column tile (t % 32 = 0)
  the totals restart from zero, whatever the scratch held; at every other they continue from the totals after the point
  before; at the last (t % 32 = 31) the two outputs are written from the totals, and only there: elsewhere the outputs'
  buffers are handed back as found and are not written back. In every case the scratch is taken back at the totals
  after the point.
-/
import proofs.«114130_j9689446219883_1_alg».proof.Proof.KData
import proofs.«114130_j9689446219883_1_alg».proof.Proof.KRunA
import proofs.«114130_j9689446219883_1_alg».proof.Proof.KRunB
import proofs.«114130_j9689446219883_1_alg».proof.Proof.KRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Acc Cert.KernelIdeal.Data Cert.KernelIdeal.Run

variable (m : (ℓ : Loc nD τ sig) → Buf (Elt F) ℓ)

/-! ## The two branch conditions in closed form, and where the outputs are idle -/

/-- The first condition holds at the points whose column tile is the first. -/
theorem hcond0 : ∀ t : Fin cfg0.N, cond0 (grid0.coords t) ↔ t.val % 32 = 0 :=
  (by decide +kernel : ∀ t : Fin grid0.N, cond0 (grid0.coords t) ↔ t.val % 32 = 0)
/-- The second condition holds at the points whose column tile is the last. -/
theorem hcond1 : ∀ t : Fin cfg0.N, cond1 (grid0.coords t) ↔ t.val % 32 = 31 :=
  (by decide +kernel : ∀ t : Fin grid0.N, cond1 (grid0.coords t) ↔ t.val % 32 = 31)

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- The outputs are idle except at the last column tile, -/
theorem idleAt0_4 : ∀ t : Fin cfg0.N, ¬t.val % 32 = 31 → cfg0.idle 4 (grid0.coords t) = true :=
  (by decide +kernel : ∀ t : Fin grid0.N, ¬t.val % 32 = 31 → cfg0.idle 4 (grid0.coords t) = true)
theorem idleAt0_5 : ∀ t : Fin cfg0.N, ¬t.val % 32 = 31 → cfg0.idle 5 (grid0.coords t) = true :=
  (by decide +kernel : ∀ t : Fin grid0.N, ¬t.val % 32 = 31 → cfg0.idle 5 (grid0.coords t) = true)
/-- where they are live, -/
theorem liveAt0_4 : ∀ t : Fin cfg0.N, t.val % 32 = 31 → cfg0.idle 4 (grid0.coords t) = false :=
  (by decide +kernel : ∀ t : Fin grid0.N, t.val % 32 = 31 → cfg0.idle 4 (grid0.coords t) = false)
theorem liveAt0_5 : ∀ t : Fin cfg0.N, t.val % 32 = 31 → cfg0.idle 5 (grid0.coords t) = false :=
  (by decide +kernel : ∀ t : Fin grid0.N, t.val % 32 = 31 → cfg0.idle 5 (grid0.coords t) = false)
/-- and elsewhere they are not written back. -/
theorem noFlush0_4 (t : Fin cfg0.N) (h : ¬t.val % 32 = 31) : (cfg0.win 4).flush t = false := by
  cases hf : (cfg0.win 4).flush t with
  | false => rfl
  | true => exact absurd ((flush0_4 t).mp hf) h
theorem noFlush0_5 (t : Fin cfg0.N) (h : ¬t.val % 32 = 31) : (cfg0.win 5).flush t = false := by
  cases hf : (cfg0.win 5).flush t with
  | false => rfl
  | true => exact absurd ((flush0_5 t).mp hf) h

/-! ## The staging memrefs as the pipeline passes them -/

abbrev ms0_0 (t : Fin cfg0.N) : Memref sig .tc .vmem S1024x128 .f32 := win0_0.stage (cfg0.slots t 0)
abbrev ms0_1 (t : Fin cfg0.N) : Memref sig .tc .vmem S256x128 .f32 := win0_1.stage (cfg0.slots t 1)
abbrev ms0_2 (t : Fin cfg0.N) : Memref sig .tc .vmem S1024x1 .i32 := win0_2.stage (cfg0.slots t 2)
abbrev ms0_3 (t : Fin cfg0.N) : Memref sig .tc .vmem S1x256 .i32 := win0_3.stage (cfg0.slots t 3)
abbrev ms0_4 (t : Fin cfg0.N) : Memref sig .tc .vmem S1024x1 .f32 := win0_4.stage (cfg0.slots t 4)
abbrev ms0_5 (t : Fin cfg0.N) : Memref sig .tc .vmem S1024x1 .f32 := win0_5.stage (cfg0.slots t 5)

/-! ## The inputs' buffers hold their blocks at every point -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The invariant at a point's start and end -/

theorem PhiS_zero (c : Dev nD) (n : ℕ) (h : n ≤ cfg0.N) (hz : n = 0) :
    PhiS m c n h = iprop((∃ d, owns (c : Thread nD τ) scZ fullShare d) ∗ (∃ d, owns (c : Thread nD τ) scS fullShare d)
      ∗ (∃ d, owns (c : Thread nD τ) scP fullShare d)) := by
  subst hz; rfl

theorem PhiS_castSucc (c : Dev nD) (t : Fin cfg0.N) :
    (dats m 0 c).Φ t.castSucc = PhiS m c t.val (Nat.le_of_lt t.isLt) := by
  dsimp only [dats]; simp only [Fin.coe_castSucc]

theorem PhiS_succ (c : Dev nD) (t : Fin cfg0.N) :
    (dats m 0 c).Φ t.succ = iprop(owns (c : Thread nD τ) scZ fullShare (tot m c t.val t.isLt).z
      ∗ owns (c : Thread nD τ) scS fullShare (tot m c t.val t.isLt).s
      ∗ owns (c : Thread nD τ) scP fullShare (tot m c t.val t.isLt).p) := rfl

/-- The totals after a point that starts a row tile: one step from zero over the point's blocks. -/
theorem tot_first (c : Dev nD) (t : Fin cfg0.N) (h : t.val % 32 = 0) :
    tot m c t.val t.isLt
      = Acc.step (grid0.coords t) (iblk m c 0 t) (iblk m c 1 t) (iblk m c 2 t) (iblk m c 3 t) Acc.init :=
  Acc.run_first _ _ _ _ _ t h

/-- The totals after any other point: one step from the totals after the point before. -/
theorem tot_next (c : Dev nD) (t : Fin cfg0.N) (h : ¬t.val % 32 = 0) :
    tot m c t.val t.isLt
      = Acc.step (grid0.coords t) (iblk m c 0 t) (iblk m c 1 t) (iblk m c 2 t) (iblk m c 3 t)
          (tot m c (t.val - 1) (Nat.lt_of_le_of_lt (Nat.sub_le _ _) t.isLt)) :=
  Acc.run_next _ _ _ _ _ t h

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input's buffer is taken back at its block. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
/-- At the last column tile an output's buffer is taken back at what the totals give. -/
theorem leaves0_4_last (c : Dev nD) (t : Fin cfg0.N) (h : t.val % 32 = 31) :
    (dats m 0 c).leavesExact 4 t = owns (c : Thread nD τ) (ms0_4 t) fullShare (out4 m c t) := by
  unfold Dat.leavesExact; rw [liveAt0_4 t h, after0_4]
theorem leaves0_5_last (c : Dev nD) (t : Fin cfg0.N) (h : t.val % 32 = 31) :
    (dats m 0 c).leavesExact 5 t = owns (c : Thread nD τ) (ms0_5 t) fullShare (out5 m c t) := by
  unfold Dat.leavesExact; rw [liveAt0_5 t h, after0_5]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [PhiS_succ, leaves0_0, leaves0_1, leaves0_2, leaves0_3]
  by_cases h0 : t.val % 32 = 0
  · by_cases h1 : t.val % 32 = 31
    · exfalso; omega
    · rw [Dat.leavesExact_idle (dats m 0 c) 4 t (idleAt0_4 t h1) (noFlush0_4 t h1),
        Dat.leavesExact_idle (dats m 0 c) 5 t (idleAt0_5 t h1) (noFlush0_5 t h1), tot_first m c t h0]
      by_cases hz : t.val = 0
      · rw [PhiS_castSucc m c t, PhiS_zero m c _ _ hz]
        iintro ⟨⟨⟨%z, HZ⟩, ⟨%s, HS⟩, ⟨%p, HP⟩⟩, Ho, ⟨%d0, H0⟩, ⟨%d1, H1⟩, ⟨%d2, H2⟩, ⟨%d3, H3⟩, ⟨%d4, H4⟩, ⟨%d5, H5⟩⟩
        iapply (kernelRun_A c (grid0.coords t) _ _ _ _ _ _ _ _ _ _ _ _ _ _ _ _ _ _ ((hcond0 t).mpr h0) (fun h => h1 ((hcond1 t).mp h))
          (iblk m c 0 t) (iblk m c 1 t) (iblk m c 2 t) (iblk m c 3 t) _ _ z s p Set.univ _)
        isplitl [H0]; · iexact H0
        isplitl [H1]; · iexact H1
        isplitl [H2]; · iexact H2
        isplitl [H3]; · iexact H3
        isplitl [H4]; · iexact H4
        isplitl [H5]; · iexact H5
        isplitl [HZ]; · iexact HZ
        isplitl [HS]; · iexact HS
        isplitl [HP]; · iexact HP
        iintro ⟨H0, H1, H2, H3, H4, H5, HZ, HS, HP⟩
        isplitl [HZ HS HP]
        · isplitl [HZ]; · iexact HZ
          isplitl [HS]; · iexact HS
          iexact HP
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨HZ, HS, HP⟩, Ho, ⟨%d0, H0⟩, ⟨%d1, H1⟩, ⟨%d2, H2⟩, ⟨%d3, H3⟩, ⟨%d4, H4⟩, ⟨%d5, H5⟩⟩
        iapply (kernelRun_A c (grid0.coords t) _ _ _ _ _ _ _ _ _ _ _ _ _ _ _ _ _ _ ((hcond0 t).mpr h0) (fun h => h1 ((hcond1 t).mp h))
          (iblk m c 0 t) (iblk m c 1 t) (iblk m c 2 t) (iblk m c 3 t) _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HZ]; · iexact HZ
        isplitl [HS]; · iexact HS
        isplitl [HP]; · iexact HP
        iintro ⟨H0, H1, H2, H3, H4, H5, HZ, HS, HP⟩
        isplitl [HZ HS HP]
        · isplitl [HZ]; · iexact HZ
          isplitl [HS]; · iexact HS
          iexact HP
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun e => h0 (by rw [e])
    by_cases h1 : t.val % 32 = 31
    · rw [leaves0_4_last m c t h1, leaves0_5_last m c t h1]
      unfold out4 out5
      rw [tot_next m c t h0, PhiS_castSucc m c t, PhiS_pos m c _ _ hz]
      iintro ⟨⟨HZ, HS, HP⟩, Ho, ⟨%d0, H0⟩, ⟨%d1, H1⟩, ⟨%d2, H2⟩, ⟨%d3, H3⟩, ⟨%d4, H4⟩, ⟨%d5, H5⟩⟩
      iapply (kernelRun_C c (grid0.coords t) _ _ _ _ _ _ _ _ _ _ _ _ _ _ _ _ _ _ (fun h => h0 ((hcond0 t).mp h)) ((hcond1 t).mpr h1)
        (iblk m c 0 t) (iblk m c 1 t) (iblk m c 2 t) (iblk m c 3 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HZ]; · iexact HZ
      isplitl [HS]; · iexact HS
      isplitl [HP]; · iexact HP
      iintro ⟨H0, H1, H2, H3, H4, H5, HZ, HS, HP⟩
      isplitl [HZ HS HP]
      · isplitl [HZ]; · iexact HZ
        isplitl [HS]; · iexact HS
        iexact HP
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 4 t (idleAt0_4 t h1) (noFlush0_4 t h1),
        Dat.leavesExact_idle (dats m 0 c) 5 t (idleAt0_5 t h1) (noFlush0_5 t h1), tot_next m c t h0,
        PhiS_castSucc m c t, PhiS_pos m c _ _ hz]
      iintro ⟨⟨HZ, HS, HP⟩, Ho, ⟨%d0, H0⟩, ⟨%d1, H1⟩, ⟨%d2, H2⟩, ⟨%d3, H3⟩, ⟨%d4, H4⟩, ⟨%d5, H5⟩⟩
      iapply (kernelRun_B c (grid0.coords t) _ _ _ _ _ _ _ _ _ _ _ _ _ _ _ _ _ _ (fun h => h0 ((hcond0 t).mp h)) (fun h => h1 ((hcond1 t).mp h))
        (iblk m c 0 t) (iblk m c 1 t) (iblk m c 2 t) (iblk m c 3 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HZ]; · iexact HZ
      isplitl [HS]; · iexact HS
      isplitl [HP]; · iexact HP
      iintro ⟨H0, H1, H2, H3, H4, H5, HZ, HS, HP⟩
      isplitl [HZ HS HP]
      · isplitl [HZ]; · iexact HZ
        isplitl [HS]; · iexact HS
        iexact HP
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- THE BODY OBLIGATION of the pipeline library, at every point. -/
theorem body_obligation (c : Dev nD) :
    BodyObligation (dats (F := F) m 0 c) (defs₀ (F := F)) Variants.none () Set.univ := fun t => by
  rw [bigSep_W0, bigSep_W0]
  exact sound_body m c t

end Cert.KernelIdeal.Body

end
-- ==== Proof.KTail.lean ====
/-
  The end of the kernel's program: from the per-row terms and the per-row validity bits to the loss.

  After the rows' terms P (an 8192 x 1 array) and the validity bits Q (another) are computed, the program sums each over
  both axes starting from 0, negates the first total and divides it by the second. A sum over both axes of an 8192 x 1 array
  from 0 is the sum over the 8192 rows of the row's one entry. So when P holds the rows' terms and Q the validity bits, the
  result is minus the sum of the terms divided by the number of valid rows: the loss.
-/
import proofs.«114130_j9689446219883_1_alg».proof.KernelIdeal
import proofs.«114130_j9689446219883_1_alg».proof.Proof.Spec
import Idealize.ShloMosaic.Lib.IdealHost
import Idealize.ShloMosaic.Lib.ValueIdx
import Idealize.ShloMosaic.PureOps.Ideal.Laws

noncomputable section

open scoped BigOperators

namespace Cert.KTail

open Idealize.ShloMosaic Idealize.ShloMosaic.ValueIdx Cert.KernelIdeal

variable [Cert.KernelIdeal.Facts]
open Cert.KernelIdeal.Facts₀ Cert.KernelIdeal.Facts

/-- The sum over both axes of an 8192 x 1 array, from 0, is the sum over the rows of the row's one entry. -/
theorem total_sum (P : FVec Ideal S8192x1 .f32) (j : S_.Idx) :
    Host.reduceAdd P (constant (F := Ideal) S_ .f32 0x00000000#32) reducesTo_S8192x1_S_d0_1 h_S_ j
      = ∑ a : Fin 8192, P (ix2 a (0 : Fin 1)) := by
  rw [hostReduceAdd_apply, Ideal.hostReduceAdd_total reducesTo_S8192x1_S_d0_1 (fun b => b.elim0), constant_apply,
    Ideal.ofBits_zero_f32, zero_add, sum_idx2]
  exact Finset.sum_congr rfl fun a _ => Fin.sum_univ_one _

/-- The program's last operations turn the rows' terms and validity bits into the loss. -/
theorem tail_value (x : Cert.Spec.XArr) (lab : Cert.Spec.LArr) (P Q : FVec Ideal S8192x1 .f32)
    (hP : ∀ a : Fin 8192, P (ix2 a (0 : Fin 1)) = Cert.Spec.perRow x lab a)
    (hQ : ∀ a : Fin 8192, Q (ix2 a (0 : Fin 1)) = Cert.Spec.valid lab a) :
    Host.divf (Host.negf (Host.reduceAdd P (constant (F := Ideal) S_ .f32 0x00000000#32) reducesTo_S8192x1_S_d0_1 h_S_))
        (Host.reduceAdd Q (constant (F := Ideal) S_ .f32 0x00000000#32) reducesTo_S8192x1_S_d0_1 h_S_)
      = fun _ => Cert.Spec.loss x lab := by
  funext j
  show Ideal.div (-(Host.reduceAdd P (constant (F := Ideal) S_ .f32 0x00000000#32) reducesTo_S8192x1_S_d0_1 h_S_ j))
      (Host.reduceAdd Q (constant (F := Ideal) S_ .f32 0x00000000#32) reducesTo_S8192x1_S_d0_1 h_S_ j)
    = Cert.Spec.loss x lab
  rw [total_sum, total_sum]
  unfold Cert.Spec.loss
  simp only [hP, hQ]

end Cert.KTail

end
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.KAccum.lean ====
/-
  The kernel's three running totals at the last column tile of a row tile are the whole-row sums of the specification.

  The 256 grid points are walked row tile by row tile (8 of them), each through its 32 column tiles. At point n the
  row tile is n / 32 and the column tile n % 32; row r of the row tile is row rowAt n r = (n / 32)·1024 + r of the
  whole array, entry q of the column tile is row colAt n q = (n % 32)·256 + q. A total starts from zero at a row tile's
  first point and takes at every point the 256 terms of that point's column tile; so after the point with column tile j
  it is the sum over the column tiles 0 … j of their 256 terms, and after the last (j = 31) the 32 · 256 terms are the
  sum over all 8192 rows. Sums of extended reals form a commutative monoid, so nothing need be finite.
-/
import proofs.«114130_j9689446219883_1_alg».proof.Proof.KAccDef
import proofs.«114130_j9689446219883_1_alg».proof.Proof.PointLaws
import proofs.«114130_j9689446219883_1_alg».proof.Proof.LibTiles

noncomputable section

open scoped BigOperators

namespace Cert.KAccum

open Idealize.ShloMosaic Idealize.ShloMosaic.ValueIdx Cert.KernelIdeal Cert.KernelIdeal.Gen Cert.KernelIdeal.Acc
  Cert.PointLaws Cert.Spec

/-! ## Rows and columns of the whole array by the point's number -/

/-- The row of the whole array that row r of point n's row tile is. -/
def rowAt (n : ℕ) (r : Fin 1024) : Fin 8192 :=
  ⟨(n / 32 % 8) * 1024 + r.val, by
    have h := Nat.mod_lt (n / 32) (by norm_num : 0 < 8)
    have := r.isLt
    omega⟩

/-- The row of the whole array that entry q of column tile k (taken modulo 32) is. -/
def colAt (k : ℕ) (q : Fin 256) : Fin 8192 :=
  ⟨(k % 32) * 256 + q.val, by
    have h := Nat.mod_lt k (by norm_num : 0 < 32)
    have := q.isLt
    omega⟩

/-- Inside a row tile the next point has the same rows. -/
theorem rowAt_succ (n : ℕ) (r : Fin 1024) (h : ¬(n + 1) % 32 = 0) : rowAt (n + 1) r = rowAt n r := by
  have e : (n + 1) / 32 = n / 32 := by omega
  unfold rowAt
  exact Fin.ext (by show ((n + 1) / 32 % 8) * 1024 + r.val = (n / 32 % 8) * 1024 + r.val; rw [e])

/-- The column tile only matters modulo 32. -/
theorem colAt_mod (n : ℕ) (q : Fin 256) : colAt (n % 32) q = colAt n q :=
  Fin.ext (by show (n % 32 % 32) * 256 + q.val = (n % 32) * 256 + q.val; rw [Nat.mod_mod])

/-- The 32 column tiles' sums are the sum over all 8192 rows. -/
theorem sum_tiles32 (f : Fin 8192 → EReal) :
    ∑ k ∈ Finset.range 32, ∑ q : Fin 256, f (colAt k q) = ∑ B : Fin 8192, f B := by
  rw [← Fin.sum_univ_eq_sum_range (fun k => ∑ q : Fin 256, f (colAt k q)) 32]
  refine ((Cert.Lib.Tiles.sum_tiles 32 256 f).trans ?_).symm
  refine Finset.sum_congr rfl fun k _ => Finset.sum_congr rfl fun q _ => congrArg f (Fin.ext ?_)
  show k.val * 256 + q.val = (k.val % 32) * 256 + q.val
  rw [Nat.mod_eq_of_lt k.isLt]

/-! ## A running total along the points -/

/-- A total that is a column tile's 256 terms at a row tile's first point, and the previous total plus the point's 256
    terms at every other point, is after point n the sum over the column tiles 0 … n % 32 of their terms. -/
theorem partial_sum (N : ℕ) (T : Fin 8192 → Fin 8192 → EReal) (a : (n : ℕ) → n < N → Fin 1024 → EReal)
    (hfirst : ∀ n (hn : n < N) r, n % 32 = 0 → a n hn r = ∑ q : Fin 256, T (rowAt n r) (colAt n q))
    (hnext : ∀ n (hn : n + 1 < N) r, ¬(n + 1) % 32 = 0 →
      a (n + 1) hn r = a n (Nat.lt_of_succ_lt hn) r + ∑ q : Fin 256, T (rowAt (n + 1) r) (colAt (n + 1) q)) :
    ∀ n (hn : n < N) r, a n hn r = ∑ k ∈ Finset.range (n % 32 + 1), ∑ q : Fin 256, T (rowAt n r) (colAt k q) := by
  intro n
  induction n with
  | zero =>
    intro hn r
    rw [hfirst 0 hn r (Nat.zero_mod 32), Nat.zero_mod, zero_add, Finset.sum_range_one]
  | succ n ih =>
    intro hn r
    by_cases h : (n + 1) % 32 = 0
    · have hc : ∀ q, colAt (n + 1) q = colAt 0 q := fun q => by rw [← colAt_mod (n + 1) q, h]
      rw [hfirst (n + 1) hn r h, h, zero_add, Finset.sum_range_one]
      simp only [hc]
    · have hs : (n + 1) % 32 = n % 32 + 1 := by omega
      have hc : ∀ q, colAt (n + 1) q = colAt (n % 32 + 1) q := fun q => by rw [← colAt_mod (n + 1) q, hs]
      rw [hnext n hn r h, ih (Nat.lt_of_succ_lt hn) r, rowAt_succ n r h, hs, Finset.sum_range_succ _ (n % 32 + 1)]
      simp only [hc]

/-- At the last column tile of a row tile the total is the sum over all 8192 rows. -/
theorem total_sum (N : ℕ) (T : Fin 8192 → Fin 8192 → EReal) (a : (n : ℕ) → n < N → Fin 1024 → EReal)
    (hfirst : ∀ n (hn : n < N) r, n % 32 = 0 → a n hn r = ∑ q : Fin 256, T (rowAt n r) (colAt n q))
    (hnext : ∀ n (hn : n + 1 < N) r, ¬(n + 1) % 32 = 0 →
      a (n + 1) hn r = a n (Nat.lt_of_succ_lt hn) r + ∑ q : Fin 256, T (rowAt (n + 1) r) (colAt (n + 1) q))
    (n : ℕ) (hn : n < N) (r : Fin 1024) (h31 : n % 32 = 31) :
    a n hn r = ∑ B : Fin 8192, T (rowAt n r) B := by
  rw [partial_sum N T a hfirst hnext n hn r, h31]
  exact sum_tiles32 (T (rowAt n r))

/-! ## The kernel's totals -/

section
variable (G : Fin cfg0.N → grid0.Coords) (B0 : Fin cfg0.N → Vec Ideal S1024x128 .f32)
  (B1 : Fin cfg0.N → Vec Ideal S256x128 .f32) (B2 : Fin cfg0.N → Vec Ideal S1024x1 .i32)
  (B3 : Fin cfg0.N → Vec Ideal S1x256 .i32) (x : XArr) (lab : LArr)
  (hG0 : ∀ t, (G t 0).val = t.val / 32) (hG1 : ∀ t, (G t 1).val = t.val % 32)
  (H3 : ∀ t r d, B0 t (ix2 r d) = x (ix2 (row (G t) r) d))
  (H4 : ∀ t q d, B1 t (ix2 q d) = x (ix2 (col (G t) q) d))
  (H23 : ∀ t r, B2 t (ix2 r (0 : Fin 1)) = lab (ix1 (row (G t) r)))
  (H25 : ∀ t q, B3 t (ix2 (0 : Fin 1) q) = lab (ix1 (col (G t) q)))

include hG0 in
/-- The grid's row coordinate is the point's number over 32. -/
theorem row_eq (t : Fin cfg0.N) (r : Fin 1024) : row (G t) r = rowAt t.val r := by
  have h8 : (G t 0).val < 8 := (G t 0).isLt
  rw [hG0 t] at h8
  refine Fin.ext ?_
  show (G t 0).val * 1024 + r.val = (t.val / 32 % 8) * 1024 + r.val
  rw [hG0 t, Nat.mod_eq_of_lt h8]

include hG1 in
/-- The grid's column coordinate is the point's number modulo 32. -/
theorem col_eq (t : Fin cfg0.N) (q : Fin 256) : col (G t) q = colAt t.val q := by
  refine Fin.ext ?_
  show (G t 1).val * 256 + q.val = (t.val % 32) * 256 + q.val
  rw [hG1 t]

include hG0 hG1 H3 H4 in
/-- The normaliser's total at a row tile's last point. -/
theorem z_last (t : Fin cfg0.N) (h31 : t.val % 32 = 31) (r : Fin 1024) :
    (run G B0 B1 B2 B3 t.val t.isLt).z (ix2 r (0 : Fin 1)) = Z x (row (G t) r) := by
  rw [row_eq G hG0 t r]
  refine total_sum cfg0.N (fun A B => Ideal.exp (logit x A B) * offd A B)
    (fun n hn r => (run G B0 B1 B2 B3 n hn).z (ix2 r (0 : Fin 1))) ?_ ?_ t.val t.isLt r h31
  · intro n hn r h
    show (run G B0 B1 B2 B3 (⟨n, hn⟩ : Fin cfg0.N).val (⟨n, hn⟩ : Fin cfg0.N).isLt).z (ix2 r (0 : Fin 1)) = _
    rw [run_first G B0 B1 B2 B3 ⟨n, hn⟩ h]
    show k0_pay3 (F := Ideal) (k0_pay12 (F := Ideal) (B0 ⟨n, hn⟩) (B1 ⟨n, hn⟩)) (k0_pay14 (G ⟨n, hn⟩))
      (k0_pay9 (F := Ideal)) (ix2 r (0 : Fin 1)) = _
    rw [zstep x (G ⟨n, hn⟩) (B0 ⟨n, hn⟩) (B1 ⟨n, hn⟩) (H3 ⟨n, hn⟩) (H4 ⟨n, hn⟩), zero9, zero_add]
    simp only [row_eq G hG0, col_eq G hG1]
  · intro n hn r h
    show (run G B0 B1 B2 B3 (⟨n + 1, hn⟩ : Fin cfg0.N).val (⟨n + 1, hn⟩ : Fin cfg0.N).isLt).z (ix2 r (0 : Fin 1)) = _
    rw [run_next G B0 B1 B2 B3 ⟨n + 1, hn⟩ h]
    show k0_pay3 (F := Ideal) (k0_pay12 (F := Ideal) (B0 ⟨n + 1, hn⟩) (B1 ⟨n + 1, hn⟩)) (k0_pay14 (G ⟨n + 1, hn⟩))
      (run G B0 B1 B2 B3 n (Nat.lt_of_succ_lt hn)).z (ix2 r (0 : Fin 1)) = _
    rw [zstep x (G ⟨n + 1, hn⟩) (B0 ⟨n + 1, hn⟩) (B1 ⟨n + 1, hn⟩) (H3 ⟨n + 1, hn⟩) (H4 ⟨n + 1, hn⟩)]
    simp only [row_eq G hG0, col_eq G hG1]

include hG0 hG1 H3 H4 H23 H25 in
/-- The logit sum's total at a row tile's last point. -/
theorem s_last (t : Fin cfg0.N) (h31 : t.val % 32 = 31) (r : Fin 1024) :
    (run G B0 B1 B2 B3 t.val t.isLt).s (ix2 r (0 : Fin 1)) = S x lab (row (G t) r) := by
  rw [row_eq G hG0 t r]
  refine total_sum cfg0.N (fun A B => logit x A B * nm lab A B)
    (fun n hn r => (run G B0 B1 B2 B3 n hn).s (ix2 r (0 : Fin 1))) ?_ ?_ t.val t.isLt r h31
  · intro n hn r h
    show (run G B0 B1 B2 B3 (⟨n, hn⟩ : Fin cfg0.N).val (⟨n, hn⟩ : Fin cfg0.N).isLt).s (ix2 r (0 : Fin 1)) = _
    rw [run_first G B0 B1 B2 B3 ⟨n, hn⟩ h]
    show k0_pay4 (F := Ideal) (k0_pay12 (F := Ideal) (B0 ⟨n, hn⟩) (B1 ⟨n, hn⟩))
      (k0_pay13 (F := Ideal) (B2 ⟨n, hn⟩) (B3 ⟨n, hn⟩)) (k0_pay14 (G ⟨n, hn⟩))
      (k0_pay10 (F := Ideal)) (ix2 r (0 : Fin 1)) = _
    rw [sstep x lab (G ⟨n, hn⟩) (B0 ⟨n, hn⟩) (B1 ⟨n, hn⟩) (B2 ⟨n, hn⟩) (B3 ⟨n, hn⟩) (H3 ⟨n, hn⟩) (H4 ⟨n, hn⟩)
      (H23 ⟨n, hn⟩) (H25 ⟨n, hn⟩), zero10, zero_add]
    simp only [row_eq G hG0, col_eq G hG1]
  · intro n hn r h
    show (run G B0 B1 B2 B3 (⟨n + 1, hn⟩ : Fin cfg0.N).val (⟨n + 1, hn⟩ : Fin cfg0.N).isLt).s (ix2 r (0 : Fin 1)) = _
    rw [run_next G B0 B1 B2 B3 ⟨n + 1, hn⟩ h]
    show k0_pay4 (F := Ideal) (k0_pay12 (F := Ideal) (B0 ⟨n + 1, hn⟩) (B1 ⟨n + 1, hn⟩))
      (k0_pay13 (F := Ideal) (B2 ⟨n + 1, hn⟩) (B3 ⟨n + 1, hn⟩)) (k0_pay14 (G ⟨n + 1, hn⟩))
      (run G B0 B1 B2 B3 n (Nat.lt_of_succ_lt hn)).s (ix2 r (0 : Fin 1)) = _
    rw [sstep x lab (G ⟨n + 1, hn⟩) (B0 ⟨n + 1, hn⟩) (B1 ⟨n + 1, hn⟩) (B2 ⟨n + 1, hn⟩) (B3 ⟨n + 1, hn⟩)
      (H3 ⟨n + 1, hn⟩) (H4 ⟨n + 1, hn⟩) (H23 ⟨n + 1, hn⟩) (H25 ⟨n + 1, hn⟩)]
    simp only [row_eq G hG0, col_eq G hG1]

include hG0 hG1 H23 H25 in
/-- The count's total at a row tile's last point. -/
theorem p_last (t : Fin cfg0.N) (h31 : t.val % 32 = 31) (r : Fin 1024) :
    (run G B0 B1 B2 B3 t.val t.isLt).p (ix2 r (0 : Fin 1)) = cnt lab (row (G t) r) := by
  rw [row_eq G hG0 t r]
  refine total_sum cfg0.N (fun A B => nm lab A B)
    (fun n hn r => (run G B0 B1 B2 B3 n hn).p (ix2 r (0 : Fin 1))) ?_ ?_ t.val t.isLt r h31
  · intro n hn r h
    show (run G B0 B1 B2 B3 (⟨n, hn⟩ : Fin cfg0.N).val (⟨n, hn⟩ : Fin cfg0.N).isLt).p (ix2 r (0 : Fin 1)) = _
    rw [run_first G B0 B1 B2 B3 ⟨n, hn⟩ h]
    show k0_pay5 (F := Ideal) (k0_pay13 (F := Ideal) (B2 ⟨n, hn⟩) (B3 ⟨n, hn⟩)) (k0_pay14 (G ⟨n, hn⟩))
      (k0_pay11 (F := Ideal)) (ix2 r (0 : Fin 1)) = _
    rw [pstep lab (G ⟨n, hn⟩) (B2 ⟨n, hn⟩) (B3 ⟨n, hn⟩) (H23 ⟨n, hn⟩) (H25 ⟨n, hn⟩), zero11, zero_add]
    simp only [row_eq G hG0, col_eq G hG1]
  · intro n hn r h
    show (run G B0 B1 B2 B3 (⟨n + 1, hn⟩ : Fin cfg0.N).val (⟨n + 1, hn⟩ : Fin cfg0.N).isLt).p (ix2 r (0 : Fin 1)) = _
    rw [run_next G B0 B1 B2 B3 ⟨n + 1, hn⟩ h]
    show k0_pay5 (F := Ideal) (k0_pay13 (F := Ideal) (B2 ⟨n + 1, hn⟩) (B3 ⟨n + 1, hn⟩)) (k0_pay14 (G ⟨n + 1, hn⟩))
      (run G B0 B1 B2 B3 n (Nat.lt_of_succ_lt hn)).p (ix2 r (0 : Fin 1)) = _
    rw [pstep lab (G ⟨n + 1, hn⟩) (B2 ⟨n + 1, hn⟩) (B3 ⟨n + 1, hn⟩) (H23 ⟨n + 1, hn⟩) (H25 ⟨n + 1, hn⟩)]
    simp only [row_eq G hG0, col_eq G hG1]

include hG0 hG1 H3 H4 H23 H25 in
/-- THE TOTALS at the last column tile of a row tile: the specification's normaliser, logit sum and count of the row. -/
theorem totals_last (t : Fin cfg0.N) (h31 : t.val % 32 = 31) (r : Fin 1024) :
    (run G B0 B1 B2 B3 t.val t.isLt).z (ix2 r (0 : Fin 1)) = Z x (row (G t) r)
      ∧ (run G B0 B1 B2 B3 t.val t.isLt).s (ix2 r (0 : Fin 1)) = S x lab (row (G t) r)
      ∧ (run G B0 B1 B2 B3 t.val t.isLt).p (ix2 r (0 : Fin 1)) = cnt lab (row (G t) r) :=
  ⟨z_last G B0 B1 B2 B3 x hG0 hG1 H3 H4 t h31 r, s_last G B0 B1 B2 B3 x lab hG0 hG1 H3 H4 H23 H25 t h31 r,
    p_last G B0 B1 B2 B3 lab hG0 hG1 H23 H25 t h31 r⟩

include hG0 hG1 H3 H4 H23 H25 in
/-- The row's term written at the last column tile is the specification's. -/
theorem perRow_last (t : Fin cfg0.N) (h31 : t.val % 32 = 31) (r : Fin 1024) :
    k0_pay7 (F := Ideal) (run G B0 B1 B2 B3 t.val t.isLt).p (run G B0 B1 B2 B3 t.val t.isLt).z
        (run G B0 B1 B2 B3 t.val t.isLt).s (ix2 r (0 : Fin 1))
      = perRow x lab (row (G t) r) := by
  obtain ⟨hz, hs, hp⟩ := totals_last G B0 B1 B2 B3 x lab hG0 hG1 H3 H4 H23 H25 t h31 r
  rw [row_out, hz, hs, hp]
  rfl

include hG0 hG1 H23 H25 in
/-- The validity bit written at the last column tile is the specification's. -/
theorem valid_last (t : Fin cfg0.N) (h31 : t.val % 32 = 31) (r : Fin 1024) :
    k0_pay8 (F := Ideal) (run G B0 B1 B2 B3 t.val t.isLt).p (ix2 r (0 : Fin 1)) = valid lab (row (G t) r) := by
  rw [valid_out, p_last G B0 B1 B2 B3 lab hG0 hG1 H23 H25 t h31 r]
  rfl

end

end Cert.KAccum

end
-- ==== Proof.KValueB.lean ====
/-
  What the grid leaves in the two output arrays.

  At the last column tile of row tile i (point i·32 + 31) the three running totals of the tile's 1024 rows are the rows'
  normalisers, logit sums and counts, so the first output's staging buffer holds the rows' terms of the loss and the second's
  the rows' validity bits; exactly these points write back, each into rows i·1024 … i·1024 + 1023 of its 8192 x 1 array, and
  the eight row tiles cover every row: row a is written at point (a / 1024)·32 + 31. So after the grid the first array holds
  every row's term and the second every row's validity bit. The four input arrays are never written.
-/
import proofs.«114130_j9689446219883_1_alg».proof.Proof.KValueA
import proofs.«114130_j9689446219883_1_alg».proof.Proof.KAccum

set_option maxRecDepth 16384

noncomputable section

namespace Cert.KValue

open Cert.KernelIdeal Cert.KernelIdeal.Gen Cert.KernelIdeal.Data Cert.PointLaws
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The embeddings the program was launched with, on core c. -/
abbrev xOf (c : Dev nD) : Cert.Spec.XArr := m ((c : Thread nD τ).loc main_arg0)
/-- The labels the program was launched with, on core c. -/
abbrev labOf (c : Dev nD) : Cert.Spec.LArr := m ((c : Thread nD τ).loc main_arg1)

/-- At the last column tile of a row tile the first output's staging buffer holds the rows' terms. -/
theorem out4_last (c : Dev nD) (t : Fin cfg0.N) (h31 : t.val % 32 = 31) (r : Fin 1024) :
    out4 (F := Ideal) m c t (ix2 r (0 : Fin 1)) = Cert.Spec.perRow (xOf m c) (labOf m c) (row (grid0.coords t) r) := by
  unfold out4 tot
  exact Cert.KAccum.perRow_last (fun t => grid0.coords t) (fun t => iblk m c 0 t) (fun t => iblk m c 1 t)
    (fun t => iblk m c 2 t) (fun t => iblk m c 3 t) (xOf m c) (labOf m c) coords0 coords1
    (iblk0_apply m c) (iblk1_apply m c) (iblk2_apply m c) (iblk3_apply m c) t h31 r

/-- … and the second's the rows' validity bits. -/
theorem out5_last (c : Dev nD) (t : Fin cfg0.N) (h31 : t.val % 32 = 31) (r : Fin 1024) :
    out5 (F := Ideal) m c t (ix2 r (0 : Fin 1)) = Cert.Spec.valid (labOf m c) (row (grid0.coords t) r) := by
  unfold out5 tot
  exact Cert.KAccum.valid_last (fun t => grid0.coords t) (fun t => iblk m c 0 t) (fun t => iblk m c 1 t)
    (fun t => iblk m c 2 t) (fun t => iblk m c 3 t) (labOf m c) coords0 coords1
    (iblk2_apply m c) (iblk3_apply m c) t h31 r

/-- The rows' terms as an 8192 x 1 array. -/
abbrev perRowArr (c : Dev nD) : S8192x1.Idx → EReal := fun j => Cert.Spec.perRow (xOf m c) (labOf m c) (j 0)
/-- The rows' validity bits as an 8192 x 1 array. -/
abbrev validArr (c : Dev nD) : S8192x1.Idx → EReal := fun j => Cert.Spec.valid (labOf m c) (j 0)

/-- Point t's block of an 8192 x 1 array, at an entry: row r of the block is row (t/32)·1024 + r of the array. -/
theorem read_blk4 (G : S8192x1.Idx → EReal) (t : Fin cfg0.N) (r : Fin 1024) :
    (((cfg0.win 4).blk t).view.read (Elt Ideal) G : S1024x1.Idx → EReal) (ix2 r (0 : Fin 1))
      = G (ix2 (row (grid0.coords t) r) (0 : Fin 1)) := by
  have hi := idx4 t
  rw [View.read_apply]
  show G _ = G _
  congr 1
  funext a
  apply Fin.ext
  match a with
  | ⟨0, _⟩ =>
    show win0_4.index t 0 * 1024 + 1 * r.val = (grid0.coords t 0).val * 1024 + r.val
    rw [hi.1, coords0]; omega
  | ⟨1, _⟩ =>
    show win0_4.index t 1 * 1 + 1 * 0 = 0
    rw [hi.2]

theorem read_blk5 (G : S8192x1.Idx → EReal) (t : Fin cfg0.N) (r : Fin 1024) :
    (((cfg0.win 5).blk t).view.read (Elt Ideal) G : S1024x1.Idx → EReal) (ix2 r (0 : Fin 1))
      = G (ix2 (row (grid0.coords t) r) (0 : Fin 1)) := by
  have hi := idx5 t
  rw [View.read_apply]
  show G _ = G _
  congr 1
  funext a
  apply Fin.ext
  match a with
  | ⟨0, _⟩ =>
    show win0_5.index t 0 * 1024 + 1 * r.val = (grid0.coords t 0).val * 1024 + r.val
    rw [hi.1, coords0]; omega
  | ⟨1, _⟩ =>
    show win0_5.index t 1 * 1 + 1 * 0 = 0
    rw [hi.2]

/-- What the first output writes back at a row tile's last point is that tile's block of the rows' terms. -/
theorem flushed4_eq (c : Dev nD) (t : Fin cfg0.N) (hf : (cfg0.win 4).flush t = true) :
    (dats (F := Ideal) m 0 c).flushed 4 t = ((cfg0.win 4).blk t).view.read (Elt Ideal) (perRowArr m c) := by
  have h31 := (flush0_4 t).mp hf
  show (cfg0.win 4).cut (grid0.coords t) ((dats m 0 c).after 4 t) = _
  rw [after0_4]
  show (out4 m c t : S1024x1.Idx → EReal) = (((cfg0.win 4).blk t).view.read (Elt Ideal) (perRowArr m c) : S1024x1.Idx → EReal)
  funext j
  obtain ⟨r, u, rfl⟩ : ∃ (r : Fin 1024) (u : Fin 1), j = ix2 r u := ⟨j 0, j 1, eq_ix2 j⟩
  obtain rfl : u = 0 := Subsingleton.elim _ _
  rw [read_blk4, out4_last m c t h31 r]

/-- … and the second's the block of the validity bits. -/
theorem flushed5_eq (c : Dev nD) (t : Fin cfg0.N) (hf : (cfg0.win 5).flush t = true) :
    (dats (F := Ideal) m 0 c).flushed 5 t = ((cfg0.win 5).blk t).view.read (Elt Ideal) (validArr m c) := by
  have h31 := (flush0_5 t).mp hf
  show (cfg0.win 5).cut (grid0.coords t) ((dats m 0 c).after 5 t) = _
  rw [after0_5]
  show (out5 m c t : S1024x1.Idx → EReal) = (((cfg0.win 5).blk t).view.read (Elt Ideal) (validArr m c) : S1024x1.Idx → EReal)
  funext j
  obtain ⟨r, u, rfl⟩ : ∃ (r : Fin 1024) (u : Fin 1), j = ix2 r u := ⟨j 0, j 1, eq_ix2 j⟩
  obtain rfl : u = 0 := Subsingleton.elim _ _
  rw [read_blk5, out5_last m c t h31 r]

/-- An entry of the first output's array is in point t's block when each coordinate is in the block's range. -/
theorem mem_blk4 (t : Fin cfg0.N) (i : S8192x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v2_0).slice (win0_4.rect t)).set ↔ _
  rw [View.set_slice_whole, Rect.mem_set_unit]
  exact Iff.rfl

theorem mem_blk5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v2_1).slice (win0_5.rect t)).set ↔ _
  rw [View.set_slice_whole, Rect.mem_set_unit]
  exact Iff.rfl

/-- Row a of the output is written back at the last point of its row tile, point (a / 1024)·32 + 31. -/
theorem cover4 (i : S8192x1.Idx) :
    ∃ t : Fin cfg0.N, (cfg0.win 4).flush t = true ∧ i ∈ ((cfg0.win 4).blk t).view.set := by
  have h0 : (i 0).val < 8192 := (i 0).isLt
  have h1 : (i 1).val < 1 := (i 1).isLt
  obtain ⟨t, ht⟩ : ∃ t : Fin cfg0.N, t.val = (i 0).val / 1024 * 32 + 31 :=
    ⟨⟨(i 0).val / 1024 * 32 + 31, by rw [show cfg0.N = 256 from N_0]; omega⟩, rfl⟩
  refine ⟨t, (flush0_4 t).mpr (by omega), ?_⟩
  rw [mem_blk4]
  intro a
  match a with
  | ⟨0, _⟩ =>
    show win0_4.index t 0 * 1024 ≤ (i 0).val ∧ (i 0).val < win0_4.index t 0 * 1024 + 1024
    rw [(idx4 t).1]; omega
  | ⟨1, _⟩ =>
    show win0_4.index t 1 * 1 ≤ (i 1).val ∧ (i 1).val < win0_4.index t 1 * 1 + 1
    rw [(idx4 t).2]; omega

theorem cover5 (i : S8192x1.Idx) :
    ∃ t : Fin cfg0.N, (cfg0.win 5).flush t = true ∧ i ∈ ((cfg0.win 5).blk t).view.set := by
  have h0 : (i 0).val < 8192 := (i 0).isLt
  have h1 : (i 1).val < 1 := (i 1).isLt
  obtain ⟨t, ht⟩ : ∃ t : Fin cfg0.N, t.val = (i 0).val / 1024 * 32 + 31 :=
    ⟨⟨(i 0).val / 1024 * 32 + 31, by rw [show cfg0.N = 256 from N_0]; omega⟩, rfl⟩
  refine ⟨t, (flush0_5 t).mpr (by omega), ?_⟩
  rw [mem_blk5]
  intro a
  match a with
  | ⟨0, _⟩ =>
    show win0_5.index t 0 * 1024 ≤ (i 0).val ∧ (i 0).val < win0_5.index t 0 * 1024 + 1024
    rw [(idx5 t).1]; omega
  | ⟨1, _⟩ =>
    show win0_5.index t 1 * 1 ≤ (i 1).val ∧ (i 1).val < win0_5.index t 1 * 1 + 1
    rw [(idx5 t).2]; omega

/-- After the grid the first output's array holds every row's term. -/
theorem final4 (c : Dev nD) : (dats (F := Ideal) m 0 c).arrAt 4 cfg0.N = perRowArr m c :=
  (dats (F := Ideal) m 0 c).arrAt_eq_of_cover 4 (perRowArr m c) (flushed4_eq m c) cover4

/-- … and the second's every row's validity bit. -/
theorem final5 (c : Dev nD) : (dats (F := Ideal) m 0 c).arrAt 5 cfg0.N = validArr m c :=
  (dats (F := Ideal) m 0 c).arrAt_eq_of_cover 5 (validArr m c) (flushed5_eq m c) cover5

section Inputs

variable {F : FTy → Type} [FloatOps F] [Named F] (mF : (ℓ : Loc nD τ sig) → Buf (Elt F) ℓ)

/-- The input windows' arrays are never written: after the grid each holds what the grid found. -/
theorem final_in0 (c : Dev nD) : (dats (F := F) mF 0 c).arrAt 0 cfg0.N = mF ((c : Thread nD τ).loc main_arg0) :=
  ((dats (F := F) mF 0 c).arrAt_in 0 rfl _).trans ((A_eq mF c 0).trans (V_arg0 mF c))
theorem final_in1 (c : Dev nD) : (dats (F := F) mF 0 c).arrAt 1 cfg0.N = mF ((c : Thread nD τ).loc main_arg0) :=
  ((dats (F := F) mF 0 c).arrAt_in 1 rfl _).trans ((A_eq mF c 1).trans (V_arg0 mF c))
theorem final_in2 (c : Dev nD) : (dats (F := F) mF 0 c).arrAt 2 cfg0.N = V mF c main_v0 :=
  ((dats (F := F) mF 0 c).arrAt_in 2 rfl _).trans (A_eq mF c 2)
theorem final_in3 (c : Dev nD) : (dats (F := F) mF 0 c).arrAt 3 cfg0.N = V mF c main_v1 :=
  ((dats (F := F) mF 0 c).arrAt_in 3 rfl _).trans (A_eq mF c 3)

end Inputs

end Cert.KValue

end
-- ==== Proof.KFinal.lean ====
import proofs.«114130_j9689446219883_1_alg».proof.Proof.Gen.KernelIdeal.Launch
import proofs.«114130_j9689446219883_1_alg».proof.Proof.Gen.KernelIdeal.Skeleton
import proofs.«114130_j9689446219883_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Tactic
import proofs.«114130_j9689446219883_1_alg».proof.Proof.KFrame
import proofs.«114130_j9689446219883_1_alg».proof.Proof.KTail
import proofs.«114130_j9689446219883_1_alg».proof.Proof.KValueB
set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Data Cert.KernelIdeal.LaunchRun Idealize.ShloMosaic.ValueIdx

variable (m : (ℓ : Loc nD τ sig) → Buf (Elt Ideal) ℓ)

/-- The result is the quotient of minus the sum of the first result array by the sum of the second. -/
theorem tail_term (c : Dev nD) :
    W2 (F := Ideal) m c (Proc.devRef .tc main_v6)
      = Host.divf (Host.negf (Host.reduceAdd (W1 (F := Ideal) m c (Proc.devRef .tc main_v2_0) : FVec Ideal S8192x1 .f32) (constant (F := Ideal) S_ .f32 0x00000000#32) reducesTo_S8192x1_S_d0_1 h_S_))
          (Host.reduceAdd (W1 (F := Ideal) m c (Proc.devRef .tc main_v2_1) : FVec Ideal S8192x1 .f32) (constant (F := Ideal) S_ .f32 0x00000000#32) reducesTo_S8192x1_S_d0_1 h_S_) := by
  show StableHlo.after hostOps1 (W1 m c) (Proc.devRef .tc main_v6) = _
  after_results

/-- The kernel's result is the loss of the two argument arrays: the first result array holds the rows' terms, the
    second their validity flags, and the host's tail sums and divides them. -/
theorem result_eq (c : Dev nD) :
    W2 (F := Ideal) m c (Proc.devRef .tc main_v6)
      = fun _ => Cert.Spec.loss (m ((c.tc : Thread nD τ).loc main_arg0)) (m ((c.tc : Thread nD τ).loc main_arg1)) := by
  rw [tail_term]
  refine Cert.KTail.tail_value (m ((c.tc : Thread nD τ).loc main_arg0)) (m ((c.tc : Thread nD τ).loc main_arg1)) _ _ (fun a => ?_) (fun a => ?_)
  · rw [W1_out4, Cert.KValue.final4]
  · rw [W1_out5, Cert.KValue.final5]

end Cert.KernelIdeal.Final

end
-- ==== Proof.BAccDef.lean ====
/-
  The three running totals the kernel keeps for a tile of 1024 rows while it walks the 32 column tiles:
  the normaliser (sum of exp of the logits off the diagonal), the sum of the logits against the rows with
  the same label, and the count of such rows. At the first column tile of a row tile they start from zero;
  at every column tile each takes that tile's 256 terms.
-/
import proofs.«114130_j9689446219883_1_alg».proof.Proof.Gen.Kernel.Skeleton
import proofs.«114130_j9689446219883_1_alg».proof.Proof.Gen.Kernel.Launch

noncomputable section

namespace Cert.Kernel.Acc

open Cert.Kernel Cert.Kernel.Gen Idealize.ShloMosaic

variable {F : FTy → Type} [FloatOps F]

/-- The three totals of one row tile: normaliser, logit sum, count. -/
structure Tot (F : FTy → Type) where
  z : Vec F S1024x1 .f32
  s : Vec F S1024x1 .f32
  p : Vec F S1024x1 .f32

/-- All three at zero. -/
def init : Tot F := ⟨k0_pay9 (F := F), k0_pay10 (F := F), k0_pay11 (F := F)⟩

/-- One column tile's contribution added to each total: at grid point g, from the row tile's embeddings v3, the
    column tile's embeddings v4 and the two label blocks. -/
def step (g : grid0.Coords) (v3 : Vec F S1024x128 .f32) (v4 : Vec F S256x128 .f32) (v23 : Vec F S1024x1 .i32) (v25 : Vec F S1x256 .i32)
    (a : Tot F) : Tot F :=
  ⟨k0_pay3 (k0_pay12 v3 v4) (k0_pay14 g) a.z, k0_pay4 (k0_pay12 v3 v4) (k0_pay13 v23 v25) (k0_pay14 g) a.s,
    k0_pay5 (k0_pay13 v23 v25) (k0_pay14 g) a.p⟩

/-- The totals after grid point n, the points taken in order: a point whose number is a multiple of 32 (the first
    column tile of a row tile) starts from zero, every other from what the point before left. -/
def run (G : Fin cfg0.N → grid0.Coords) (B0 : Fin cfg0.N → Vec F S1024x128 .f32) (B1 : Fin cfg0.N → Vec F S256x128 .f32)
    (B2 : Fin cfg0.N → Vec F S1024x1 .i32) (B3 : Fin cfg0.N → Vec F S1x256 .i32) : (n : ℕ) → n < cfg0.N → Tot F
  | 0, hn => step (G ⟨0, hn⟩) (B0 ⟨0, hn⟩) (B1 ⟨0, hn⟩) (B2 ⟨0, hn⟩) (B3 ⟨0, hn⟩) init
  | n + 1, hn => step (G ⟨n + 1, hn⟩) (B0 ⟨n + 1, hn⟩) (B1 ⟨n + 1, hn⟩) (B2 ⟨n + 1, hn⟩) (B3 ⟨n + 1, hn⟩)
      (if (n + 1) % 32 = 0 then init else run G B0 B1 B2 B3 n (Nat.lt_of_succ_lt hn))

/-- At a point that starts a row tile the totals are one step from zero. -/
theorem run_first (G : Fin cfg0.N → grid0.Coords) (B0 : Fin cfg0.N → Vec F S1024x128 .f32) (B1 : Fin cfg0.N → Vec F S256x128 .f32)
    (B2 : Fin cfg0.N → Vec F S1024x1 .i32) (B3 : Fin cfg0.N → Vec F S1x256 .i32) (t : Fin cfg0.N) (h : t.val % 32 = 0) :
    run G B0 B1 B2 B3 t.val t.isLt = step (G t) (B0 t) (B1 t) (B2 t) (B3 t) init := by
  obtain ⟨n, hn⟩ := t
  cases n with
  | zero => rfl
  | succ n => show step _ _ _ _ _ (if (n + 1) % 32 = 0 then init else _) = _; rw [if_pos h]

/-- At any other point they are one step from what the point before left. -/
theorem run_next (G : Fin cfg0.N → grid0.Coords) (B0 : Fin cfg0.N → Vec F S1024x128 .f32) (B1 : Fin cfg0.N → Vec F S256x128 .f32)
    (B2 : Fin cfg0.N → Vec F S1024x1 .i32) (B3 : Fin cfg0.N → Vec F S1x256 .i32) (t : Fin cfg0.N) (h : ¬t.val % 32 = 0) :
    run G B0 B1 B2 B3 t.val t.isLt = step (G t) (B0 t) (B1 t) (B2 t) (B3 t)
      (run G B0 B1 B2 B3 (t.val - 1) (Nat.lt_of_le_of_lt (Nat.sub_le _ _) t.isLt)) := by
  obtain ⟨n, hn⟩ := t
  cases n with
  | zero => exact absurd (Nat.zero_mod _) h
  | succ n => show step _ _ _ _ _ (if (n + 1) % 32 = 0 then init else _) = _; rw [if_neg h]; rfl

end Cert.Kernel.Acc

end
-- ==== Proof.BData.lean ====
import proofs.«114130_j9689446219883_1_alg».proof.Proof.Gen.Kernel.Launch
import proofs.«114130_j9689446219883_1_alg».proof.Proof.Gen.Kernel.Skeleton
import proofs.«114130_j9689446219883_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Tactic
import proofs.«114130_j9689446219883_1_alg».proof.Proof.BAccDef
set_option maxRecDepth 16384

noncomputable section

namespace Cert.Kernel.Data

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Acc

variable (m : (ℓ : Loc nD τ sig) → Buf (Elt F) ℓ) (ρ : Dev nD → PrngReg)

/-! ## What the region finds -/

/-- Core c's buffers at launch, as a valuation; -/
abbrev V₀ (c : Dev nD) : Valuation τ sig (Elt F) := fun b => m (c, b)
/-- and when the region is entered: the two reshapes of the labels have run. -/
abbrev V (c : Dev nD) (b : Ref sig .tc) : Buf (Elt F) ((c : Thread nD τ).loc b) := StableHlo.after hostOps0 (V₀ m c) (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three running totals after each grid point: the steps taken over the points' own blocks. -/
def tot (c : Dev nD) (n : ℕ) (hn : n < cfg0.N) : Tot F :=
  Acc.run (fun t => grid0.coords t) (fun t => iblk m c 0 t) (fun t => iblk m c 1 t) (fun t => iblk m c 2 t) (fun t => iblk m c 3 t) n hn

/-- What the first output's staging buffer holds after a point: the row terms computed from the totals. -/
def out4 (c : Dev nD) (t : Fin cfg0.N) : Vec F S1024x1 .f32 :=
  k0_pay7 (tot m c t.val t.isLt).p (tot m c t.val t.isLt).z (tot m c t.val t.isLt).s
/-- What the second output's staging buffer holds after a point: the rows' validity flags. -/
def out5 (c : Dev nD) (t : Fin cfg0.N) : Vec F S1024x1 .f32 := k0_pay8 (tot m c t.val t.isLt).p

/-- The three scratch operands as memrefs. -/
abbrev scZ : Memref sig .tc .vmem S1024x1 .f32 := Memref.whole cc0_scratch0
abbrev scS : Memref sig .tc .vmem S1024x1 .f32 := Memref.whole cc0_scratch1
abbrev scP : Memref sig .tc .vmem S1024x1 .f32 := Memref.whole cc0_scratch2

/-- The region's invariant before position n: before the first point the three scratch buffers at anything;
    afterwards each at its total after the point before. -/
def PhiS (c : Dev nD) : (n : ℕ) → n ≤ cfg0.N → sProp 𝕄
  | 0, _ => iprop((∃ d, owns (c : Thread nD τ) scZ fullShare d) ∗ (∃ d, owns (c : Thread nD τ) scS fullShare d) ∗ (∃ d, owns (c : Thread nD τ) scP fullShare d))
  | n + 1, hn => iprop(owns (c : Thread nD τ) scZ fullShare (tot m c n hn).z ∗ owns (c : Thread nD τ) scS fullShare (tot m c n hn).s
      ∗ owns (c : Thread nD τ) scP fullShare (tot m c n hn).p)

theorem PhiS_pos (c : Dev nD) (n : ℕ) (h : n ≤ cfg0.N) (hz : n ≠ 0) :
    PhiS m c n h = iprop(owns (c : Thread nD τ) scZ fullShare (tot m c (n - 1) (by omega)).z ∗ owns (c : Thread nD τ) scS fullShare (tot m c (n - 1) (by omega)).s
      ∗ owns (c : Thread nD τ) scP fullShare (tot m c (n - 1) (by omega)).p) := by
  cases n with
  | zero => exact absurd rfl hz
  | succ n => rfl

/-- The proof data of the pipeline on core c: the arrays as the region finds them; after the body each input's buffer
    at its block, the two outputs' at the row terms and flags of the totals; the invariant the scratch totals;
    the embeddings' array shared in halves between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]

theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]

end Cert.Kernel.Data

end
-- ==== Proof.BShares.lean ====
/-
  How the core's buffers are dealt to the pipeline's windows when two input windows read one array.

  The pallas_call has six windows over five buffers: windows 0 and 1 are both input windows on `main_arg0`, windows
  2 and 3 are input windows on `main_v0` and `main_v1`, windows 4 and 5 are output windows on `main_v2_0` and
  `main_v2_1`.  The pipeline's proof data holds one points-to per WINDOW, so the full share of `main_arg0` has to be
  divided between windows 0 and 1.  A points-to splits along any decomposition of its share, and a share is the
  composition of its left and right halves; so the proof data takes `main_arg0` at the left half for window 0 and at
  the right half for window 1, both at the same contents, and the two join again to the full share at exit.  Reading
  needs no full share: a points-to at any share agrees with the memory on all of its buffer.
-/
import proofs.«114130_j9689446219883_1_alg».proof.Proof.Gen.Kernel.Launch
import Idealize.ShloMosaic.Lib.Pipeline.Regions

noncomputable section

namespace Cert.Kernel.Shares

open Idealize.ShloMosaic Idealize.ShloMosaic.TcCoe
open Idealize.SL Idealize.SL.RA Idealize.SL.BI
open scoped Idealize.SL.BI
open Idealize.SL.BI.BIBase Idealize.SL.Sem
open Cert.Kernel.Gen

variable {F : FTy → Type} [FloatOps F]

local notation "𝕄" => MT nD τ sig Unit (Elt F) ℕ (UR sig nD τ) ℕ

variable {c : Dev nD} (dat : Pipeline.Dat τ (Elt F) Unit ℕ (UR sig nD τ) ℕ cfg0 c)

/-- An input window's array is held at the proof data's own share. -/
theorem share_in (w : Fin cfg0.W) (h : (cfg0.win w).isOut = false) : dat.share w = dat.q w := by
  unfold Pipeline.Dat.share
  rw [h]; rfl

/-- An output window's array is held at the full share. -/
theorem share_out (w : Fin cfg0.W) (h : (cfg0.win w).isOut = true) : dat.share w = fullShare := by
  unfold Pipeline.Dat.share
  rw [h]; rfl

/-- The buffers behind the six windows are five: `main_arg0` (windows 0 and 1), `main_v0`, `main_v1`, `main_v2_0`,
    `main_v2_1`. Each whole at the full share, one by one. -/
theorem arrBufs_chain (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v0) ↦{fullShare} W main_v0)
          ∗ (((c.tc : Thread nD τ).loc main_v1) ↦{fullShare} W main_v1) ∗ (((c.tc : Thread nD τ).loc main_v2_0) ↦{fullShare} W main_v2_0)
          ∗ (((c.tc : Thread nD τ).loc main_v2_1) ↦{fullShare} W main_v2_1)) := by
  unfold Pipeline.arrBufs
  exact bigSep_eq_bigSepL_of_eq [main_arg0, main_v0, main_v1, main_v2_0, main_v2_1] (by decide) (by decide) _

/-- Every window's array is a whole buffer: the windowed arrays are points-tos of the buffers behind them, each at
    its window's share. -/
theorem arrays_eq' (Fn : (w : Fin cfg0.W) → Buf (Elt F) ((cfg0.win w).arr.view.loc (c.tc : Thread nD τ))) :
    (dat.arrays Fn : sProp 𝕄)
      = bigSep Finset.univ fun w : Fin 6 => (((c.tc : Thread nD τ).loc (Pipeline.arrRef spec0 w)) ↦{dat.share w} Fn w : sProp 𝕄) := by
  unfold Pipeline.Dat.arrays
  exact bigSep_congr fun w _ => by rw [(arr_whole0 w).set_eq_univ]

/-- The same one by one: windows 0 to 3 are inputs (held at `dat.q`), windows 4 and 5 outputs (held at the full share). -/
theorem arrays_chain (Fn : (w : Fin cfg0.W) → Buf (Elt F) ((cfg0.win w).arr.view.loc (c.tc : Thread nD τ))) :
    (dat.arrays Fn : sProp 𝕄)
      = iprop((((c.tc : Thread nD τ).loc main_arg0) ↦{dat.q 0} Fn 0) ∗ (((c.tc : Thread nD τ).loc main_arg0) ↦{dat.q 1} Fn 1)
          ∗ (((c.tc : Thread nD τ).loc main_v0) ↦{dat.q 2} Fn 2) ∗ (((c.tc : Thread nD τ).loc main_v1) ↦{dat.q 3} Fn 3)
          ∗ (((c.tc : Thread nD τ).loc main_v2_0) ↦{fullShare} Fn 4) ∗ (((c.tc : Thread nD τ).loc main_v2_1) ↦{fullShare} Fn 5)) := by
  rw [arrays_eq', bigSep_W0, share_in dat 0 rfl, share_in dat 1 rfl, share_in dat 2 rfl, share_in dat 3 rfl, share_out dat 4 rfl, share_out dat 5 rfl]

/-- ENTRY. The five buffers behind the windows' arrays, each whole at the full share at contents `W`, make the proof
    data's arrays at the same contents: the full share of `main_arg0` is dealt in halves to the two input windows on
    it (the left half to window 0, the right half to window 1); every other array has one window, which holds it whole. -/
theorem arrays_of_arrBufs (hq0 : dat.q 0 = fullShare.left) (hq1 : dat.q 1 = fullShare.right) (hq2 : dat.q 2 = fullShare)
    (hq3 : dat.q 3 = fullShare) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    (Pipeline.arrBufs spec0 c W : sProp 𝕄) ⊢ dat.arrays Fn := by
  have hFn : Fn = fun w => W (Pipeline.arrRef spec0 w) := funext hF
  subst hFn
  rw [arrBufs_chain, arrays_chain, hq0, hq1, hq2, hq3]
  iintro ⟨H0, H2, H3, H4, H5⟩
  ihave H01 := (pointsTo_share (PosShare.mem_left_op_right fullShare)).1 $$ H0
  icases H01 with ⟨H0l, H0r⟩
  isplitl [H0l]; · iexact H0l
  isplitl [H0r]; · iexact H0r
  isplitl [H2]; · iexact H2
  isplitl [H3]; · iexact H3
  isplitl [H4]; · iexact H4
  iexact H5

/-- EXIT. The proof data's arrays at contents `W` give back the five buffers whole at the full share: the two halves of
    `main_arg0`'s share, at the same contents, join. -/
theorem arrBufs_of_arrays (hq0 : dat.q 0 = fullShare.left) (hq1 : dat.q 1 = fullShare.right) (hq2 : dat.q 2 = fullShare)
    (hq3 : dat.q 3 = fullShare) (W : (b : Ref sig .tc) → Buf (Elt F) ((c.tc : Thread nD τ).loc b))
    (Fn : (w : Fin cfg0.W) → Buf (Elt F) ((cfg0.win w).arr.view.loc (c.tc : Thread nD τ)))
    (hF : ∀ w, Fn w = W (Pipeline.arrRef spec0 w)) :
    dat.arrays Fn ⊢ (Pipeline.arrBufs spec0 c W : sProp 𝕄) := by
  have hFn : Fn = fun w => W (Pipeline.arrRef spec0 w) := funext hF
  subst hFn
  rw [arrBufs_chain, arrays_chain, hq0, hq1, hq2, hq3]
  iintro ⟨H0l, H0r, H2, H3, H4, H5⟩
  isplitl [H0l H0r]
  · iapply (pointsTo_share (PosShare.mem_left_op_right fullShare)).2
    isplitl [H0l]; · iexact H0l
    iexact H0r
  isplitl [H2]; · iexact H2
  isplitl [H3]; · iexact H3
  isplitl [H4]; · iexact H4
  iexact H5

/-- The proof data's arrays, each at whatever share, held beside the state interpretation of a state, say what the
    state's memory holds at each array: a points-to at any share agrees with the memory on all of the buffer. -/
theorem arrays_read (Fn : (w : Fin cfg0.W) → Buf (Elt F) ((cfg0.win w).arr.view.loc (c.tc : Thread nD τ)))
    (s' : Phys nD τ sig (Elt F)) :
    iprop(dat.arrays Fn ∗ SI s')
      ⊢ (iprop(⌜∀ w, s'.mem.mem ((cfg0.win w).arr.view.loc (c.tc : Thread nD τ)) = Fn w⌝ ∗ SI s') : sProp 𝕄) := by
  rw [arrays_eq']
  iintro ⟨Ha, HSI⟩
  ihave Hr := (pointsTo_read_all' Finset.univ (fun w : Fin 6 => (c.tc : Thread nD τ).loc (Pipeline.arrRef spec0 w)) Fn s'
      (fun w => dat.share w)) $$ [Ha HSI]
  · isplitl [Ha] <;> iassumption
  icases Hr with ⟨%ha, HSI⟩
  isplitr; · ipureintro; exact fun w => ha w (Finset.mem_univ w)
  iexact HSI

end Cert.Kernel.Shares

end
-- ==== Proof.BLaunch.lean ====
import proofs.«114130_j9689446219883_1_alg».proof.Proof.Gen.Kernel.Launch
import proofs.«114130_j9689446219883_1_alg».proof.Proof.Gen.Kernel.Skeleton
import proofs.«114130_j9689446219883_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Tactic
import proofs.«114130_j9689446219883_1_alg».proof.Proof.BData
import proofs.«114130_j9689446219883_1_alg».proof.Proof.BShares
set_option maxRecDepth 16384

noncomputable section

namespace Cert.Kernel.LaunchRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Data

variable (m : (ℓ : Loc nD τ sig) → Buf (Elt F) ℓ) (ρ : Dev nD → PrngReg)

/-! ## The buffers' contents at @main's three boundaries -/

/-- When the region is entered: the two reshapes have run. -/
abbrev W0 (c : Dev nD) : Valuation τ sig (Elt F) := StableHlo.after hostOps0 (V₀ m c)

/-- When the region is left: the two result arrays at what the pipeline's write-backs leave, every other buffer as entered. -/
def W1 (c : Dev nD) : Valuation τ sig (Elt F) := fun b =>
  if h4 : Proc.devRef .tc main_v2_0 = b then
    cast (congrArg (fun b' : DevRef τ sig => b'.ty.Contents (Elt F)) h4) ((dats m 0 c).arrAt 4 cfg0.N)
  else if h5 : Proc.devRef .tc main_v2_1 = b then
    cast (congrArg (fun b' : DevRef τ sig => b'.ty.Contents (Elt F)) h5) ((dats m 0 c).arrAt 5 cfg0.N)
  else W0 m c b

theorem W1_out4 (c : Dev nD) : W1 m c (Proc.devRef .tc main_v2_0) = (dats m 0 c).arrAt 4 cfg0.N := by
  unfold W1; rw [dif_pos rfl]; rfl
theorem W1_out5 (c : Dev nD) : W1 m c (Proc.devRef .tc main_v2_1) = (dats m 0 c).arrAt 5 cfg0.N := by
  unfold W1; rw [dif_neg (by decide), dif_pos rfl]; rfl
theorem W1_of_ne (c : Dev nD) (b : Ref sig .tc) (h4 : main_v2_0 ≠ b) (h5 : main_v2_1 ≠ b) :
    W1 m c (Proc.devRef .tc b) = W0 m c (Proc.devRef .tc b) := by
  unfold W1
  rw [dif_neg (fun e => h4 (Proc.devRef_injective _ e)), dif_neg (fun e => h5 (Proc.devRef_injective _ e))]

/-- The same read at the TensorCore's references. -/
abbrev V1 (c : Dev nD) (b : Ref sig .tc) : Buf (Elt F) ((c : Thread nD τ).loc b) := W1 m c (Proc.devRef .tc b)

/-- At the end: the six operations after the region have run. -/
abbrev W2 (c : Dev nD) : Valuation τ sig (Elt F) := StableHlo.after hostOps1 (W1 m c)

/-- At the region's exit each array of the pipeline holds what the pipeline leaves. -/
theorem hF1 (c : Dev nD) (w : Fin cfg0.W) : (dats m 0 c).arrAt w cfg0.N = V1 m c (Pipeline.arrRef spec0 w) := by
  match w with
  | ⟨0, _⟩ => exact ((dats m 0 c).arrAt_in 0 rfl _).trans ((A_eq m c 0).trans (W1_of_ne m c main_arg0 (by decide) (by decide)).symm)
  | ⟨1, _⟩ => exact ((dats m 0 c).arrAt_in 1 rfl _).trans ((A_eq m c 1).trans (W1_of_ne m c main_arg0 (by decide) (by decide)).symm)
  | ⟨2, _⟩ => exact ((dats m 0 c).arrAt_in 2 rfl _).trans ((A_eq m c 2).trans (W1_of_ne m c main_v0 (by decide) (by decide)).symm)
  | ⟨3, _⟩ => exact ((dats m 0 c).arrAt_in 3 rfl _).trans ((A_eq m c 3).trans (W1_of_ne m c main_v1 (by decide) (by decide)).symm)
  | ⟨4, _⟩ => exact (W1_out4 m c).symm
  | ⟨5, _⟩ => exact (W1_out5 m c).symm

/-- Off the pipeline's arrays nothing changed. -/
theorem hrest1 (c : Dev nD) : ∀ b, b ∉ Finset.univ.image (Pipeline.arrRef spec0) → V1 m c b = V m c b := fun b hb =>
  W1_of_ne m c b (fun e => hb (Finset.mem_image.mpr ⟨4, Finset.mem_univ _, e⟩)) (fun e => hb (Finset.mem_image.mpr ⟨5, Finset.mem_univ _, e⟩))

/-! ## The thread state -/

abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's owes, at nothing. -/
abbrev R (c : Dev nD) : sProp 𝕄 := iprop(∃ W, owes (c : Thread nD τ) (0 : CellTallies nD τ sig Unit) W)

/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := StableHlo.held (c : Thread nD τ) (Pipeline.ucRefs τ sig) (W2 m c)

/-! ## The region as a segment -/

set_option backward.isDefEq.respectTransparency.types false in
/-- The region over the thread state: entered from every unscoped buffer as the reshapes left it, the embeddings'
    array dealt in halves to its two windows; left with the two result arrays at what the write-backs leave. -/
def reg0 (hb : ∀ c, BodyObligation (dats m 0 c) (defs₀ (F := F)) 𝒱₀ () Set.univ) :
    Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V m c)
  hentry c := by
    rw [Pipeline.ownSems0_none]
    have hsplit : (unscopedBufs (Ix := Unit) (Name := ℕ) (U := UR sig nD τ) (Lvl := ℕ) c (V m c) : sProp 𝕄)
        = iprop(Pipeline.arrBufs spec0 c (V m c) ∗ Pipeline.unscopedRest spec0 c (V m c)) :=
      Pipeline.unscopedBufs_split₀ cfgs 0 winFacts₀0.arr_unscoped c (V m c)
    rw [show (unscopedBufs (Ix := Unit) (Name := ℕ) (U := UR sig nD τ) (Lvl := ℕ) c (V m c) : sProp 𝕄) = StableHlo.held (c : Thread nD τ) (Pipeline.ucRefs τ sig) (W0 m c)
      from Pipeline.unscopedBufs_held c (W0 m c)] at hsplit
    have harr := Cert.Kernel.Shares.arrays_of_arrBufs (dats m 0 c) (q0 m c) (q1 m c) (q2 m c) (q3 m c) (V m c)
      ((dats m 0 c).arrAt · 0) (fun w => A_eq m c w)
    iintro ⟨⟨Hub, HO⟩, -, -⟩
    ihave H := (Entails.of_eq hsplit) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiS m c 0 (Nat.zero_le _) from rfl]
    unfold PhiS; rw [scopedRest0_eq]; simp only [scZ, scS, scP, owns_whole]
    iintro ⟨-, -, Hr⟩
    iexact Hr
  hout c := by
    rw [Pipeline.ownSems0_none, show (dats m 0 c).Φ (Fin.last _) = PhiS m c cfg0.N (Nat.le_refl _) from rfl,
      PhiS_pos m c _ _ (by rw [show cfg0.N = 256 from N_0]; decide), scopedRest0_eq]
    simp only [scZ, scS, scP, owns_whole]
    iintro ⟨Hz, Hs, Hp⟩
    isplitr; · iempintro
    isplitr; · iempintro
    isplitl [Hz]; · iexists _; iexact Hz
    isplitl [Hs]; · iexists _; iexact Hs
    iexists _; iexact Hp
  hexit c := by
    have hsplit : (unscopedBufs (Ix := Unit) (Name := ℕ) (U := UR sig nD τ) (Lvl := ℕ) c (V1 m c) : sProp 𝕄)
        = iprop(Pipeline.arrBufs spec0 c (V1 m c) ∗ Pipeline.unscopedRest spec0 c (V1 m c)) :=
      Pipeline.unscopedBufs_split₀ cfgs 0 winFacts₀0.arr_unscoped c (V1 m c)
    rw [show (unscopedBufs (Ix := Unit) (Name := ℕ) (U := UR sig nD τ) (Lvl := ℕ) c (V1 m c) : sProp 𝕄) = StableHlo.held (c : Thread nD τ) (Pipeline.ucRefs τ sig) (W1 m c)
      from Pipeline.unscopedBufs_held c (W1 m c)] at hsplit
    have harr := Cert.Kernel.Shares.arrBufs_of_arrays (dats m 0 c) (q0 m c) (q1 m c) (q2 m c) (q3 m c) (V1 m c)
      ((dats m 0 c).arrAt · cfg0.N) (hF1 m c)
    have hrest : (Pipeline.unscopedRest (Ix := Unit) (Name := ℕ) (U := UR sig nD τ) (Lvl := ℕ) spec0 c (V m c) : sProp 𝕄)
        = Pipeline.unscopedRest spec0 c (V1 m c) := by
      unfold Pipeline.unscopedRest
      exact bigSep_congr fun b hb => by rw [hrest1 m c b (Finset.mem_sdiff.mp hb).2]
    iintro ⟨Ha, HO, -, Hrest⟩
    ihave Hb := harr $$ Ha
    ihave Hrest := (Entails.of_eq hrest) $$ Hrest
    imodintro
    isplitl [Hb Hrest]
    · iapply (Entails.of_eq hsplit.symm); isplitl [Hb] <;> iassumption
    unfold Pipeline.Dat.owesAt Pipeline.owesWithin
    icases HO with ⟨%W, -, HO⟩; iexists W; iexact HO

/-! ## @main as segments, and the launch -/

abbrev segs (hb : ∀ c, BodyObligation (dats m 0 c) (defs₀ (F := F)) 𝒱₀ () Set.univ) :
    List (Pipeline.Seg (pcfgs (F := F)) adm (dats m) () defs₀ 𝒱₀ L lv) :=
  [ .host (hseg hostOps0 hostOps0_sub hostOps0_fresh (V₀ m)),
    .region (reg0 m hb),
    .host (hseg hostOps1 hostOps1_sub hostOps1_fresh (W1 m)) ]

set_option backward.isDefEq.respectTransparency.types false in
/-- From any memory with zero counters every weakly fair execution of @main terminates, nothing faulting, and every
    unscoped buffer ends at the last boundary's contents. -/
theorem run_main (hb : ∀ c, BodyObligation (dats m 0 c) (defs₀ (F := F)) 𝒱₀ () Set.univ) :
    θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (dats m) () cellOf_inj emb₁ defs₀ 𝒱₀ L lv m ρ main (segs m hb)
    (fun c Q => by rw [main_segs adm (dats m) () 𝒱₀ L lv (hseg hostOps0 hostOps0_sub hostOps0_fresh (V₀ m)) (hseg hostOps1 hostOps1_sub hostOps1_fresh (W1 m)) (reg0 m hb) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W2 m c b)
    (hfin := fun c s' => by
      rw [show Tₙ m c = bigSep (Pipeline.ucRefs τ sig) (fun b => (((c : Thread nD τ)).1, b) ↦{fullShare} W2 m c b) from rfl]
      iintro ⟨Hh, HSI⟩
      imodintro
      iapply (pointsTo_read_all (Pipeline.ucRefs τ sig) (fun b => (((c : Thread nD τ)).1, b)) (W2 m c) s')
      isplitl [Hh] <;> iassumption)
    (hQ := fun s h c => h c)

end Cert.Kernel.LaunchRun

end
-- ==== Proof.BFrame.lean ====
import proofs.«114130_j9689446219883_1_alg».proof.Proof.Gen.Kernel.Launch
import proofs.«114130_j9689446219883_1_alg».proof.Proof.Gen.Kernel.Skeleton
import proofs.«114130_j9689446219883_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Tactic
import proofs.«114130_j9689446219883_1_alg».proof.Proof.BLaunch
set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Data Cert.Kernel.LaunchRun

variable (m : (ℓ : Loc nD τ sig) → Buf (Elt F) ℓ) (ρ : Dev nD → PrngReg)

/-- Neither reshape writes a buffer other than its own result. -/
theorem not_written (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, Finset.mem_singleton] <;>
    exact StableHlo.devRef_ne_of_ne ‹_›

/-- The embeddings reach the grid as launched. -/
theorem V_arg0 (c : Dev nD) : V m c main_arg0 = m ((c : Thread nD τ).loc main_arg0) :=
  StableHlo.after_of_forall_not_mem (b := Proc.devRef .tc main_arg0) hostOps0 (V₀ m c) (not_written main_arg0 (by decide))

/-- The labels reach the grid as launched. -/
theorem V_arg1 (c : Dev nD) : V m c main_arg1 = m ((c : Thread nD τ).loc main_arg1) :=
  StableHlo.after_of_forall_not_mem (b := Proc.devRef .tc main_arg1) hostOps0 (V₀ m c) (not_written main_arg1 (by decide))

/-- The six operations after the region write only their own results. -/
theorem not_written1 (b : Ref sig .tc)
    (hb : b ≠ main_cst ∧ b ≠ main_v3 ∧ b ≠ main_v4 ∧ b ≠ main_cst_0 ∧ b ≠ main_v5 ∧ b ≠ main_v6) :
    ∀ op ∈ (hostOps1 (F := F)), Proc.devRef .tc b ∉ op.writes := by
  obtain ⟨h0, h1, h2, h3, h4, h5⟩ := hb
  intro op hop
  simp only [List.mem_cons, List.mem_nil_iff, or_false] at hop
  rcases hop with rfl | rfl | rfl | rfl | rfl | rfl <;>
    simp only [StableHlo.unary_writes, StableHlo.binary_writes, StableHlo.nullary_writes, Finset.mem_singleton] <;>
    exact StableHlo.devRef_ne_of_ne ‹_›

/-- The embeddings end as launched: no host operation writes them and the region only reads them. -/
theorem W2_arg0 (c : Dev nD) : W2 m c (Proc.devRef .tc main_arg0) = m ((c : Thread nD τ).loc main_arg0) :=
  calc W2 m c (Proc.devRef .tc main_arg0)
    _ = W1 m c (Proc.devRef .tc main_arg0) :=
        StableHlo.after_of_forall_not_mem (b := Proc.devRef .tc main_arg0) hostOps1 (W1 m c) (not_written1 main_arg0 (by decide))
    _ = W0 m c (Proc.devRef .tc main_arg0) := W1_of_ne m c main_arg0 (by decide) (by decide)
    _ = m ((c : Thread nD τ).loc main_arg0) := V_arg0 m c

/-- The labels end as launched. -/
theorem W2_arg1 (c : Dev nD) : W2 m c (Proc.devRef .tc main_arg1) = m ((c : Thread nD τ).loc main_arg1) :=
  calc W2 m c (Proc.devRef .tc main_arg1)
    _ = W1 m c (Proc.devRef .tc main_arg1) :=
        StableHlo.after_of_forall_not_mem (b := Proc.devRef .tc main_arg1) hostOps1 (W1 m c) (not_written1 main_arg1 (by decide))
    _ = W0 m c (Proc.devRef .tc main_arg1) := W1_of_ne m c main_arg1 (by decide) (by decide)
    _ = m ((c : Thread nD τ).loc main_arg1) := V_arg1 m c

/-- The run read at the result and the two arguments. -/
theorem run_read (hb : ∀ c, BodyObligation (dats m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v6) = W2 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v6 (by decide)),
     (h c _ (mem_uc main_arg0 (by decide))).trans (W2_arg0 m c),
     (h c _ (mem_uc main_arg1 (by decide))).trans (W2_arg1 m c)⟩) (run_main m ρ hb)

/-- The program runs to the end, faults nowhere and leaves its two arguments as launched. -/
theorem frame (hb : ∀ c, BodyObligation (dats m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_read m ρ hb)

end Cert.Kernel.FrameRun

end
-- ==== Proof.BRun0.lean ====
/-
  The kernel body's runs: what is common to the three cases. The body branches twice on the column tile's number k:
  at k = 0 it first zeroes the three running totals, at k = 31 it finally writes the two outputs from them. Here are
  the two conditions as the body computes them, and three facts about a buffer accessed through the rectangle that
  is the whole shape: a load of it reads the contents, a store through it leaves its payload whatever was stored
  before, and a load after such a store reads that payload.
-/
import proofs.«114130_j9689446219883_1_alg».proof.Proof.Gen.Kernel.Launch
import proofs.«114130_j9689446219883_1_alg».proof.Proof.Gen.Kernel.Skeleton
import proofs.«114130_j9689446219883_1_alg».proof.Proof.Gen.Kernel.Points
import proofs.«114130_j9689446219883_1_alg».proof.Proof.BAccDef
import Idealize.ShloMosaic.Lib.Pipeline.FrameBody
import Idealize.ShloMosaic.Lib.Pipeline.FrameSuffix
import Idealize.ShloMosaic.Lib.Pipeline.Regions
import Idealize.ShloMosaic.Lib.Pipeline.Value
import Idealize.ShloMosaic.Lib.Tactic

noncomputable section

namespace Cert.Kernel.Run

open Cert.Kernel Cert.Kernel.Gen
open Idealize.ShloMosaic

/-- The first branch's condition (the column tile is the first). -/
abbrev cond0 (i : grid0.Coords) : Prop := (Scalar.cmpi .ne (Scalar.extui (Scalar.cmpi .eq (BitVec.ofNat 32 (i 1).val) 0#32)) 0#32) = 1#1
/-- The second branch's condition (the column tile is the last). -/
abbrev cond1 (i : grid0.Coords) : Prop := k0_cond2 i = 1#1

/-- The zero offsets of a whole-block access. -/
theorem hz2 : (![0, 0] : Fin 2 → Nat) = fun _ => 0 := by funext a; fin_cases a <;> rfl

section
variable {Val : EltTy → Type} [∀ e, Nonempty (Val e)] {sg : RefSig} {κ : Kind} {sp : Space} {S : Shape} {e : EltTy}

/-- A store through the whole-shape rectangle, made last, leaves its payload, whatever the buffer held and whatever
    was stored before. -/
theorem read_store_head (v : View sg κ sp S e) (f : v.ty.Contents Val) {off : Fin S.rank → Nat} (h : off = fun _ => 0)
    {inb : ∀ a, off a + S.size a ≤ S.size a} {w : S.Idx → Val e} (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

/-- A load through the whole-shape rectangle of a whole buffer reads its contents. -/
theorem readAt_whole (m : Memref sg κ sp S e) (hm : m.IsWhole) (X : S.Idx → Val e) {off : Fin S.rank → Nat}
    (h : off = fun _ => 0) {inb : ∀ a, off a + S.size a ≤ S.size a} :
    m.view.readAt Val (Rect.unit off S.size inb).toLoadRect (hm.unread X) = X := by
  rw [View.readAt_eq_ld, hm.read_unread, View.ld_unit_zero h inb]

/-- The same for a rank-2 buffer at the literal offsets (0, 0), in the form a rewriting pass can use. -/
theorem readAt_whole2 {n0 n1 : ℕ} (m : Memref sg κ sp ⟨2, ![n0, n1]⟩ e) (hm : m.IsWhole)
    (X : (⟨2, ![n0, n1]⟩ : Shape).Idx → Val e)
    {inb : ∀ a, (![0, 0] : Fin 2 → ℕ) a + (⟨2, ![n0, n1]⟩ : Shape).size a ≤ (⟨2, ![n0, n1]⟩ : Shape).size a} :
    m.view.readAt Val (Rect.unit ![0, 0] (⟨2, ![n0, n1]⟩ : Shape).size inb).toLoadRect (hm.unread X) = X :=
  readAt_whole m hm X hz2

end

end Cert.Kernel.Run

end
-- ==== Proof.BRunA.lean ====
/-
  The kernel body's run at a grid point whose column tile is the first (and not the last): the three running totals
  are zeroed and then take this tile's terms, so they end one step from zero whatever they held; the blocks read and
  the two outputs are left as they were.
-/
import proofs.«114130_j9689446219883_1_alg».proof.Proof.BRun0

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first column tile: from whole buffers holding the four blocks and anything in the two outputs and
    the three totals, it runs to the continuation with the totals one step from zero. -/
theorem kernelRun_A (c : Dev nD) (i : grid0.Coords) (arg2 : Memref sig .tc .vmem S1024x128 .f32) (harg2 : arg2.IsWhole) (arg3 : Memref sig .tc .vmem S256x128 .f32) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i)
    (x0 : Vec F S1024x128 .f32) (x1 : Vec F S256x128 .f32) (x2 : Vec F S1024x1 .i32) (x3 : Vec F S1x256 .i32)
    (xo4 xo5 z s p : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo4 ∗ owns (c : Thread nD τ) arg7 fullShare xo5
        ∗ owns (c : Thread nD τ) arg8 fullShare z ∗ owns (c : Thread nD τ) arg9 fullShare s ∗ owns (c : Thread nD τ) arg10 fullShare p
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ owns (c : Thread nD τ) arg8 fullShare (Acc.step i x0 x1 x2 x3 Acc.init).z
            ∗ owns (c : Thread nD τ) arg9 fullShare (Acc.step i x0 x1 x2 x3 Acc.init).s
            ∗ owns (c : Thread nD τ) arg10 fullShare (Acc.step i x0 x1 x2 x3 Acc.init).p) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9; obtain rfl := harg10.eq_unread hf10
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact hf4
    iexact H4
  isplitl [H5]
  · iexists _; isplitr
    · ipureintro; exact hf5
    iexact H5
  isplitl [H8]
  · iexists _; isplitr
    swap; · iexact H8
    ipureintro
    rw [read_store_head _ _ hz2]
    sl_unfold_run_names
    repeat rw [View.readCov_cons_toLoadRect]
    repeat rw [readAt_whole2]
    rfl
  isplitl [H9]
  · iexists _; isplitr
    swap; · iexact H9
    ipureintro
    rw [read_store_head _ _ hz2]
    sl_unfold_run_names
    repeat rw [View.readCov_cons_toLoadRect]
    repeat rw [readAt_whole2]
    rfl
  · iexists _; isplitr
    swap; · iexact H10
    ipureintro
    rw [read_store_head _ _ hz2]
    sl_unfold_run_names
    repeat rw [View.readCov_cons_toLoadRect]
    repeat rw [readAt_whole2]
    rfl

end Cert.Kernel.Run

end
-- ==== Proof.BRunB.lean ====
/-
  The kernel body's run at a grid point whose column tile is neither the first nor the last: the three running
  totals, whatever they held, each take this tile's terms; the blocks read and the two outputs are left as they were.
-/
import proofs.«114130_j9689446219883_1_alg».proof.Proof.BRun0

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle column tile: from whole buffers holding the four blocks, anything in the two outputs and the
    totals z s p, it runs to the continuation with the totals one step on. -/
theorem kernelRun_B (c : Dev nD) (i : grid0.Coords) (arg2 : Memref sig .tc .vmem S1024x128 .f32) (harg2 : arg2.IsWhole) (arg3 : Memref sig .tc .vmem S256x128 .f32) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i)
    (x0 : Vec F S1024x128 .f32) (x1 : Vec F S256x128 .f32) (x2 : Vec F S1024x1 .i32) (x3 : Vec F S1x256 .i32)
    (xo4 xo5 z s p : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo4 ∗ owns (c : Thread nD τ) arg7 fullShare xo5
        ∗ owns (c : Thread nD τ) arg8 fullShare z ∗ owns (c : Thread nD τ) arg9 fullShare s ∗ owns (c : Thread nD τ) arg10 fullShare p
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ owns (c : Thread nD τ) arg8 fullShare (Acc.step i x0 x1 x2 x3 ⟨z, s, p⟩).z
            ∗ owns (c : Thread nD τ) arg9 fullShare (Acc.step i x0 x1 x2 x3 ⟨z, s, p⟩).s
            ∗ owns (c : Thread nD τ) arg10 fullShare (Acc.step i x0 x1 x2 x3 ⟨z, s, p⟩).p) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9; obtain rfl := harg10.eq_unread hf10
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact hf4
    iexact H4
  isplitl [H5]
  · iexists _; isplitr
    · ipureintro; exact hf5
    iexact H5
  isplitl [H8]
  · iexists _; isplitr
    swap; · iexact H8
    ipureintro
    rw [read_store_head _ _ hz2]
    sl_unfold_run_names
    repeat rw [View.readCov_cons_toLoadRect]
    repeat rw [readAt_whole2]
    rfl
  isplitl [H9]
  · iexists _; isplitr
    swap; · iexact H9
    ipureintro
    rw [read_store_head _ _ hz2]
    sl_unfold_run_names
    repeat rw [View.readCov_cons_toLoadRect]
    repeat rw [readAt_whole2]
    rfl
  · iexists _; isplitr
    swap; · iexact H10
    ipureintro
    rw [read_store_head _ _ hz2]
    sl_unfold_run_names
    repeat rw [View.readCov_cons_toLoadRect]
    repeat rw [readAt_whole2]
    rfl

end Cert.Kernel.Run

end
-- ==== Proof.BRunC.lean ====
/-
  The kernel body's run at a grid point whose column tile is the last (and not the first): the three running totals
  each take this tile's terms, and the two outputs are then written from the totals so reached — each row's term of
  the loss and the bit "the row has a positive" — whatever the outputs held; the blocks read are left as they were.
-/
import proofs.«114130_j9689446219883_1_alg».proof.Proof.BRun0

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last column tile: from whole buffers holding the four blocks, anything in the two outputs and the
    totals z s p, it runs to the continuation with the totals one step on and the two outputs written from them. -/
theorem kernelRun_C (c : Dev nD) (i : grid0.Coords) (arg2 : Memref sig .tc .vmem S1024x128 .f32) (harg2 : arg2.IsWhole) (arg3 : Memref sig .tc .vmem S256x128 .f32) (harg3 : arg3.IsWhole) (arg4 : Memref sig .tc .vmem S1024x1 .i32) (harg4 : arg4.IsWhole) (arg5 : Memref sig .tc .vmem S1x256 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i)
    (x0 : Vec F S1024x128 .f32) (x1 : Vec F S256x128 .f32) (x2 : Vec F S1024x1 .i32) (x3 : Vec F S1x256 .i32)
    (xo4 xo5 z s p : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo4 ∗ owns (c : Thread nD τ) arg7 fullShare xo5
        ∗ owns (c : Thread nD τ) arg8 fullShare z ∗ owns (c : Thread nD τ) arg9 fullShare s ∗ owns (c : Thread nD τ) arg10 fullShare p
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay7 (Acc.step i x0 x1 x2 x3 ⟨z, s, p⟩).p (Acc.step i x0 x1 x2 x3 ⟨z, s, p⟩).z (Acc.step i x0 x1 x2 x3 ⟨z, s, p⟩).s)
            ∗ owns (c : Thread nD τ) arg7 fullShare (k0_pay8 (Acc.step i x0 x1 x2 x3 ⟨z, s, p⟩).p)
            ∗ owns (c : Thread nD τ) arg8 fullShare (Acc.step i x0 x1 x2 x3 ⟨z, s, p⟩).z
            ∗ owns (c : Thread nD τ) arg9 fullShare (Acc.step i x0 x1 x2 x3 ⟨z, s, p⟩).s
            ∗ owns (c : Thread nD τ) arg10 fullShare (Acc.step i x0 x1 x2 x3 ⟨z, s, p⟩).p) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9; obtain rfl := harg10.eq_unread hf10
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    swap; · iexact H4
    ipureintro
    try sl_unfold_run_names
    rw [read_store_head _ _ hz2]
    try sl_unfold_run_names
    repeat rw [View.readCov_cons_toLoadRect]
    repeat rw [readAt_whole2]
    rfl
  isplitl [H5]
  · iexists _; isplitr
    swap; · iexact H5
    ipureintro
    try sl_unfold_run_names
    rw [read_store_head _ _ hz2]
    try sl_unfold_run_names
    repeat rw [View.readCov_cons_toLoadRect]
    repeat rw [readAt_whole2]
    rfl
  isplitl [H8]
  · iexists _; isplitr
    swap; · iexact H8
    ipureintro
    try sl_unfold_run_names
    rw [read_store_head _ _ hz2]
    try sl_unfold_run_names
    repeat rw [View.readCov_cons_toLoadRect]
    repeat rw [readAt_whole2]
    rfl
  isplitl [H9]
  · iexists _; isplitr
    swap; · iexact H9
    ipureintro
    try sl_unfold_run_names
    rw [read_store_head _ _ hz2]
    try sl_unfold_run_names
    repeat rw [View.readCov_cons_toLoadRect]
    repeat rw [readAt_whole2]
    rfl
  · iexists _; isplitr
    swap; · iexact H10
    ipureintro
    try sl_unfold_run_names
    rw [read_store_head _ _ hz2]
    try sl_unfold_run_names
    repeat rw [View.readCov_cons_toLoadRect]
    repeat rw [readAt_whole2]
    rfl

end Cert.Kernel.Run

end
-- ==== Proof.BBody.lean ====
/-
  The kernel body's obligation to the pipeline: at every grid point, from what the pipeline hands the body to what it
  takes back.

  At a point t the body is handed the six windows' current staging buffers and, through the invariant, the three
  scratch buffers. The four input buffers hold their blocks at every point (fetched there or left from the point
  before, whose block is the same). The column tile's number decides the case: at the first column tile (t % 32 = 0)
  the totals restart from zero, whatever the scratch held; at every other they continue from the totals after the point
  before; at the last (t % 32 = 31) the two outputs are written from the totals, and only there: elsewhere the outputs'
  buffers are handed back as found and are not written back. In every case the scratch is taken back at the totals
  after the point.
-/
import proofs.«114130_j9689446219883_1_alg».proof.Proof.BData
import proofs.«114130_j9689446219883_1_alg».proof.Proof.BRunA
import proofs.«114130_j9689446219883_1_alg».proof.Proof.BRunB
import proofs.«114130_j9689446219883_1_alg».proof.Proof.BRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Acc Cert.Kernel.Data Cert.Kernel.Run

variable (m : (ℓ : Loc nD τ sig) → Buf (Elt F) ℓ)

/-! ## The two branch conditions in closed form, and where the outputs are idle -/

/-- The first condition holds at the points whose column tile is the first. -/
theorem hcond0 : ∀ t : Fin cfg0.N, cond0 (grid0.coords t) ↔ t.val % 32 = 0 :=
  (by decide +kernel : ∀ t : Fin grid0.N, cond0 (grid0.coords t) ↔ t.val % 32 = 0)
/-- The second condition holds at the points whose column tile is the last. -/
theorem hcond1 : ∀ t : Fin cfg0.N, cond1 (grid0.coords t) ↔ t.val % 32 = 31 :=
  (by decide +kernel : ∀ t : Fin grid0.N, cond1 (grid0.coords t) ↔ t.val % 32 = 31)

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- The outputs are idle except at the last column tile, -/
theorem idleAt0_4 : ∀ t : Fin cfg0.N, ¬t.val % 32 = 31 → cfg0.idle 4 (grid0.coords t) = true :=
  (by decide +kernel : ∀ t : Fin grid0.N, ¬t.val % 32 = 31 → cfg0.idle 4 (grid0.coords t) = true)
theorem idleAt0_5 : ∀ t : Fin cfg0.N, ¬t.val % 32 = 31 → cfg0.idle 5 (grid0.coords t) = true :=
  (by decide +kernel : ∀ t : Fin grid0.N, ¬t.val % 32 = 31 → cfg0.idle 5 (grid0.coords t) = true)
/-- where they are live, -/
theorem liveAt0_4 : ∀ t : Fin cfg0.N, t.val % 32 = 31 → cfg0.idle 4 (grid0.coords t) = false :=
  (by decide +kernel : ∀ t : Fin grid0.N, t.val % 32 = 31 → cfg0.idle 4 (grid0.coords t) = false)
theorem liveAt0_5 : ∀ t : Fin cfg0.N, t.val % 32 = 31 → cfg0.idle 5 (grid0.coords t) = false :=
  (by decide +kernel : ∀ t : Fin grid0.N, t.val % 32 = 31 → cfg0.idle 5 (grid0.coords t) = false)
/-- and elsewhere they are not written back. -/
theorem noFlush0_4 (t : Fin cfg0.N) (h : ¬t.val % 32 = 31) : (cfg0.win 4).flush t = false := by
  cases hf : (cfg0.win 4).flush t with
  | false => rfl
  | true => exact absurd ((flush0_4 t).mp hf) h
theorem noFlush0_5 (t : Fin cfg0.N) (h : ¬t.val % 32 = 31) : (cfg0.win 5).flush t = false := by
  cases hf : (cfg0.win 5).flush t with
  | false => rfl
  | true => exact absurd ((flush0_5 t).mp hf) h

/-! ## The staging memrefs as the pipeline passes them -/

abbrev ms0_0 (t : Fin cfg0.N) : Memref sig .tc .vmem S1024x128 .f32 := win0_0.stage (cfg0.slots t 0)
abbrev ms0_1 (t : Fin cfg0.N) : Memref sig .tc .vmem S256x128 .f32 := win0_1.stage (cfg0.slots t 1)
abbrev ms0_2 (t : Fin cfg0.N) : Memref sig .tc .vmem S1024x1 .i32 := win0_2.stage (cfg0.slots t 2)
abbrev ms0_3 (t : Fin cfg0.N) : Memref sig .tc .vmem S1x256 .i32 := win0_3.stage (cfg0.slots t 3)
abbrev ms0_4 (t : Fin cfg0.N) : Memref sig .tc .vmem S1024x1 .f32 := win0_4.stage (cfg0.slots t 4)
abbrev ms0_5 (t : Fin cfg0.N) : Memref sig .tc .vmem S1024x1 .f32 := win0_5.stage (cfg0.slots t 5)

/-! ## The inputs' buffers hold their blocks at every point -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The invariant at a point's start and end -/

theorem PhiS_zero (c : Dev nD) (n : ℕ) (h : n ≤ cfg0.N) (hz : n = 0) :
    PhiS m c n h = iprop((∃ d, owns (c : Thread nD τ) scZ fullShare d) ∗ (∃ d, owns (c : Thread nD τ) scS fullShare d)
      ∗ (∃ d, owns (c : Thread nD τ) scP fullShare d)) := by
  subst hz; rfl

theorem PhiS_castSucc (c : Dev nD) (t : Fin cfg0.N) :
    (dats m 0 c).Φ t.castSucc = PhiS m c t.val (Nat.le_of_lt t.isLt) := by
  dsimp only [dats]; simp only [Fin.coe_castSucc]

theorem PhiS_succ (c : Dev nD) (t : Fin cfg0.N) :
    (dats m 0 c).Φ t.succ = iprop(owns (c : Thread nD τ) scZ fullShare (tot m c t.val t.isLt).z
      ∗ owns (c : Thread nD τ) scS fullShare (tot m c t.val t.isLt).s
      ∗ owns (c : Thread nD τ) scP fullShare (tot m c t.val t.isLt).p) := rfl

/-- The totals after a point that starts a row tile: one step from zero over the point's blocks. -/
theorem tot_first (c : Dev nD) (t : Fin cfg0.N) (h : t.val % 32 = 0) :
    tot m c t.val t.isLt
      = Acc.step (grid0.coords t) (iblk m c 0 t) (iblk m c 1 t) (iblk m c 2 t) (iblk m c 3 t) Acc.init :=
  Acc.run_first _ _ _ _ _ t h

/-- The totals after any other point: one step from the totals after the point before. -/
theorem tot_next (c : Dev nD) (t : Fin cfg0.N) (h : ¬t.val % 32 = 0) :
    tot m c t.val t.isLt
      = Acc.step (grid0.coords t) (iblk m c 0 t) (iblk m c 1 t) (iblk m c 2 t) (iblk m c 3 t)
          (tot m c (t.val - 1) (Nat.lt_of_le_of_lt (Nat.sub_le _ _) t.isLt)) :=
  Acc.run_next _ _ _ _ _ t h

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input's buffer is taken back at its block. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
/-- At the last column tile an output's buffer is taken back at what the totals give. -/
theorem leaves0_4_last (c : Dev nD) (t : Fin cfg0.N) (h : t.val % 32 = 31) :
    (dats m 0 c).leavesExact 4 t = owns (c : Thread nD τ) (ms0_4 t) fullShare (out4 m c t) := by
  unfold Dat.leavesExact; rw [liveAt0_4 t h, after0_4]
theorem leaves0_5_last (c : Dev nD) (t : Fin cfg0.N) (h : t.val % 32 = 31) :
    (dats m 0 c).leavesExact 5 t = owns (c : Thread nD τ) (ms0_5 t) fullShare (out5 m c t) := by
  unfold Dat.leavesExact; rw [liveAt0_5 t h, after0_5]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [PhiS_succ, leaves0_0, leaves0_1, leaves0_2, leaves0_3]
  by_cases h0 : t.val % 32 = 0
  · by_cases h1 : t.val % 32 = 31
    · exfalso; omega
    · rw [Dat.leavesExact_idle (dats m 0 c) 4 t (idleAt0_4 t h1) (noFlush0_4 t h1),
        Dat.leavesExact_idle (dats m 0 c) 5 t (idleAt0_5 t h1) (noFlush0_5 t h1), tot_first m c t h0]
      by_cases hz : t.val = 0
      · rw [PhiS_castSucc m c t, PhiS_zero m c _ _ hz]
        iintro ⟨⟨⟨%z, HZ⟩, ⟨%s, HS⟩, ⟨%p, HP⟩⟩, Ho, ⟨%d0, H0⟩, ⟨%d1, H1⟩, ⟨%d2, H2⟩, ⟨%d3, H3⟩, ⟨%d4, H4⟩, ⟨%d5, H5⟩⟩
        iapply (kernelRun_A c (grid0.coords t) _ _ _ _ _ _ _ _ _ _ _ _ _ _ _ _ _ _ ((hcond0 t).mpr h0) (fun h => h1 ((hcond1 t).mp h))
          (iblk m c 0 t) (iblk m c 1 t) (iblk m c 2 t) (iblk m c 3 t) _ _ z s p Set.univ _)
        isplitl [H0]; · iexact H0
        isplitl [H1]; · iexact H1
        isplitl [H2]; · iexact H2
        isplitl [H3]; · iexact H3
        isplitl [H4]; · iexact H4
        isplitl [H5]; · iexact H5
        isplitl [HZ]; · iexact HZ
        isplitl [HS]; · iexact HS
        isplitl [HP]; · iexact HP
        iintro ⟨H0, H1, H2, H3, H4, H5, HZ, HS, HP⟩
        isplitl [HZ HS HP]
        · isplitl [HZ]; · iexact HZ
          isplitl [HS]; · iexact HS
          iexact HP
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨HZ, HS, HP⟩, Ho, ⟨%d0, H0⟩, ⟨%d1, H1⟩, ⟨%d2, H2⟩, ⟨%d3, H3⟩, ⟨%d4, H4⟩, ⟨%d5, H5⟩⟩
        iapply (kernelRun_A c (grid0.coords t) _ _ _ _ _ _ _ _ _ _ _ _ _ _ _ _ _ _ ((hcond0 t).mpr h0) (fun h => h1 ((hcond1 t).mp h))
          (iblk m c 0 t) (iblk m c 1 t) (iblk m c 2 t) (iblk m c 3 t) _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HZ]; · iexact HZ
        isplitl [HS]; · iexact HS
        isplitl [HP]; · iexact HP
        iintro ⟨H0, H1, H2, H3, H4, H5, HZ, HS, HP⟩
        isplitl [HZ HS HP]
        · isplitl [HZ]; · iexact HZ
          isplitl [HS]; · iexact HS
          iexact HP
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun e => h0 (by rw [e])
    by_cases h1 : t.val % 32 = 31
    · rw [leaves0_4_last m c t h1, leaves0_5_last m c t h1]
      unfold out4 out5
      rw [tot_next m c t h0, PhiS_castSucc m c t, PhiS_pos m c _ _ hz]
      iintro ⟨⟨HZ, HS, HP⟩, Ho, ⟨%d0, H0⟩, ⟨%d1, H1⟩, ⟨%d2, H2⟩, ⟨%d3, H3⟩, ⟨%d4, H4⟩, ⟨%d5, H5⟩⟩
      iapply (kernelRun_C c (grid0.coords t) _ _ _ _ _ _ _ _ _ _ _ _ _ _ _ _ _ _ (fun h => h0 ((hcond0 t).mp h)) ((hcond1 t).mpr h1)
        (iblk m c 0 t) (iblk m c 1 t) (iblk m c 2 t) (iblk m c 3 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HZ]; · iexact HZ
      isplitl [HS]; · iexact HS
      isplitl [HP]; · iexact HP
      iintro ⟨H0, H1, H2, H3, H4, H5, HZ, HS, HP⟩
      isplitl [HZ HS HP]
      · isplitl [HZ]; · iexact HZ
        isplitl [HS]; · iexact HS
        iexact HP
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 4 t (idleAt0_4 t h1) (noFlush0_4 t h1),
        Dat.leavesExact_idle (dats m 0 c) 5 t (idleAt0_5 t h1) (noFlush0_5 t h1), tot_next m c t h0,
        PhiS_castSucc m c t, PhiS_pos m c _ _ hz]
      iintro ⟨⟨HZ, HS, HP⟩, Ho, ⟨%d0, H0⟩, ⟨%d1, H1⟩, ⟨%d2, H2⟩, ⟨%d3, H3⟩, ⟨%d4, H4⟩, ⟨%d5, H5⟩⟩
      iapply (kernelRun_B c (grid0.coords t) _ _ _ _ _ _ _ _ _ _ _ _ _ _ _ _ _ _ (fun h => h0 ((hcond0 t).mp h)) (fun h => h1 ((hcond1 t).mp h))
        (iblk m c 0 t) (iblk m c 1 t) (iblk m c 2 t) (iblk m c 3 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HZ]; · iexact HZ
      isplitl [HS]; · iexact HS
      isplitl [HP]; · iexact HP
      iintro ⟨H0, H1, H2, H3, H4, H5, HZ, HS, HP⟩
      isplitl [HZ HS HP]
      · isplitl [HZ]; · iexact HZ
        isplitl [HS]; · iexact HS
        iexact HP
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- THE BODY OBLIGATION of the pipeline library, at every point. -/
theorem body_obligation (c : Dev nD) :
    BodyObligation (dats (F := F) m 0 c) (defs₀ (F := F)) Variants.none () Set.univ := fun t => by
  rw [bigSep_W0, bigSep_W0]
  exact sound_body m c t

end Cert.Kernel.Body

end
-- ==== Proof.lean ====
/-
  The certificate: a supervised contrastive loss over 8192 embeddings of width 128 and their labels.

  Both programs scale every row of the embeddings to unit length, form the 8192 x 8192 matrix of inner products over
  the temperature, and for each row a take the normaliser Z a = sum over b ≠ a of exp (logit a b), the sum S a of the
  logits against the other rows with a's label, their number cnt a, the row term S a / cnt a - log Z a (0 when
  cnt a = 0), and the loss minus the sum of the row terms over the number of rows with cnt a > 0 (Spec.lean).
  The kernel walks an 8 x 32 grid of 1024 x 256 tiles, keeping the three row totals of a row tile in scratch while it
  crosses the 32 column tiles, and writes the row terms at the last column tile; the host sums them. Its two windows
  on the embeddings read one array, which the launch deals to them in halves of the full share.
  The kernel multiplies by a constant that its source spells 1 / 0.1 and the reference divides by the single-precision
  0.1: the constant is named the exact reciprocal of that number, and the two scalings agree. The kernel scales a
  row by the reciprocal square root of its sum of squares, the reference divides by the square root: equal when the
  sum of squares is positive, which the precondition states of every row (a zero row has no direction: the
  reference divides zero by zero there). The reference subtracts log Z a from every logit before summing against
  the mask and dividing by cnt a, the kernel subtracts it once after dividing: equal because every quantity is a real
  number under the precondition and the mask sums to cnt a.
-/
import proofs.«114130_j9689446219883_1_alg».proof.Defs
import proofs.«114130_j9689446219883_1_alg».proof.Proof.Gen.Kernel
import proofs.«114130_j9689446219883_1_alg».proof.Proof.Gen.KernelIdeal
import proofs.«114130_j9689446219883_1_alg».proof.Proof.Gen.ReferenceIdeal
import proofs.«114130_j9689446219883_1_alg».proof.Proof.Gen.Pre_finite_inputs
import proofs.«114130_j9689446219883_1_alg».proof.Proof.RefRun
import proofs.«114130_j9689446219883_1_alg».proof.Proof.RefValueC
import proofs.«114130_j9689446219883_1_alg».proof.Proof.PreDecode
import proofs.«114130_j9689446219883_1_alg».proof.Proof.KFrame
import proofs.«114130_j9689446219883_1_alg».proof.Proof.KBody
import proofs.«114130_j9689446219883_1_alg».proof.Proof.KFinal
import proofs.«114130_j9689446219883_1_alg».proof.Proof.BFrame
import proofs.«114130_j9689446219883_1_alg».proof.Proof.BBody
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ =>
  Cert.Kernel.FrameRun.frame (F := Bits) m ρ (fun c => Cert.Kernel.Body.body_obligation m c)

/-- So does the idealized kernel. -/
theorem frame_ki : Cert.frame_KernelIdeal := fun m ρ _ =>
  Cert.KernelIdeal.FrameRun.frame (F := Ideal) m ρ (fun c => Cert.KernelIdeal.Body.body_obligation m c)

/-- So does the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the kernel's constant ten is named the reciprocal of the reference's one tenth. -/
theorem preserves : Cert.preserves_Kernel_KernelIdeal :=
  IdealRules.named_const.statement Cert.KernelIdeal.κ "inv_temperature" .f32 0x41200000#32 ((134217728 / 13421773 : ℝ) : EReal) rfl

/-- Both programs end with the loss of Spec.lean of the two argument arrays. -/
theorem algebraic :
    Cert.algebraic_KernelIdeal_ReferenceIdeal := by
  intro m ρ m' ρ' hpre hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Final.result_eq m c), (h c).2.1, (h c).2.2⟩)
      (Cert.KernelIdeal.FrameRun.run_read (F := Ideal) m ρ (fun c => Cert.KernelIdeal.Body.body_obligation m c))
  · refine (θ_run Cert.ReferenceIdeal.defs _ _).mono (fun r h c => ⟨(h c).1.trans ?_, (h c).2.1, (h c).2.2⟩)
      (Cert.ReferenceIdeal.ValueP.run (F := Ideal) m' ρ')
    have hP := Cert.PreDecode.of_pre _ _ (hpre c)
    have e0 := (hagree c).1
    have e1 := (hagree c).2
    rw [Cert.RefValue.ref_eq_loss m' c (by rw [e0]; exact hP.1) (by rw [e0]; exact hP.2), e0, e1]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
